-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x128 : Shape := ⟨2, ![2048, 128]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_

variable [Facts]

def fn_part1 {F : FTy → Type} [FloatOps F] (main_v13 : IVec S_ 1) (main_v16 : IVec S2048x128 1) : IVec S_ 1 :=
  let main_c_5 : IVec S_ 1 := constantI S_ 1 1#1
  let main_v17 : IVec S_ 1 := (fun x v => Host.reduce IntOp.andi x v reducesTo_S2048x128_S_d0_1 h_S_) main_v16 main_c_5
  let main_v18 : IVec S_ 1 := andi main_v13 main_v17
  main_v18

def fn {F : FTy → Type} [FloatOps F] (main_arg0 : FVec F S4x4096x2048 .f32) (main_arg1 : FVec F S2048x128 .f32) (main_arg2 : FVec F S2048x128 .f32) (main_arg3 : FVec F S2048x128 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S2048x128 .f32 := Host.absf main_arg2
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_c_3 : IVec S_ 1 := constantI S_ 1 1#1
  let main_v12 : IVec S_ 1 := (fun x v => Host.reduce IntOp.andi x v reducesTo_S2048x128_S_d0_1 h_S_) main_v11 main_c_3
  let main_v13 : IVec S_ 1 := andi main_v8 main_v12
  let main_v14 : FVec F S2048x128 .f32 := Host.absf main_arg3
  let main_cst_4 : FVec F S_ .f32 := constant S_ .f32 0x7F800000#32
  let main_v15 : FVec F S2048x128 .f32 := broadcastInDim S2048x128 ![] bcast_S_S2048x128 main_cst_4
  let main_v16 : IVec S2048x128 1 := cmpf .olt main_v14 main_v15
  fn_part1 (F := F) main_v13 main_v16
-- ==== Kernel.lean ====
abbrev S4x4096x2048 : Shape := ⟨3, ![4, 4096, 2048]⟩
abbrev S2048x128 : Shape := ⟨2, ![2048, 128]⟩
abbrev S2048x384 : Shape := ⟨2, ![2048, 384]⟩
abbrev S16384x2048 : Shape := ⟨2, ![16384, 2048]⟩
abbrev S16384x128 : Shape := ⟨2, ![16384, 128]⟩
abbrev S1024x2048 : Shape := ⟨2, ![1024, 2048]⟩
abbrev S1024x128 : Shape := ⟨2, ![1024, 128]⟩
abbrev S1024x384 : Shape := ⟨2, ![1024, 384]⟩
abbrev S4x4096x128 : Shape := ⟨3, ![4, 4096, 128]⟩
abbrev S1x1024x128 : Shape := ⟨3, ![1, 1024, 128]⟩
abbrev S1024x1 : Shape := ⟨2, ![1024, 1]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S4x4096x2048, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x384, .f32⟩
  | .hbm, ⟨5, _⟩ => ⟨S2048x384, .bf16⟩
  | .hbm, ⟨6, _⟩ => ⟨S16384x2048, .f32⟩
  | .hbm, ⟨7, _⟩ => ⟨S16384x128, .bf16⟩
  | .hbm, ⟨8, _⟩ => ⟨S16384x128, .bf16⟩
  | .hbm, ⟨9, _⟩ => ⟨S16384x128, .bf16⟩
  | .hbm, ⟨10, _⟩ => ⟨S4x4096x128, .bf16⟩
  | .hbm, ⟨11, _⟩ => ⟨S4x4096x128, .bf16⟩
  | .hbm, ⟨12, _⟩ => ⟨S4x4096x128, .bf16⟩
  | .hbm, ⟨13, _⟩ => ⟨S4x4096x128, .f32⟩
  | .local _ .vmem, ⟨0, _⟩ => ⟨S1024x2048, .f32⟩
  | .local _ .vmem, ⟨1, _⟩ => ⟨S1024x2048, .f32⟩
  | .local _ .vmem, ⟨2, _⟩ => ⟨S2048x384, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S1x1024x128, .bf16⟩
  | .local _ .vmem, ⟨15, _⟩ => ⟨S1x1024x128, .f32⟩
  | .local _ .vmem, ⟨16, _⟩ => ⟨S1x1024x128, .f32⟩
  | .local _ .vmem, ⟨17, _⟩ => ⟨S1024x1, .f32⟩
  | .local _ .vmem, ⟨18, _⟩ => ⟨S1024x1, .f32⟩
  | .local _ .vmem, ⟨19, _⟩ => ⟨S1024x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![4, 4, 4], ![false, false, false]⟩

def k1_cond4 (i : grid1.Coords) : BitVec 1 :=
  let arg2 : BitVec 32 := BitVec.ofNat 32 (i 2).val
  let arg1 : BitVec 32 := BitVec.ofNat 32 (i 1).val
  let v9 : BitVec 1 := Scalar.cmpi .eq arg2 arg1
  let v10 : BitVec 32 := Scalar.extui v9
  let c0_i32_3 : BitVec 32 := 0#32
  let v11 : BitVec 1 := Scalar.cmpi .ne v10 c0_i32_3
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  concatenates_S2048x128_S2048x128_S2048x128_S2048x384_d1 : Shape.Concatenates [S2048x128, S2048x128, S2048x128] S2048x384 1
  bitsLt_bf16_f32 : FTy.bits .bf16 < FTy.bits .f32
  shapeCasts_S4x4096x2048_S16384x2048 : S4x4096x2048.ShapeCasts S16384x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  slices_S1024x384_o0_0_S1024x128 : S1024x384.Slices ![0, 0] S1024x128
  inb_S1024x128_S1024x128_0_0 : ∀ a, (![0, 0] : Fin 2 → Nat) a + S1024x128.size a ≤ S1024x128.size a
  h_S1024x128 : 0 < S1024x128.numel
  packedbf16_S1024x128_S1024x128_0_0 : (Rect.unit (s := S1024x128) ![0, 0] S1024x128.size inb_S1024x128_S1024x128_0_0).PackedRows (EltTy.packing .bf16)
  slices_S1024x384_o0_128_S1024x128 : S1024x384.Slices ![0, 128] S1024x128
  slices_S1024x384_o0_256_S1024x128 : S1024x384.Slices ![0, 256] S1024x128
  shapeCasts_S16384x128_S4x4096x128 : S16384x128.ShapeCasts S4x4096x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x128_S1024x128 : S1024x128.ShapeCasts S1024x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  transposes_S1024x128_p1_0_S128x1024 : S1024x128.Transposes [1, 0] S128x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  iota_S1024x1024_d0_w32 : S1024x1024.Iotas .tc 32 [0]
  iota_S1024x1024_d1_w32 : S1024x1024.Iotas .tc 32 [1]
  shapeCasts_S1024x128_S1x1024x128 : S1024x128.ShapeCasts S1x1024x128
  dot_S1024x2048_S2048x384_S1024x384_1_0_0_1_n_n_wf : DotDims.WF S1024x2048 S2048x384 S1024x384 [1] [0] [0] [1] [] []
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x384.size a ≤ S2048x384.size a
  hwx0_1 : ∀ i : grid0.Coords, EltTy.bits .bf16 = 32 ∨ (Rect.block (s := S2048x384) S2048x384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S16384x128.size a
  hwx0_2 : ∀ i : grid0.Coords, EltTy.bits .bf16 = 32 ∨ (Rect.block (s := S16384x128) S1024x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S16384x128.size a
  hwx0_3 : ∀ i : grid0.Coords, EltTy.bits .bf16 = 32 ∨ (Rect.block (s := S16384x128) S1024x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S16384x128.size a
  hwx0_4 : ∀ i : grid0.Coords, EltTy.bits .bf16 = 32 ∨ (Rect.block (s := S16384x128) S1024x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S4x4096x128.size a
  hwx1_0 : ∀ i : grid1.Coords, EltTy.bits .bf16 = 32 ∨ (Rect.block (s := S4x4096x128) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S4x4096x128.size a
  hwx1_1 : ∀ i : grid1.Coords, EltTy.bits .bf16 = 32 ∨ (Rect.block (s := S4x4096x128) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S4x4096x128.size a
  hwx1_2 : ∀ i : grid1.Coords, EltTy.bits .bf16 = 32 ∨ (Rect.block (s := S4x4096x128) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S4x4096x128.size a
  hwx1_3 : ∀ i : grid1.Coords, EltTy.bits .f32 = 32 ∨ (Rect.block (s := S4x4096x128) S1x1024x128.size (cc1_transform_3 i) (hinb1_3 i)).WholeWords (EltTy.packing .f32)

variable [Facts₀]

def dot_S1024x2048_S2048x384_S1024x384_1_0_0_1_n_n : DotDims S1024x2048 S2048x384 S1024x384 where
  lhsContracting := [1]
  rhsContracting := [0]
  lhsNonContracting := [0]
  rhsNonContracting := [1]
  lhsBatch := []
  rhsBatch := []
  wf := dot_S1024x2048_S2048x384_S1024x384_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v2) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1024x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_2) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond4 i == 1#1) | ⟨_ + 4, h⟩ => absurd h (Nat.not_lt.2 (Nat.le_add_left _ _))

class Facts : Prop extends Facts₀ where

variable [Facts]
-- ==== ReferenceIdeal.lean ====
abbrev S4x4096x2048 : Shape := ⟨3, ![4, 4096, 2048]⟩
abbrev S2048x128 : Shape := ⟨2, ![2048, 128]⟩
abbrev S4x4096x128 : Shape := ⟨3, ![4, 4096, 128]⟩
abbrev S4x4096x4096 : Shape := ⟨3, ![4, 4096, 4096]⟩
abbrev S_ : Shape := ⟨0, ![]⟩
abbrev S4096x4096 : Shape := ⟨2, ![4096, 4096]⟩
abbrev S4x4096 : Shape := ⟨2, ![4, 4096]⟩
abbrev S4x4096x1 : Shape := ⟨3, ![4, 4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S4x4096x128, .f32⟩
  | .hbm, ⟨5, _⟩ => ⟨S4x4096x128, .f32⟩
  | .hbm, ⟨6, _⟩ => ⟨S4x4096x128, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .i1⟩
  | .hbm, ⟨12, _⟩ => ⟨S4096x4096, .i1⟩
  | .hbm, ⟨13, _⟩ => ⟨S4096x4096, .i32⟩
  | .hbm, ⟨14, _⟩ => ⟨S_, .i32⟩
  | .hbm, ⟨15, _⟩ => ⟨S4096x4096, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .i1⟩
  | .hbm, ⟨20, _⟩ => ⟨S4096x4096, .i1⟩
  | .hbm, ⟨21, _⟩ => ⟨S4096x4096, .i1⟩
  | .hbm, ⟨22, _⟩ => ⟨S_, .f32⟩
  | .hbm, ⟨23, _⟩ => ⟨S_, .f32⟩
  | .hbm, ⟨24, _⟩ => ⟨S4x4096x4096, .i1⟩
  | .hbm, ⟨25, _⟩ => ⟨S4x4096x4096, .f32⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S_, .f32⟩
  | .hbm, ⟨30, _⟩ => ⟨S4x4096, .f32⟩
  | .hbm, ⟨31, _⟩ => ⟨S4x4096, .f32⟩
  | .hbm, ⟨32, _⟩ => ⟨S4x4096x1, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S4x4096x4096, .f32⟩
  | .hbm, ⟨40, _⟩ => ⟨S4x4096x4096, .f32⟩
  | .hbm, ⟨41, _⟩ => ⟨S4x4096x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  bcast_S_S4096x4096 : S_.BroadcastsInDim S4096x4096 (![] : Fin 0 → Fin S4096x4096.rank)
  bcast_S4096x4096_S4x4096x4096_1_2 : S4096x4096.BroadcastsInDim S4x4096x4096 (![1, 2] : Fin 2 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x2048_S2048x128_S4x4096x128_2_0_01_1_n_n_wf : DotDims.WF S4x4096x2048 S2048x128 S4x4096x128 [2] [0] [0, 1] [1] [] []
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x2048_S2048x128_S4x4096x128_2_0_01_1_n_n : DotDims S4x4096x2048 S2048x128 S4x4096x128 where
  lhsContracting := [2]
  rhsContracting := [0]
  lhsNonContracting := [0, 1]
  rhsNonContracting := [1]
  lhsBatch := []
  rhsBatch := []
  wf := dot_S4x4096x2048_S2048x128_S4x4096x128_2_0_01_1_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.K.Proj.lean ====
/- REGION 0 of @main (the projection kernel `cc0__proj_kernel`) runs to its end at every grid point, for any float
   carrier `F` and any buffer contents `V` at the region's entry. The body reads its two input windows whole (the activation block and the concatenated weight), forms one
   matrix product and stores three column slices of it, each whole, into its three output windows; each output
   memref is also read once before it is overwritten, and that read is discarded. So what the body leaves in each
   output buffer is a closed function of the two input blocks at the point. -/
import proofs.«147976_j43456479101605_2_alg».proof.Proof.Gen.Kernel.Launch
import proofs.«147976_j43456479101605_2_alg».proof.Proof.Gen.Kernel.Skeleton
import proofs.«147976_j43456479101605_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1 (the whole weight, fetched at the first point only: its block index is constant). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x2048 := Rect.unit (s := S1024x2048) ![0, 0] S1024x2048.size inb_S1024x2048_S1024x2048_0_0
abbrev r0_1 : Rect S2048x384 := Rect.unit (s := S2048x384) ![0, 0] S2048x384.size inb_S2048x384_S2048x384_0_0
abbrev r0_2 : Rect S1024x128 := Rect.unit (s := S1024x128) ![0, 0] S1024x128.size inb_S1024x128_S1024x128_0_0

/-! ## What the body leaves in each output window's buffer -/

/-- Window 2's staging buffer after the body, from the input windows' blocks: its one whole-block store. -/
def out0_2 (x0 : Vec F S1024x2048 .f32) (x1 : Vec F S2048x384 .bf16) : Vec F S1024x128 .bf16 :=
  View.canon [⟨r0_2, k0_pay2 (View.ld x0 r0_0) (View.ld x1 r0_1)⟩]

/-- Window 3's staging buffer after the body. -/
def out0_3 (x0 : Vec F S1024x2048 .f32) (x1 : Vec F S2048x384 .bf16) : Vec F S1024x128 .bf16 :=
  View.canon [⟨r0_2, k0_pay3 (View.ld x0 r0_0) (View.ld x1 r0_1)⟩]

/-- Window 4's staging buffer after the body. -/
def out0_4 (x0 : Vec F S1024x2048 .f32) (x1 : Vec F S2048x384 .bf16) : Vec F S1024x128 .bf16 :=
  View.canon [⟨r0_2, k0_pay4 (View.ld x0 r0_0) (View.ld x1 r0_1)⟩]

/-- A single whole-block store tiles the buffer, so it covers it. -/
theorem cover0_out (p0 : Vec F S1024x128 .bf16) (y : S1024x128.Idx) :
    ∃ pc ∈ ([⟨r0_2, p0⟩] : List (View.Piece (Elt F) S1024x128 .bf16)), y ∈ pc.1.set :=
  View.cover_of_tiled [⟨r0_2, p0⟩] S1024x128.size (by rfl) y

/-! ## The body's triple -/

set_option maxHeartbeats 1000000 in
/-- The kernel body on whole staging memrefs, the inputs' at read contents `x0`, `x1` and the outputs' at anything,
    runs to the continuation holding the inputs' as they were and each output's at `out0_k` of the inputs'. -/
theorem sound_kernel0 (c : Dev nD) (E : Set ℕ) (i : grid0.Coords)
    (arg1 : Memref sig .tc .vmem S1024x2048 .f32) (harg1 : arg1.IsWhole) (arg2 : Memref sig .tc .vmem S2048x384 .bf16) (harg2 : arg2.IsWhole)
    (arg3 : Memref sig .tc .vmem S1024x128 .bf16) (harg3 : arg3.IsWhole) (arg4 : Memref sig .tc .vmem S1024x128 .bf16) (harg4 : arg4.IsWhole)
    (arg5 : Memref sig .tc .vmem S1024x128 .bf16) (harg5 : arg5.IsWhole)
    (x0 : Vec F S1024x2048 .f32) (x1 : Vec F S2048x384 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_out _)
  isplitl [H3]
  · iexists _; isplitr
    swap; · iexact H3
    ipureintro
    exact View.read_writes_eq_canon _ _ _ (cover0_out _)
  iexists _; isplitr
  swap; · iexact H4
  ipureintro
  exact View.read_writes_eq_canon _ _ _ (cover0_out _)

/-! ## The pipeline's proof data -/

/-- The proof data of pipeline 0 on core `c`: the arrays as the region finds them (`V`); after the body at point `t`
    each input's buffer at its block and each output's at `out0_k` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.AttnDefs.lean ====
/-
  The attention region: a grid of 4 x 4 x 4 points (batch b, query block qi, key block ki; ki runs fastest), three
  scratch buffers carried from point to point (the running row maximum, the running denominator, the running
  numerator) and one output block per (b, qi), stored at ki = qi and written back at ki = 3.
  What every case of the body shares: the four branch conditions as functions of the grid
  coordinates with their closed forms over the linear point number t = 16 b + 4 qi + ki, where the output window
  is idle, and the names of the staging and scratch memrefs.
-/
import proofs.«147976_j43456479101605_2_alg».proof.Proof.Gen.Kernel.Launch
import proofs.«147976_j43456479101605_2_alg».proof.Proof.Gen.Kernel.Skeleton
import proofs.«147976_j43456479101605_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions -/

/-- first key block: ki = 0 -/
abbrev cond1_0 (i : grid1.Coords) : Prop :=
  (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- a key block strictly below the diagonal: ki < qi -/
abbrev cond1_1 (i : grid1.Coords) : Prop :=
  (Scalar.cmpi .ne (Scalar.extui (Scalar.cmpi .slt (BitVec.ofNat 32 (i 2).val) (BitVec.ofNat 32 (i 1).val))) 0#32) = 1#1
theorem hcond1_1 : ∀ t : Fin cfg1.N, cond1_1 (grid1.coords t) ↔ t.val % 4 < t.val / 4 % 4 :=
  (by decide +kernel : ∀ t : Fin grid1.N, cond1_1 (grid1.coords t) ↔ t.val % 4 < t.val / 4 % 4)

/-- the diagonal block: ki = qi -/
abbrev cond1_2 (i : grid1.Coords) : Prop :=
  (Scalar.cmpi .ne (Scalar.extui (Scalar.cmpi .eq (BitVec.ofNat 32 (i 2).val) (BitVec.ofNat 32 (i 1).val))) 0#32) = 1#1
theorem hcond1_2 : ∀ t : Fin cfg1.N, cond1_2 (grid1.coords t) ↔ t.val % 4 = t.val / 4 % 4 :=
  (by decide +kernel : ∀ t : Fin grid1.N, cond1_2 (grid1.coords t) ↔ t.val % 4 = t.val / 4 % 4)

/-- the same test again, guarding the output store -/
abbrev cond1_3 (i : grid1.Coords) : Prop := k1_cond4 i = 1#1
theorem hcond1_3 : ∀ t : Fin cfg1.N, cond1_3 (grid1.coords t) ↔ t.val % 4 = t.val / 4 % 4 :=
  (by decide +kernel : ∀ t : Fin grid1.N, cond1_3 (grid1.coords t) ↔ t.val % 4 = t.val / 4 % 4)

/-! ## Where the windows are idle, and where the output is written back -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- off the diagonal the body stores nothing into the output block -/
theorem idleAt1_3 : ∀ t : Fin cfg1.N, ¬ t.val % 4 = t.val / 4 % 4 → cfg1.idle 3 (grid1.coords t) = true := by decide +kernel
/-- on the diagonal it stores the whole block -/
theorem liveAt1_3 : ∀ t : Fin cfg1.N, t.val % 4 = t.val / 4 % 4 → cfg1.idle 3 (grid1.coords t) = false := by decide +kernel
/-- the output block is written back at the last key block only -/
theorem flushAt1_3 : ∀ t : Fin cfg1.N, (cfg1.win 3).flush t = true ↔ t.val % 4 = 3 :=
  (by decide +kernel : ∀ t : Fin grid1.N, win1_3.flush t = true ↔ t.val % 4 = 3)
theorem noFlush1_3 (t : Fin cfg1.N) (h : ¬ t.val % 4 = 3) : (cfg1.win 3).flush t = false := by
  cases hf : (cfg1.win 3).flush t
  · rfl
  · exact absurd ((flushAt1_3 t).mp hf) h

/-! ## The memrefs the body is called with -/

abbrev VO1_3 : View sig .tc .vmem S1x1024x128 .f32 := (Memref.whole cc1_stg3_0 : Memref sig .tc .vmem S1x1024x128 .f32).view
abbrev ms1_0 (t : Fin cfg1.N) : Memref sig .tc .vmem S1x1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x128 .f32 := win1_3.stage (cfg1.slots t 3)
abbrev hs1_3 (t : Fin cfg1.N) : (ms1_3 t).IsWhole := hstage1_3 ((cfg1.slots t 3).cast nbuf1_3)
/-- the running maximum, the running denominator, the running numerator -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x128 .f32 := scM1_2.view

/-- The other region's staging buffers, each whole at some contents: they ride through this region untouched. -/
abbrev Rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The region's invariant as the launch hands it over: the other region's staging buffers, the three scratch buffers
    at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.K.AttnRunA.lean ====
/-
  The body at the first key block of the first query block (ki = 0 = qi): the scratch buffers are reset, the diagonal
  update runs on the masked scores, and the output block is stored.
-/
import proofs.«147976_j43456479101605_2_alg».proof.Proof.Gen.Kernel.Launch
import proofs.«147976_j43456479101605_2_alg».proof.Proof.Gen.Kernel.Skeleton
import proofs.«147976_j43456479101605_2_alg».proof.Proof.Gen.Kernel.Points
import proofs.«147976_j43456479101605_2_alg».proof.Proof.K.AttnDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (hc2 : cond1_2 i) (hc3 : cond1_3 i)
    (x0 x1 x2 : Vec F S1x1024x128 .bf16)  :
    Σ' (L3 : List (View.Piece (Elt F) S1x1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨?_, ?_, ?_, ?_, fun E K => ?run⟩
  case run =>
    simp only [cc1_attn_kernel_eq_skeleton]; unfold cc1_attn_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.AttnRunB.lean ====
/-
  The body at the first key block of a later query block (ki = 0 < qi): the scratch buffers are reset and the
  off-diagonal update runs; the output block is not touched.
-/
import proofs.«147976_j43456479101605_2_alg».proof.Proof.Gen.Kernel.Launch
import proofs.«147976_j43456479101605_2_alg».proof.Proof.Gen.Kernel.Skeleton
import proofs.«147976_j43456479101605_2_alg».proof.Proof.Gen.Kernel.Points
import proofs.«147976_j43456479101605_2_alg».proof.Proof.K.AttnDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : cond1_1 i) (hc2 : ¬cond1_2 i) (hc3 : ¬cond1_3 i)
    (x0 x1 x2 : Vec F S1x1024x128 .bf16)  :
    Σ' (LS0 : List (View.Piece (Elt F) S1024x1 .f32)) (LS1 : List (View.Piece (Elt F) S1024x1 .f32)), { LS2 : List (View.Piece (Elt F) S1024x128 .f32) //
      ∀ (xi3 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨?_, ?_, ?_, fun xi3 E K => ?run⟩
  case run =>
    simp only [cc1_attn_kernel_eq_skeleton]; unfold cc1_attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.AttnRunC.lean ====
/-
  The body at a key block strictly between the first and the diagonal (0 < ki < qi): only the off-diagonal update
  runs. The scratch buffers come in at what the point before left and go out rewritten; the output block is not touched.
-/
import proofs.«147976_j43456479101605_2_alg».proof.Proof.Gen.Kernel.Launch
import proofs.«147976_j43456479101605_2_alg».proof.Proof.Gen.Kernel.Skeleton
import proofs.«147976_j43456479101605_2_alg».proof.Proof.Gen.Kernel.Points
import proofs.«147976_j43456479101605_2_alg».proof.Proof.K.AttnDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (hc2 : ¬cond1_2 i) (hc3 : ¬cond1_3 i)
    (x0 x1 x2 : Vec F S1x1024x128 .bf16) (xs0 xs1 : Vec F S1024x1 .f32) (xs2 : Vec F S1024x128 .f32) :
    Σ' (LS0 : List (View.Piece (Elt F) S1024x1 .f32)) (LS1 : List (View.Piece (Elt F) S1024x1 .f32)), { LS2 : List (View.Piece (Elt F) S1024x128 .f32) //
      ∀ (xi3 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨?_, ?_, ?_, fun xi3 E K => ?run⟩
  case run =>
    simp only [cc1_attn_kernel_eq_skeleton]; unfold cc1_attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.AttnRunD.lean ====
/-
  The body at the diagonal block of a later query block (0 < ki = qi): the diagonal update runs on the masked scores
  from what the point before left in the scratch buffers, and the output block is stored.
-/
import proofs.«147976_j43456479101605_2_alg».proof.Proof.Gen.Kernel.Launch
import proofs.«147976_j43456479101605_2_alg».proof.Proof.Gen.Kernel.Skeleton
import proofs.«147976_j43456479101605_2_alg».proof.Proof.Gen.Kernel.Points
import proofs.«147976_j43456479101605_2_alg».proof.Proof.K.AttnDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_D (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (hc2 : cond1_2 i) (hc3 : cond1_3 i)
    (x0 x1 x2 : Vec F S1x1024x128 .bf16) (xs0 xs1 : Vec F S1024x1 .f32) (xs2 : Vec F S1024x128 .f32) :
    Σ' (L3 : List (View.Piece (Elt F) S1x1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨?_, ?_, ?_, ?_, fun E K => ?run⟩
  case run =>
    simp only [cc1_attn_kernel_eq_skeleton]; unfold cc1_attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.AttnRunE.lean ====
/-
  The body at a key block above the diagonal (ki > qi): no branch is taken; every buffer is handed back as found.
-/
import proofs.«147976_j43456479101605_2_alg».proof.Proof.Gen.Kernel.Launch
import proofs.«147976_j43456479101605_2_alg».proof.Proof.Gen.Kernel.Skeleton
import proofs.«147976_j43456479101605_2_alg».proof.Proof.Gen.Kernel.Points
import proofs.«147976_j43456479101605_2_alg».proof.Proof.K.AttnDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem kernelRun1_E (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (hc2 : ¬cond1_2 i) (hc3 : ¬cond1_3 i)
    (x0 x1 x2 : Vec F S1x1024x128 .bf16) (xs0 xs1 : Vec F S1024x1 .f32) (xs2 : Vec F S1024x128 .f32) :
    ∀ (xi3 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_attn_kernel i arg3 harg3 arg4 harg4 arg5 harg5 arg6 harg6 arg7 harg7 arg8 harg8 arg9 harg9) K := by
  intro xi3 E K
  · simp only [cc1_attn_kernel_eq_skeleton]; unfold cc1_attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Hand

end
-- ==== Proof.K.Attn.lean ====
/-
  The attention region, point by point: what the output block's staging buffer and the three scratch buffers hold
  after the body at each grid point (the state: output block, running maximum, running denominator, running
  numerator), by recursion on the point number t = 16 b + 4 qi + ki.
    ki = 0 = qi : reset, then the masked (diagonal) update, then the output block is stored;
    ki = 0 < qi : reset, then the plain update;
    0 < ki < qi : the plain update from the previous point's scratch;
    0 < ki = qi : the masked update from the previous point's scratch, then the output block is stored;
    ki > qi     : nothing moves: the state is the previous point's, so the block stored on the diagonal is still
                  in the staging buffer when it is written back at ki = 3.
-/
import proofs.«147976_j43456479101605_2_alg».proof.Proof.Gen.Kernel.Launch
import proofs.«147976_j43456479101605_2_alg».proof.Proof.Gen.Kernel.Skeleton
import proofs.«147976_j43456479101605_2_alg».proof.Proof.Gen.Kernel.Points
import proofs.«147976_j43456479101605_2_alg».proof.Proof.K.AttnRunA
import proofs.«147976_j43456479101605_2_alg».proof.Proof.K.AttnRunB
import proofs.«147976_j43456479101605_2_alg».proof.Proof.K.AttnRunC
import proofs.«147976_j43456479101605_2_alg».proof.Proof.K.AttnRunD
import proofs.«147976_j43456479101605_2_alg».proof.Proof.K.AttnRunE
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Each case's stores cover the buffers they rewrite -/

theorem cover1_A_3 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (hc2 : cond1_2 i) (hc3 : cond1_3 i)
    (x0 x1 x2 : Vec F S1x1024x128 .bf16)  (y : S1x1024x128.Idx) :
    ∃ pc ∈ (kernelRun1_A c i arg3 harg3 arg4 harg4 arg5 harg5 arg6 harg6 arg7 harg7 arg8 harg8 arg9 harg9 hc0 hc1 hc2 hc3 x0 x1 x2).1, y ∈ pc.1.set :=
  View.cover_of_tiledL (kernelRun1_A c i arg3 harg3 arg4 harg4 arg5 harg5 arg6 harg6 arg7 harg7 arg8 harg8 arg9 harg9 hc0 hc1 hc2 hc3 x0 x1 x2).1 S1x1024x128.size (by sl_kernel_rfl) y

theorem scover1_A_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (hc2 : cond1_2 i) (hc3 : cond1_3 i)
    (x0 x1 x2 : Vec F S1x1024x128 .bf16)  (y : S1024x1.Idx) :
    ∃ pc ∈ (kernelRun1_A c i arg3 harg3 arg4 harg4 arg5 harg5 arg6 harg6 arg7 harg7 arg8 harg8 arg9 harg9 hc0 hc1 hc2 hc3 x0 x1 x2).2.1, y ∈ pc.1.set :=
  View.cover_of_tiledL (kernelRun1_A c i arg3 harg3 arg4 harg4 arg5 harg5 arg6 harg6 arg7 harg7 arg8 harg8 arg9 harg9 hc0 hc1 hc2 hc3 x0 x1 x2).2.1 S1024x1.size (by sl_kernel_rfl) y

theorem scover1_A_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (hc2 : cond1_2 i) (hc3 : cond1_3 i)
    (x0 x1 x2 : Vec F S1x1024x128 .bf16)  (y : S1024x1.Idx) :
    ∃ pc ∈ (kernelRun1_A c i arg3 harg3 arg4 harg4 arg5 harg5 arg6 harg6 arg7 harg7 arg8 harg8 arg9 harg9 hc0 hc1 hc2 hc3 x0 x1 x2).2.2.1, y ∈ pc.1.set :=
  View.cover_of_tiledL (kernelRun1_A c i arg3 harg3 arg4 harg4 arg5 harg5 arg6 harg6 arg7 harg7 arg8 harg8 arg9 harg9 hc0 hc1 hc2 hc3 x0 x1 x2).2.2.1 S1024x1.size (by sl_kernel_rfl) y

theorem scover1_A_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (hc2 : cond1_2 i) (hc3 : cond1_3 i)
    (x0 x1 x2 : Vec F S1x1024x128 .bf16)  (y : S1024x128.Idx) :
    ∃ pc ∈ (kernelRun1_A c i arg3 harg3 arg4 harg4 arg5 harg5 arg6 harg6 arg7 harg7 arg8 harg8 arg9 harg9 hc0 hc1 hc2 hc3 x0 x1 x2).2.2.2.1, y ∈ pc.1.set :=
  View.cover_of_tiledL (kernelRun1_A c i arg3 harg3 arg4 harg4 arg5 harg5 arg6 harg6 arg7 harg7 arg8 harg8 arg9 harg9 hc0 hc1 hc2 hc3 x0 x1 x2).2.2.2.1 S1024x128.size (by sl_kernel_rfl) y

theorem scover1_B_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : cond1_1 i) (hc2 : ¬cond1_2 i) (hc3 : ¬cond1_3 i)
    (x0 x1 x2 : Vec F S1x1024x128 .bf16)  (y : S1024x1.Idx) :
    ∃ pc ∈ (kernelRun1_B c i arg3 harg3 arg4 harg4 arg5 harg5 arg6 harg6 arg7 harg7 arg8 harg8 arg9 harg9 hc0 hc1 hc2 hc3 x0 x1 x2).1, y ∈ pc.1.set :=
  View.cover_of_tiledL (kernelRun1_B c i arg3 harg3 arg4 harg4 arg5 harg5 arg6 harg6 arg7 harg7 arg8 harg8 arg9 harg9 hc0 hc1 hc2 hc3 x0 x1 x2).1 S1024x1.size (by sl_kernel_rfl) y

theorem scover1_B_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : cond1_1 i) (hc2 : ¬cond1_2 i) (hc3 : ¬cond1_3 i)
    (x0 x1 x2 : Vec F S1x1024x128 .bf16)  (y : S1024x1.Idx) :
    ∃ pc ∈ (kernelRun1_B c i arg3 harg3 arg4 harg4 arg5 harg5 arg6 harg6 arg7 harg7 arg8 harg8 arg9 harg9 hc0 hc1 hc2 hc3 x0 x1 x2).2.1, y ∈ pc.1.set :=
  View.cover_of_tiledL (kernelRun1_B c i arg3 harg3 arg4 harg4 arg5 harg5 arg6 harg6 arg7 harg7 arg8 harg8 arg9 harg9 hc0 hc1 hc2 hc3 x0 x1 x2).2.1 S1024x1.size (by sl_kernel_rfl) y

theorem scover1_B_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : cond1_1 i) (hc2 : ¬cond1_2 i) (hc3 : ¬cond1_3 i)
    (x0 x1 x2 : Vec F S1x1024x128 .bf16)  (y : S1024x128.Idx) :
    ∃ pc ∈ (kernelRun1_B c i arg3 harg3 arg4 harg4 arg5 harg5 arg6 harg6 arg7 harg7 arg8 harg8 arg9 harg9 hc0 hc1 hc2 hc3 x0 x1 x2).2.2.1, y ∈ pc.1.set :=
  View.cover_of_tiledL (kernelRun1_B c i arg3 harg3 arg4 harg4 arg5 harg5 arg6 harg6 arg7 harg7 arg8 harg8 arg9 harg9 hc0 hc1 hc2 hc3 x0 x1 x2).2.2.1 S1024x128.size (by sl_kernel_rfl) y

theorem scover1_C_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (hc2 : ¬cond1_2 i) (hc3 : ¬cond1_3 i)
    (x0 x1 x2 : Vec F S1x1024x128 .bf16) (xs0 xs1 : Vec F S1024x1 .f32) (xs2 : Vec F S1024x128 .f32) (y : S1024x1.Idx) :
    ∃ pc ∈ (kernelRun1_C c i arg3 harg3 arg4 harg4 arg5 harg5 arg6 harg6 arg7 harg7 arg8 harg8 arg9 harg9 hc0 hc1 hc2 hc3 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 hc2 hc3 x0 x1 x2 xs0 xs1 xs2).1 S1024x1.size (by sl_kernel_rfl) y

theorem scover1_C_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (hc2 : ¬cond1_2 i) (hc3 : ¬cond1_3 i)
    (x0 x1 x2 : Vec F S1x1024x128 .bf16) (xs0 xs1 : Vec F S1024x1 .f32) (xs2 : Vec F S1024x128 .f32) (y : S1024x1.Idx) :
    ∃ pc ∈ (kernelRun1_C c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 hc2 hc3 x0 x1 x2 xs0 xs1 xs2).2.1 S1024x1.size (by sl_kernel_rfl) y

theorem scover1_C_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (hc2 : ¬cond1_2 i) (hc3 : ¬cond1_3 i)
    (x0 x1 x2 : Vec F S1x1024x128 .bf16) (xs0 xs1 : Vec F S1024x1 .f32) (xs2 : Vec F S1024x128 .f32) (y : S1024x128.Idx) :
    ∃ pc ∈ (kernelRun1_C c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 hc2 hc3 x0 x1 x2 xs0 xs1 xs2).2.2.1 S1024x128.size (by sl_kernel_rfl) y

theorem cover1_D_3 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (hc2 : cond1_2 i) (hc3 : cond1_3 i)
    (x0 x1 x2 : Vec F S1x1024x128 .bf16) (xs0 xs1 : Vec F S1024x1 .f32) (xs2 : Vec F S1024x128 .f32) (y : S1x1024x128.Idx) :
    ∃ pc ∈ (kernelRun1_D c i arg3 harg3 arg4 harg4 arg5 harg5 arg6 harg6 arg7 harg7 arg8 harg8 arg9 harg9 hc0 hc1 hc2 hc3 x0 x1 x2 xs0 xs1 xs2).1, y ∈ pc.1.set :=
  View.cover_of_tiledL (kernelRun1_D c i arg3 harg3 arg4 harg4 arg5 harg5 arg6 harg6 arg7 harg7 arg8 harg8 arg9 harg9 hc0 hc1 hc2 hc3 x0 x1 x2 xs0 xs1 xs2).1 S1x1024x128.size (by sl_kernel_rfl) y

theorem scover1_D_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (hc2 : cond1_2 i) (hc3 : cond1_3 i)
    (x0 x1 x2 : Vec F S1x1024x128 .bf16) (xs0 xs1 : Vec F S1024x1 .f32) (xs2 : Vec F S1024x128 .f32) (y : S1024x1.Idx) :
    ∃ pc ∈ (kernelRun1_D c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (kernelRun1_D c i arg3 harg3 arg4 harg4 arg5 harg5 arg6 harg6 arg7 harg7 arg8 harg8 arg9 harg9 hc0 hc1 hc2 hc3 x0 x1 x2 xs0 xs1 xs2).2.1 S1024x1.size (by sl_kernel_rfl) y

theorem scover1_D_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (hc2 : cond1_2 i) (hc3 : cond1_3 i)
    (x0 x1 x2 : Vec F S1x1024x128 .bf16) (xs0 xs1 : Vec F S1024x1 .f32) (xs2 : Vec F S1024x128 .f32) (y : S1024x1.Idx) :
    ∃ pc ∈ (kernelRun1_D c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (kernelRun1_D c i arg3 harg3 arg4 harg4 arg5 harg5 arg6 harg6 arg7 harg7 arg8 harg8 arg9 harg9 hc0 hc1 hc2 hc3 x0 x1 x2 xs0 xs1 xs2).2.2.1 S1024x1.size (by sl_kernel_rfl) y

theorem scover1_D_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (hc2 : cond1_2 i) (hc3 : cond1_3 i)
    (x0 x1 x2 : Vec F S1x1024x128 .bf16) (xs0 xs1 : Vec F S1024x1 .f32) (xs2 : Vec F S1024x128 .f32) (y : S1024x128.Idx) :
    ∃ pc ∈ (kernelRun1_D c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (kernelRun1_D c i arg3 harg3 arg4 harg4 arg5 harg5 arg6 harg6 arg7 harg7 arg8 harg8 arg9 harg9 hc0 hc1 hc2 hc3 x0 x1 x2 xs0 xs1 xs2).2.2.2.1 S1024x128.size (by sl_kernel_rfl) y

/-! ## The region's arrays and blocks -/

-- the buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The state after a point: the output block's staging buffer, then the running maximum, denominator and numerator. -/
abbrev St (F : FTy → Type) : Type := Vec F S1x1024x128 .f32 × Vec F S1024x1 .f32 × Vec F S1024x1 .f32 × Vec F S1024x128 .f32

/-! ## The cases' runs at a point of the grid -/

def runA (c : Dev nD) (t : Fin cfg1.N) (h0 : t.val % 4 = 0) (heq : t.val % 4 = t.val / 4 % 4) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => absurd ((hcond1_1 t).mp h) (by omega)) ((hcond1_2 t).mpr heq) ((hcond1_3 t).mpr heq) (iblk1 V c 0 t) (iblk1 V c 1 t) (iblk1 V c 2 t)
def runB (c : Dev nD) (t : Fin cfg1.N) (h0 : t.val % 4 = 0) (hlt : t.val % 4 < t.val / 4 % 4) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr hlt) (fun h => absurd ((hcond1_2 t).mp h) (by omega)) (fun h => absurd ((hcond1_3 t).mp h) (by omega)) (iblk1 V c 0 t) (iblk1 V c 1 t) (iblk1 V c 2 t)
def runC (c : Dev nD) (t : Fin cfg1.N) (h0 : ¬ t.val % 4 = 0) (hlt : t.val % 4 < t.val / 4 % 4) (xs0 xs1 : Vec F S1024x1 .f32) (xs2 : Vec F S1024x128 .f32) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr hlt) (fun h => absurd ((hcond1_2 t).mp h) (by omega)) (fun h => absurd ((hcond1_3 t).mp h) (by omega)) (iblk1 V c 0 t) (iblk1 V c 1 t) (iblk1 V c 2 t) xs0 xs1 xs2
def runD (c : Dev nD) (t : Fin cfg1.N) (h0 : ¬ t.val % 4 = 0) (heq : t.val % 4 = t.val / 4 % 4) (xs0 xs1 : Vec F S1024x1 .f32) (xs2 : Vec F S1024x128 .f32) :=
  kernelRun1_D (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => absurd ((hcond1_1 t).mp h) (by omega)) ((hcond1_2 t).mpr heq) ((hcond1_3 t).mpr heq) (iblk1 V c 0 t) (iblk1 V c 1 t) (iblk1 V c 2 t) xs0 xs1 xs2

/-- What case ki = 0 = qi leaves. -/
def stA (c : Dev nD) (t : Fin cfg1.N) (h0 : t.val % 4 = 0) (heq : t.val % 4 = t.val / 4 % 4) : St F :=
  (VO1_3.read (Elt F) (VO1_3.writes (Elt F) VO1_3.junk (runA V c t h0 heq).1),
   VS1_0.read (Elt F) (VS1_0.writes (Elt F) VS1_0.junk (runA V c t h0 heq).2.1),
   VS1_1.read (Elt F) (VS1_1.writes (Elt F) VS1_1.junk (runA V c t h0 heq).2.2.1),
   VS1_2.read (Elt F) (VS1_2.writes (Elt F) VS1_2.junk (runA V c t h0 heq).2.2.2.1))
/-- What case ki = 0 < qi leaves, over an output buffer it does not touch (`o`). -/
def stB (c : Dev nD) (t : Fin cfg1.N) (h0 : t.val % 4 = 0) (hlt : t.val % 4 < t.val / 4 % 4) (o : Vec F S1x1024x128 .f32) : St F :=
  (o,
   VS1_0.read (Elt F) (VS1_0.writes (Elt F) VS1_0.junk (runB V c t h0 hlt).1),
   VS1_1.read (Elt F) (VS1_1.writes (Elt F) VS1_1.junk (runB V c t h0 hlt).2.1),
   VS1_2.read (Elt F) (VS1_2.writes (Elt F) VS1_2.junk (runB V c t h0 hlt).2.2.1))
/-- What case 0 < ki < qi leaves, from the previous point's state `p`. -/
def stC (c : Dev nD) (t : Fin cfg1.N) (h0 : ¬ t.val % 4 = 0) (hlt : t.val % 4 < t.val / 4 % 4) (p : St F) : St F :=
  (p.1,
   VS1_0.read (Elt F) (VS1_0.writes (Elt F) VS1_0.junk (runC V c t h0 hlt p.2.1 p.2.2.1 p.2.2.2).1),
   VS1_1.read (Elt F) (VS1_1.writes (Elt F) VS1_1.junk (runC V c t h0 hlt p.2.1 p.2.2.1 p.2.2.2).2.1),
   VS1_2.read (Elt F) (VS1_2.writes (Elt F) VS1_2.junk (runC V c t h0 hlt p.2.1 p.2.2.1 p.2.2.2).2.2.1))
/-- What case 0 < ki = qi leaves, from the previous point's state `p`. -/
def stD (c : Dev nD) (t : Fin cfg1.N) (h0 : ¬ t.val % 4 = 0) (heq : t.val % 4 = t.val / 4 % 4) (p : St F) : St F :=
  (VO1_3.read (Elt F) (VO1_3.writes (Elt F) VO1_3.junk (runD V c t h0 heq p.2.1 p.2.2.1 p.2.2.2).1),
   VS1_0.read (Elt F) (VS1_0.writes (Elt F) VS1_0.junk (runD V c t h0 heq p.2.1 p.2.2.1 p.2.2.2).2.1),
   VS1_1.read (Elt F) (VS1_1.writes (Elt F) VS1_1.junk (runD V c t h0 heq p.2.1 p.2.2.1 p.2.2.2).2.2.1),
   VS1_2.read (Elt F) (VS1_2.writes (Elt F) VS1_2.junk (runD V c t h0 heq p.2.1 p.2.2.1 p.2.2.2).2.2.2.1))

/-! ## The state after each point -/

/-- The state after the body at point number `n`. -/
def outsAt1 (c : Dev nD) : (n : ℕ) → n < cfg1.N → St F
  | 0, hn => stA V c ⟨0, hn⟩ (show (0 : ℕ) % 4 = 0 from rfl) (show (0 : ℕ) % 4 = 0 / 4 % 4 from rfl)
  | n + 1, hn =>
    if heq : (n + 1) % 4 = (n + 1) / 4 % 4 then
      if h0 : (n + 1) % 4 = 0 then stA V c ⟨n + 1, hn⟩ h0 heq
      else stD V c ⟨n + 1, hn⟩ h0 heq (outsAt1 c n (Nat.lt_of_succ_lt hn))
    else
      if hlt : (n + 1) % 4 < (n + 1) / 4 % 4 then
        if h0 : (n + 1) % 4 = 0 then stB V c ⟨n + 1, hn⟩ h0 hlt (outsAt1 c n (Nat.lt_of_succ_lt hn)).1
        else stC V c ⟨n + 1, hn⟩ h0 hlt (outsAt1 c n (Nat.lt_of_succ_lt hn))
      else outsAt1 c n (Nat.lt_of_succ_lt hn)

/-- the point before `t` -/
abbrev prevLt (t : Fin cfg1.N) : t.val - 1 < cfg1.N := Nat.lt_of_le_of_lt (Nat.sub_le _ _) t.isLt

theorem outsAt1_A (c : Dev nD) (t : Fin cfg1.N) (h0 : t.val % 4 = 0) (heq : t.val % 4 = t.val / 4 % 4) : outsAt1 V c t.val t.isLt = stA V c t h0 heq := by
  obtain ⟨n, hn⟩ := t
  cases n with
  | zero => rfl
  | succ n => exact (dif_pos heq).trans (dif_pos h0)

theorem outsAt1_D (c : Dev nD) (t : Fin cfg1.N) (h0 : ¬ t.val % 4 = 0) (heq : t.val % 4 = t.val / 4 % 4) :
    outsAt1 V c t.val t.isLt = stD V c t h0 heq (outsAt1 V c (t.val - 1) (prevLt t)) := by
  obtain ⟨n, hn⟩ := t
  cases n with
  | zero => exact absurd (show (0 : ℕ) % 4 = 0 from rfl) h0
  | succ n => exact (dif_pos heq).trans (dif_neg h0)

theorem outsAt1_B (c : Dev nD) (t : Fin cfg1.N) (h0 : t.val % 4 = 0) (hlt : t.val % 4 < t.val / 4 % 4) :
    outsAt1 V c t.val t.isLt = stB V c t h0 hlt (outsAt1 V c (t.val - 1) (prevLt t)).1 := by
  obtain ⟨n, hn⟩ := t
  cases n with
  | zero => exact absurd (show (0 : ℕ) % 4 < 0 / 4 % 4 from hlt) (by decide)
  | succ n =>
    have hne : ¬ (n + 1) % 4 = (n + 1) / 4 % 4 := fun e => by
      have hlt' : (n + 1) % 4 < (n + 1) / 4 % 4 := hlt
      omega
    exact (dif_neg hne).trans ((dif_pos hlt).trans (dif_pos h0))

theorem outsAt1_C (c : Dev nD) (t : Fin cfg1.N) (h0 : ¬ t.val % 4 = 0) (hlt : t.val % 4 < t.val / 4 % 4) :
    outsAt1 V c t.val t.isLt = stC V c t h0 hlt (outsAt1 V c (t.val - 1) (prevLt t)) := by
  obtain ⟨n, hn⟩ := t
  cases n with
  | zero => exact absurd (show (0 : ℕ) % 4 = 0 from rfl) h0
  | succ n =>
    have hne : ¬ (n + 1) % 4 = (n + 1) / 4 % 4 := fun e => by
      have hlt' : (n + 1) % 4 < (n + 1) / 4 % 4 := hlt
      omega
    exact (dif_neg hne).trans ((dif_pos hlt).trans (dif_neg h0))

theorem outsAt1_E (c : Dev nD) (t : Fin cfg1.N) (heq : ¬ t.val % 4 = t.val / 4 % 4) (hlt : ¬ t.val % 4 < t.val / 4 % 4) :
    outsAt1 V c t.val t.isLt = outsAt1 V c (t.val - 1) (prevLt t) := by
  obtain ⟨n, hn⟩ := t
  cases n with
  | zero => exact absurd (show (0 : ℕ) % 4 = 0 / 4 % 4 from rfl) heq
  | succ n => exact (dif_neg heq).trans (dif_neg hlt)

end Cert.Kernel.Hand

end
-- ==== Proof.K.AttnBody.lean ====
/-
  The attention region's body obligation. The invariant between points holds the three scratch buffers at the state
  the point before left (before the first point: at anything); the proof data names, after each point, every input
  window's buffer at its block and the output window's at the state's output component. At every point the closed
  forms of the branch conditions pick the case, and that case's run of the body is the obligation: on the diagonal
  the output buffer ends at the block the run stores; below it (ki < qi) the buffer is handed back as found; above it
  (ki > qi) it still holds the block stored on the diagonal, which is what the write-back at ki = 3 writes.
-/
import proofs.«147976_j43456479101605_2_alg».proof.Proof.Gen.Kernel.Launch
import proofs.«147976_j43456479101605_2_alg».proof.Proof.Gen.Kernel.Skeleton
import proofs.«147976_j43456479101605_2_alg».proof.Proof.Gen.Kernel.Points
import proofs.«147976_j43456479101605_2_alg».proof.Proof.K.Attn
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant between points -/

def PhiS1 (c : Dev nD) : (n : ℕ) → n ≤ cfg1.N → sProp 𝕄
  | 0, _ => Pipeline.ΦA spec1 c
  | n + 1, hn => iprop(iprop(Rest1 (F := F) c ∗ owns (c : Thread nD τ) scM1_0 fullShare (outsAt1 V c n hn).2.1
      ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(Rest1 (F := F) c ∗ owns (c : Thread nD τ) scM1_0 fullShare (outsAt1 V c n hn).2.1
      ∗ owns (c : Thread nD τ) scM1_1 fullShare (outsAt1 V c n hn).2.2.1 ∗ owns (c : Thread nD τ) scM1_2 fullShare (outsAt1 V c n hn).2.2.2) ∗ (∃ r, prngReg c r)) := rfl

theorem PhiS1_pos (c : Dev nD) (n : ℕ) (h : n ≤ cfg1.N) (hz : n ≠ 0) :
    PhiS1 V c n h = iprop(iprop(Rest1 (F := F) c ∗ owns (c : Thread nD τ) scM1_0 fullShare (outsAt1 V c (n - 1) (by omega)).2.1
      ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- An input window's buffer holds its block at every point, fetched there or not: when it is not fetched its block
    index has not moved (the key and value windows' index min(ki, qi) stays put above the diagonal). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- Above the diagonal the output window's buffer holds the output component of the previous point's state: no
    write-back lies between (those are at ki = 3, and the point before has ki ≤ 2), the point before either stored the
    block (the diagonal) or found and left it (above the diagonal again). -/
theorem before1_3_E (c : Dev nD) : ∀ (n : ℕ) (hn : n < cfg1.N), ¬ n % 4 = n / 4 % 4 → ¬ n % 4 < n / 4 % 4 →
    ∀ d, (dat1 V c).before 3 ⟨n, hn⟩ d = (outsAt1 V c (n - 1) (Nat.lt_of_le_of_lt (Nat.sub_le _ _) hn)).1 := by
  intro n
  induction n using Nat.strong_induction_on with
  | _ n ih =>
    intro hn heq hlt d
    have hN : n < 64 := lt_of_lt_of_eq hn (show cfg1.N = 64 from N_1)
    have ht : n ≠ 0 := fun h => heq (by subst h; rfl)
    rw [(dat1 V c).before_of_pos 3 ⟨n, hn⟩ ht ((cfg1.win 3).fetch_out rfl ⟨n, hn⟩)]
    rw [noFlush1_3 ⟨n - 1, Nat.lt_of_le_of_lt (Nat.sub_le _ _) hn⟩ (by show ¬ (n - 1) % 4 = 3; omega), if_neg Bool.false_ne_true]
    unfold Dat.left
    by_cases hp : (n - 1) % 4 = (n - 1) / 4 % 4
    · rw [liveAt1_3 ⟨n - 1, Nat.lt_of_le_of_lt (Nat.sub_le _ _) hn⟩ hp]
      dsimp only
      unfold Dat.kept
      rw [Pipeline.fill_of_clip_none 3 _ (fun _ => rfl) d ((dat1 V c).after 3 ⟨n - 1, Nat.lt_of_le_of_lt (Nat.sub_le _ _) hn⟩), Window.fill_cut, after1_3]
    · rw [idleAt1_3 ⟨n - 1, Nat.lt_of_le_of_lt (Nat.sub_le _ _) hn⟩ hp]
      dsimp only
      rw [ih (n - 1) (by omega) (Nat.lt_of_le_of_lt (Nat.sub_le _ _) hn) hp (by omega) d]
      exact congrArg Prod.fst (outsAt1_E V c ⟨n - 1, Nat.lt_of_le_of_lt (Nat.sub_le _ _) hn⟩ hp (by show ¬ (n - 1) % 4 < (n - 1) / 4 % 4; omega)).symm

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- ki = 0 = qi, at the very first point: the scratch buffers come in at anything. -/
theorem sound_A0 (c : Dev nD) (t : Fin cfg1.N) (h0 : t.val % 4 = 0) (heq : t.val % 4 = t.val / 4 % 4) (hz : t.val = 0) : bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t heq], after1_3]
  rw [outsAt1_A V c t h0 heq]
  unfold stA runA; (try dsimp only)
  rw [PhiS1_castSucc V c t, PhiS1_zero V c _ _ hz, PhiA1_eq]
  iintro ⟨⟨⟨R1, R2, R3, R4, R5, R6, R7, R8, R9, HS0, HS1, HS2⟩, Hg⟩, Ho, ⟨%d0, H0⟩, ⟨%d1, H1⟩, ⟨%d2, H2⟩, ⟨%d3, H3⟩⟩
  iapply ((kernelRun1_A c (grid1.coords t) _ _ _ _ _ _ _ _ _ _ _ _ _ _ ((hcond1_0 t).mpr h0) (fun h => absurd ((hcond1_1 t).mp h) (by omega)) ((hcond1_2 t).mpr heq) ((hcond1_3 t).mpr heq) (iblk1 V c 0 t) (iblk1 V c 1 t) (iblk1 V c 2 t)).2.2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, ⟨%es0, HS0⟩, ⟨%es1, HS1⟩, ⟨%es2, HS2⟩⟩
  isplitl [R1 R2 R3 R4 R5 R6 R7 R8 R9 HS0 HS1 HS2 Hg]
  · isplitl [R1 R2 R3 R4 R5 R6 R7 R8 R9 HS0 HS1 HS2]
    · isplitl [R1 R2 R3 R4 R5 R6 R7 R8 R9]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        iexact R9
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ )
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ )
      unfold owns; iexists _; isplitr
      swap; · iexact HS2
      ipureintro; exact View.read_writes_of_cover _ _ _ _ _ (scover1_A_2 c _ _ _ _ _ _ _ _ _ _ _ _ _ _ _ _ _ _ _ _ _ _ )
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _ _ _ _ _ _ _ _ _ _ _ _ )

set_option maxHeartbeats 4000000 in
/-- ki = 0 = qi at a later batch element: the scratch buffers come in at what the point before left, which the reset overwrites. -/
theorem sound_A1 (c : Dev nD) (t : Fin cfg1.N) (h0 : t.val % 4 = 0) (heq : t.val % 4 = t.val / 4 % 4) (hz : t.val ≠ 0) : bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t heq], after1_3]
  rw [outsAt1_A V c t h0 heq]
  unfold stA runA; (try dsimp only)
  rw [PhiS1_castSucc V c t, PhiS1_pos V c _ _ hz]
  iintro ⟨⟨⟨HR, HS0, HS1, HS2⟩, Hg⟩, Ho, ⟨%d0, H0⟩, ⟨%d1, H1⟩, ⟨%d2, H2⟩, ⟨%d3, H3⟩⟩
  iapply ((kernelRun1_A c (grid1.coords t) _ _ _ _ _ _ _ _ _ _ _ _ _ _ ((hcond1_0 t).mpr h0) (fun h => absurd ((hcond1_1 t).mp h) (by omega)) ((hcond1_2 t).mpr heq) ((hcond1_3 t).mpr heq) (iblk1 V c 0 t) (iblk1 V c 1 t) (iblk1 V c 2 t)).2.2.2.2 Set.univ _)
  isplitl [H0]; · iexact H0
  isplitl [H1]; · iexact H1
  isplitl [H2]; · iexact H2
  isplitl [H3]; · iexists _; iexact H3
  isplitl [HS0]; · iexists _; iexact HS0
  isplitl [HS1]; · iexists _; iexact HS1
  isplitl [HS2]; · iexists _; iexact HS2
  iintro ⟨H0, H1, H2, ⟨%e3, H3⟩, ⟨%es0, HS0⟩, ⟨%es1, HS1⟩, ⟨%es2, HS2⟩⟩
  isplitl [HR HS0 HS1 HS2 Hg]
  · isplitl [HR HS0 HS1 HS2]
    · isplitl [HR]; · iexact HR
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ )
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ )
      unfold owns; iexists _; isplitr
      swap; · iexact HS2
      ipureintro; exact View.read_writes_of_cover _ _ _ _ _ (scover1_A_2 c _ _ _ _ _ _ _ _ _ _ _ _ _ _ _ _ _ _ _ _ _ _ )
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _ _ _ _ _ _ _ _ _ _ _ _ )

set_option maxHeartbeats 4000000 in
/-- 0 < ki = qi -/
theorem sound_D (c : Dev nD) (t : Fin cfg1.N) (h0 : ¬ t.val % 4 = 0) (heq : t.val % 4 = t.val / 4 % 4) : bodyPre1 V c t ⊢ wp frame (wpE (defs₀ (F := F)) Variants.none c none) Set.univ (bodyAt1 t) (fun _ => bodyPost1 V c t) := by
  have hz : t.val ≠ 0 := fun h => h0 (by rw [h])
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t heq], after1_3]
  rw [outsAt1_D V c t h0 heq]
  unfold stD runD; (try dsimp only)
  rw [PhiS1_castSucc V c t, PhiS1_pos V c _ _ hz]
  iintro ⟨⟨⟨HR, HS0, HS1, HS2⟩, Hg⟩, Ho, ⟨%d0, H0⟩, ⟨%d1, H1⟩, ⟨%d2, H2⟩, ⟨%d3, H3⟩⟩
  iapply ((kernelRun1_D c (grid1.coords t) _ _ _ _ _ _ _ _ _ _ _ _ _ _ (fun h => h0 ((hcond1_0 t).mp h)) (fun h => absurd ((hcond1_1 t).mp h) (by omega)) ((hcond1_2 t).mpr heq) ((hcond1_3 t).mpr heq) (iblk1 V c 0 t) (iblk1 V c 1 t) (iblk1 V c 2 t) _ _ _).2.2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, ⟨%es0, HS0⟩, ⟨%es1, HS1⟩, ⟨%es2, HS2⟩⟩
  isplitl [HR HS0 HS1 HS2 Hg]
  · isplitl [HR HS0 HS1 HS2]
    · isplitl [HR]; · iexact HR
      isplitl [HS0]
      · unfold owns; iexists _; isplitr
        swap; · iexact HS0
        ipureintro; exact View.read_writes_of_cover _ _ _ _ _ (scover1_D_0 c _ _ _ _ _ _ _ _ _ _ _ _ _ _ _ _ _ _ _ _ _ _ _ _ _ )
      isplitl [HS1]
      · unfold owns; iexists _; isplitr
        swap; · iexact HS1
        ipureintro; exact View.read_writes_of_cover _ _ _ _ _ (scover1_D_1 c _ _ _ _ _ _ _ _ _ _ _ _ _ _ _ _ _ _ _ _ _ _ _ _ _ )
      unfold owns; iexists _; isplitr
      swap; · iexact HS2
      ipureintro; exact View.read_writes_of_cover _ _ _ _ _ (scover1_D_2 c _ _ _ _ _ _ _ _ _ _ _ _ _ _ _ _ _ _ _ _ _ _ _ _ _ )
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_D_3 c _ _ _ _ _ _ _ _ _ _ _ _ _ _ _ _ _ _ _ _ _ _ _ _ _ )

set_option maxHeartbeats 4000000 in
/-- ki = 0 < qi -/
theorem sound_B (c : Dev nD) (t : Fin cfg1.N) (h0 : t.val % 4 = 0) (hlt : t.val % 4 < t.val / 4 % 4) : bodyPre1 V c t ⊢ wp frame (wpE (defs₀ (F := F)) Variants.none c none) Set.univ (bodyAt1 t) (fun _ => bodyPost1 V c t) := by
  have heq : ¬ t.val % 4 = t.val / 4 % 4 := by omega
  have hz : t.val ≠ 0 := fun h => by rw [h] at hlt; exact absurd hlt (by decide)
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3 t heq) (noFlush1_3 t (by omega))]
  rw [outsAt1_B V c t h0 hlt]
  unfold stB runB; (try dsimp only)
  rw [PhiS1_castSucc V c t, PhiS1_pos V c _ _ hz]
  iintro ⟨⟨⟨HR, HS0, HS1, HS2⟩, Hg⟩, Ho, ⟨%d0, H0⟩, ⟨%d1, H1⟩, ⟨%d2, H2⟩, ⟨%d3, H3⟩⟩
  iapply ((kernelRun1_B c (grid1.coords t) _ _ _ _ _ _ _ _ _ _ _ _ _ _ ((hcond1_0 t).mpr h0) ((hcond1_1 t).mpr hlt) (fun h => absurd ((hcond1_2 t).mp h) (by omega)) (fun h => absurd ((hcond1_3 t).mp h) (by omega)) (iblk1 V c 0 t) (iblk1 V c 1 t) (iblk1 V c 2 t)).2.2.2 _ Set.univ _)
  isplitl [H0]; · iexact H0
  isplitl [H1]; · iexact H1
  isplitl [H2]; · iexact H2
  isplitl [H3]; · iexact H3
  isplitl [HS0]; · iexists _; iexact HS0
  isplitl [HS1]; · iexists _; iexact HS1
  isplitl [HS2]; · iexists _; iexact HS2
  iintro ⟨H0, H1, H2, H3, ⟨%es0, HS0⟩, ⟨%es1, HS1⟩, ⟨%es2, HS2⟩⟩
  isplitl [HR HS0 HS1 HS2 Hg]
  · isplitl [HR HS0 HS1 HS2]
    · isplitl [HR]; · iexact HR
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ )
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ )
      unfold owns; iexists _; isplitr
      swap; · iexact HS2
      ipureintro; exact View.read_writes_of_cover _ _ _ _ _ (scover1_B_2 c _ _ _ _ _ _ _ _ _ _ _ _ _ _ _ _ _ _ _ _ _ _ )
    iexact Hg
  isplitl [Ho]; · iexact Ho
  isplitl [H0]; · iexact H0
  isplitl [H1]; · iexact H1
  isplitl [H2]; · iexact H2
  iexists _; iexact H3

set_option maxHeartbeats 4000000 in
/-- 0 < ki < qi -/
theorem sound_C (c : Dev nD) (t : Fin cfg1.N) (h0 : ¬ t.val % 4 = 0) (hlt : t.val % 4 < t.val / 4 % 4) : bodyPre1 V c t ⊢ wp frame (wpE (defs₀ (F := F)) Variants.none c none) Set.univ (bodyAt1 t) (fun _ => bodyPost1 V c t) := by
  have heq : ¬ t.val % 4 = t.val / 4 % 4 := by omega
  have hz : t.val ≠ 0 := fun h => by rw [h] at hlt; exact absurd hlt (by decide)
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3 t heq) (noFlush1_3 t (by omega))]
  rw [outsAt1_C V c t h0 hlt]
  unfold stC runC; (try dsimp only)
  rw [PhiS1_castSucc V c t, PhiS1_pos V c _ _ hz]
  iintro ⟨⟨⟨HR, HS0, HS1, HS2⟩, Hg⟩, Ho, ⟨%d0, H0⟩, ⟨%d1, H1⟩, ⟨%d2, H2⟩, ⟨%d3, H3⟩⟩
  iapply ((kernelRun1_C c (grid1.coords t) _ _ _ _ _ _ _ _ _ _ _ _ _ _ (fun h => h0 ((hcond1_0 t).mp h)) ((hcond1_1 t).mpr hlt) (fun h => absurd ((hcond1_2 t).mp h) (by omega)) (fun h => absurd ((hcond1_3 t).mp h) (by omega)) (iblk1 V c 0 t) (iblk1 V c 1 t) (iblk1 V c 2 t) _ _ _).2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, ⟨%es0, HS0⟩, ⟨%es1, HS1⟩, ⟨%es2, HS2⟩⟩
  isplitl [HR HS0 HS1 HS2 Hg]
  · isplitl [HR HS0 HS1 HS2]
    · isplitl [HR]; · iexact HR
      isplitl [HS0]
      · unfold owns; iexists _; isplitr
        swap; · iexact HS0
        ipureintro; exact View.read_writes_of_cover _ _ _ _ _ (scover1_C_0 c _ _ _ _ _ _ _ _ _ _ _ _ _ _ _ _ _ _ _ _ _ _ _ _ _ )
      isplitl [HS1]
      · unfold owns; iexists _; isplitr
        swap; · iexact HS1
        ipureintro; exact View.read_writes_of_cover _ _ _ _ _ (scover1_C_1 c _ _ _ _ _ _ _ _ _ _ _ _ _ _ _ _ _ _ _ _ _ _ _ _ _ )
      unfold owns; iexists _; isplitr
      swap; · iexact HS2
      ipureintro; exact View.read_writes_of_cover _ _ _ _ _ (scover1_C_2 c _ _ _ _ _ _ _ _ _ _ _ _ _ _ _ _ _ _ _ _ _ _ _ _ _ )
    iexact Hg
  isplitl [Ho]; · iexact Ho
  isplitl [H0]; · iexact H0
  isplitl [H1]; · iexact H1
  isplitl [H2]; · iexact H2
  iexists _; iexact H3

set_option maxHeartbeats 4000000 in
/-- ki > qi at the last key block: the buffer, untouched, is what the write-back writes. -/
theorem sound_E3 (c : Dev nD) (t : Fin cfg1.N) (heq : ¬ t.val % 4 = t.val / 4 % 4) (hlt : ¬ t.val % 4 < t.val / 4 % 4) (h3 : t.val % 4 = 3) : bodyPre1 V c t ⊢ wp frame (wpE (defs₀ (F := F)) Variants.none c none) Set.univ (bodyAt1 t) (fun _ => bodyPost1 V c t) := by
  have hz : t.val ≠ 0 := fun h => heq (by rw [h])
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [idleAt1_3 t heq, (flushAt1_3 t).mpr h3], after1_3, outsAt1_E V c t heq hlt]
  rw [PhiS1_castSucc V c t, PhiS1_pos V c _ _ hz]
  iintro ⟨⟨⟨HR, HS0, HS1, HS2⟩, Hg⟩, Ho, ⟨%d0, H0⟩, ⟨%d1, H1⟩, ⟨%d2, H2⟩, ⟨%d3, H3⟩⟩
  rw [before1_3_E V c t.val t.isLt heq hlt d3]
  iapply (kernelRun1_E c (grid1.coords t) _ _ _ _ _ _ _ _ _ _ _ _ _ _ (fun h => absurd ((hcond1_0 t).mp h) (by omega)) (fun h => hlt ((hcond1_1 t).mp h)) (fun h => heq ((hcond1_2 t).mp h)) (fun h => heq ((hcond1_3 t).mp h)) (iblk1 V c 0 t) (iblk1 V c 1 t) (iblk1 V c 2 t) _ _ _ _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HR HS0 HS1 HS2 Hg]
  · isplitl [HR HS0 HS1 HS2]
    · isplitl [HR]; · iexact HR
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iexact H3

set_option maxHeartbeats 4000000 in
/-- ki > qi before the last key block: the buffer is handed back as found. -/
theorem sound_E (c : Dev nD) (t : Fin cfg1.N) (heq : ¬ t.val % 4 = t.val / 4 % 4) (hlt : ¬ t.val % 4 < t.val / 4 % 4) (h3 : ¬ t.val % 4 = 3) : bodyPre1 V c t ⊢ wp frame (wpE (defs₀ (F := F)) Variants.none c none) Set.univ (bodyAt1 t) (fun _ => bodyPost1 V c t) := by
  have hz : t.val ≠ 0 := fun h => heq (by rw [h])
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3 t heq) (noFlush1_3 t h3)]
  rw [outsAt1_E V c t heq hlt]
  rw [PhiS1_castSucc V c t, PhiS1_pos V c _ _ hz]
  iintro ⟨⟨⟨HR, HS0, HS1, HS2⟩, Hg⟩, Ho, ⟨%d0, H0⟩, ⟨%d1, H1⟩, ⟨%d2, H2⟩, ⟨%d3, H3⟩⟩
  iapply (kernelRun1_E c (grid1.coords t) _ _ _ _ _ _ _ _ _ _ _ _ _ _ (fun h => absurd ((hcond1_0 t).mp h) (by omega)) (fun h => hlt ((hcond1_1 t).mp h)) (fun h => heq ((hcond1_2 t).mp h)) (fun h => heq ((hcond1_3 t).mp h)) (iblk1 V c 0 t) (iblk1 V c 1 t) (iblk1 V c 2 t) _ _ _ _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HR HS0 HS1 HS2 Hg]
  · isplitl [HR HS0 HS1 HS2]
    · isplitl [HR]; · iexact HR
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iexists _; iexact H3

/-- The body at any point: the closed forms of the conditions pick the case. -/
theorem sound_body1 (c : Dev nD) (t : Fin cfg1.N) : bodyPre1 V c t ⊢ wp frame (wpE (defs₀ (F := F)) Variants.none c none) Set.univ (bodyAt1 t) (fun _ => bodyPost1 V c t) := by
  by_cases heq : t.val % 4 = t.val / 4 % 4
  · by_cases h0 : t.val % 4 = 0
    · by_cases hz : t.val = 0
      · exact sound_A0 V c t h0 heq hz
      · exact sound_A1 V c t h0 heq hz
    · exact sound_D V c t h0 heq
  · by_cases hlt : t.val % 4 < t.val / 4 % 4
    · by_cases h0 : t.val % 4 = 0
      · exact sound_B V c t h0 hlt
      · exact sound_C V c t h0 hlt
    · by_cases h3 : t.val % 4 = 3
      · exact sound_E3 V c t heq hlt h3
      · exact sound_E V c t heq hlt h3

theorem body_obligation1 (c : Dev nD) : BodyObligation (dat1 (F := F) V c) (defs₀ (F := F)) Variants.none () Set.univ := fun t => by
  rw [bigSep_W1, bigSep_W1]
  exact sound_body1 V c t

/-! ## In and out of the invariant -/

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the scratch buffers' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨⟨R1, R2, R3, R4, R5, R6, R7, R8, R9⟩, HS0, HS1, HS2⟩, Hg⟩
  isplitl [R1 R2 R3 R4 R5 R6 R7 R8 R9 HS0 HS1 HS2]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [HS0]; · iexists _; iexact HS0
    isplitl [HS1]; · iexists _; iexact HS1
    iexists _; iexact HS2
  iexact Hg

end Cert.Kernel.Hand

end
-- ==== Proof.K.Frame.lean ====
/-
  The whole run of @main: a stretch of host operations (the three weight matrices joined side by side and rounded,
  the activations flattened), the projection region, a stretch of host reshapes, the attention region. Between two
  items every buffer of the program is held whole at named contents — the launch memory, then each host stretch
  applied, then each region's arrays at what its write-backs leave — and the argument arrays are never written: no
  host operation's result is an argument, and no window of either region stages one. So every weakly fair execution
  terminates with the arguments as launched, and with the result buffer at what the attention region's write-backs
  leave of its output window.
-/
import proofs.«147976_j43456479101605_2_alg».proof.Proof.Gen.Kernel.Launch
import proofs.«147976_j43456479101605_2_alg».proof.Proof.Gen.Kernel.Skeleton
import proofs.«147976_j43456479101605_2_alg».proof.Proof.Gen.Kernel.Points
import proofs.«147976_j43456479101605_2_alg».proof.Proof.Gen.Kernel.Regions
import proofs.«147976_j43456479101605_2_alg».proof.Proof.K.Proj
import proofs.«147976_j43456479101605_2_alg».proof.Proof.K.AttnBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After the projection region: its arrays at what its write-backs leave, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- After the attention region: its arrays at what its write-backs leave, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ## The proof data family and the thread state -/

def pdats : (p : Fin 2) → (c : Dev nD) → Dat τ (Elt F) Unit ℕ (UR sig nD τ) ℕ (Pipeline.pin (pcfgs (F := F)) Gen.adm p) c
  | ⟨0, _⟩ => fun c => dat0 (U1 m ρ) c
  | ⟨1, _⟩ => fun c => dat1 (U3 m ρ) c
abbrev 𝒱z : Variants := Variants.none
abbrev Lz : GSem nD τ sig → Finset Unit := fun _ => ∅
abbrev lvz : GSem nD τ sig → Unit → ℕ := fun _ _ => 0
/-- What rides beside the buffers through every item: the generator register at some state, and nothing owed. -/
abbrev Rc (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱z Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rc
theorem mem_uc' (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as items -/

set_option backward.isDefEq.respectTransparency.types false in
def reg0 : Pipeline.RegionSeg (pcfgs (F := F)) Gen.adm (pdats m ρ) () defs₀ 𝒱z Lz lvz 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lz lvz 0 fun _ _ => rfl
  pre c := iprop(StableHlo.held (c : Thread nD τ) (Pipeline.ucRefs τ sig) (W1 m ρ c) ∗ Rc c)
  post c := iprop(StableHlo.held (c : Thread nD τ) (Pipeline.ucRefs τ sig) (W2 m ρ c) ∗ Rc c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) Gen.adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) Gen.adm (pdats m ρ) () defs₀ 𝒱z Lz lvz 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ Lz lvz 1 fun _ _ => rfl
  pre c := iprop(StableHlo.held (c : Thread nD τ) (Pipeline.ucRefs τ sig) (W3 m ρ c) ∗ Rc c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) Gen.adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [show (pdats m ρ 1 c).Φ (Fin.last _) = (dat1 (U3 m ρ) c).Φ (Fin.last cfg1.N) from rfl]
    refine (hout1 (U3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev mainSegs : List (Pipeline.Seg (pcfgs (F := F)) Gen.adm (pdats m ρ) () defs₀ 𝒱z Lz lvz) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (mainSegs m ρ) := (main_chain c).trans (by chain_rfl)

set_option backward.isDefEq.respectTransparency.types false in
/-- Every weakly fair execution of @main terminates, nothing faulting, with every unscoped buffer at the last
    boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) Gen.adm (pdats m ρ) () cellOf_inj emb₁ defs₀ 𝒱z Lz lvz m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rc c)) (Tₙ := Tₙ m ρ)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc' main_arg0 (by decide))).trans (W4_main_arg0 m ρ c),
     (h c _ (mem_uc' main_arg1 (by decide))).trans (W4_main_arg1 m ρ c),
     (h c _ (mem_uc' main_arg2 (by decide))).trans (W4_main_arg2 m ρ c),
     (h c _ (mem_uc' main_arg3 (by decide))).trans (W4_main_arg3 m ρ c)⟩) (run_main m ρ)

/-- The result buffer ends at what the attention region's write-backs leave of its output window's array. -/
theorem result_main_v7 (r : PUnit × MemSt nD τ sig (Elt F)) (h : ∀ c : Dev nD, ∀ b ∈ Pipeline.ucRefs τ sig, r.2.mem (((c : Thread nD τ)).1, b) = W4 m ρ c b) (c : Dev nD) :
    r.2.mem ((c.tc : Thread nD τ).loc main_v7) = (dat1 (U3 m ρ) c).arrAt 3 cfg1.N :=
  (h c _ (mem_uc' main_v7 (by decide))).trans (W4_arr m ρ c 3)

end Cert.Kernel.Hand

end
-- ==== Proof.KI.Proj.lean ====
/- REGION 0 of @main (the projection kernel `cc0__proj_kernel`) runs to its end at every grid point, for any float
   carrier `F` and any buffer contents `V` at the region's entry. The body reads its two input windows whole (the activation block and the concatenated weight), forms one
   matrix product and stores three column slices of it, each whole, into its three output windows; each output
   memref is also read once before it is overwritten, and that read is discarded. So what the body leaves in each
   output buffer is a closed function of the two input blocks at the point. -/
import proofs.«147976_j43456479101605_2_alg».proof.Proof.Gen.KernelIdeal.Launch
import proofs.«147976_j43456479101605_2_alg».proof.Proof.Gen.KernelIdeal.Skeleton
import proofs.«147976_j43456479101605_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1 (the whole weight, fetched at the first point only: its block index is constant). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x2048 := Rect.unit (s := S1024x2048) ![0, 0] S1024x2048.size inb_S1024x2048_S1024x2048_0_0
abbrev r0_1 : Rect S2048x384 := Rect.unit (s := S2048x384) ![0, 0] S2048x384.size inb_S2048x384_S2048x384_0_0
abbrev r0_2 : Rect S1024x128 := Rect.unit (s := S1024x128) ![0, 0] S1024x128.size inb_S1024x128_S1024x128_0_0

/-! ## What the body leaves in each output window's buffer -/

/-- Window 2's staging buffer after the body, from the input windows' blocks: its one whole-block store. -/
def out0_2 (x0 : Vec F S1024x2048 .f32) (x1 : Vec F S2048x384 .bf16) : Vec F S1024x128 .bf16 :=
  View.canon [⟨r0_2, k0_pay2 (View.ld x0 r0_0) (View.ld x1 r0_1)⟩]

/-- Window 3's staging buffer after the body. -/
def out0_3 (x0 : Vec F S1024x2048 .f32) (x1 : Vec F S2048x384 .bf16) : Vec F S1024x128 .bf16 :=
  View.canon [⟨r0_2, k0_pay3 (View.ld x0 r0_0) (View.ld x1 r0_1)⟩]

/-- Window 4's staging buffer after the body. -/
def out0_4 (x0 : Vec F S1024x2048 .f32) (x1 : Vec F S2048x384 .bf16) : Vec F S1024x128 .bf16 :=
  View.canon [⟨r0_2, k0_pay4 (View.ld x0 r0_0) (View.ld x1 r0_1)⟩]

/-- A single whole-block store tiles the buffer, so it covers it. -/
theorem cover0_out (p0 : Vec F S1024x128 .bf16) (y : S1024x128.Idx) :
    ∃ pc ∈ ([⟨r0_2, p0⟩] : List (View.Piece (Elt F) S1024x128 .bf16)), y ∈ pc.1.set :=
  View.cover_of_tiled [⟨r0_2, p0⟩] S1024x128.size (by rfl) y

/-! ## The body's triple -/

set_option maxHeartbeats 1000000 in
/-- The kernel body on whole staging memrefs, the inputs' at read contents `x0`, `x1` and the outputs' at anything,
    runs to the continuation holding the inputs' as they were and each output's at `out0_k` of the inputs'. -/
theorem sound_kernel0 (c : Dev nD) (E : Set ℕ) (i : grid0.Coords)
    (arg1 : Memref sig .tc .vmem S1024x2048 .f32) (harg1 : arg1.IsWhole) (arg2 : Memref sig .tc .vmem S2048x384 .bf16) (harg2 : arg2.IsWhole)
    (arg3 : Memref sig .tc .vmem S1024x128 .bf16) (harg3 : arg3.IsWhole) (arg4 : Memref sig .tc .vmem S1024x128 .bf16) (harg4 : arg4.IsWhole)
    (arg5 : Memref sig .tc .vmem S1024x128 .bf16) (harg5 : arg5.IsWhole)
    (x0 : Vec F S1024x2048 .f32) (x1 : Vec F S2048x384 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__proj_kernel i arg1 harg1 arg2 harg2 arg3 harg3 arg4 harg4 arg5 harg5) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_out _)
  isplitl [H3]
  · iexists _; isplitr
    swap; · iexact H3
    ipureintro
    exact View.read_writes_eq_canon _ _ _ (cover0_out _)
  iexists _; isplitr
  swap; · iexact H4
  ipureintro
  exact View.read_writes_eq_canon _ _ _ (cover0_out _)

/-! ## The pipeline's proof data -/

/-- The proof data of pipeline 0 on core `c`: the arrays as the region finds them (`V`); after the body at point `t`
    each input's buffer at its block and each output's at `out0_k` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.AttnDefs.lean ====
/-
  The attention region: a grid of 4 x 4 x 4 points (batch b, query block qi, key block ki; ki runs fastest), three
  scratch buffers carried from point to point (the running row maximum, the running denominator, the running
  numerator) and one output block per (b, qi), stored at ki = qi and written back at ki = 3.
  What every case of the body shares: the four branch conditions as functions of the grid
  coordinates with their closed forms over the linear point number t = 16 b + 4 qi + ki, where the output window
  is idle, and the names of the staging and scratch memrefs.
-/
import proofs.«147976_j43456479101605_2_alg».proof.Proof.Gen.KernelIdeal.Launch
import proofs.«147976_j43456479101605_2_alg».proof.Proof.Gen.KernelIdeal.Skeleton
import proofs.«147976_j43456479101605_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## The branch conditions -/

/-- first key block: ki = 0 -/
abbrev cond1_0 (i : grid1.Coords) : Prop :=
  (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- a key block strictly below the diagonal: ki < qi -/
abbrev cond1_1 (i : grid1.Coords) : Prop :=
  (Scalar.cmpi .ne (Scalar.extui (Scalar.cmpi .slt (BitVec.ofNat 32 (i 2).val) (BitVec.ofNat 32 (i 1).val))) 0#32) = 1#1
theorem hcond1_1 : ∀ t : Fin cfg1.N, cond1_1 (grid1.coords t) ↔ t.val % 4 < t.val / 4 % 4 :=
  (by decide +kernel : ∀ t : Fin grid1.N, cond1_1 (grid1.coords t) ↔ t.val % 4 < t.val / 4 % 4)

/-- the diagonal block: ki = qi -/
abbrev cond1_2 (i : grid1.Coords) : Prop :=
  (Scalar.cmpi .ne (Scalar.extui (Scalar.cmpi .eq (BitVec.ofNat 32 (i 2).val) (BitVec.ofNat 32 (i 1).val))) 0#32) = 1#1
theorem hcond1_2 : ∀ t : Fin cfg1.N, cond1_2 (grid1.coords t) ↔ t.val % 4 = t.val / 4 % 4 :=
  (by decide +kernel : ∀ t : Fin grid1.N, cond1_2 (grid1.coords t) ↔ t.val % 4 = t.val / 4 % 4)

/-- the same test again, guarding the output store -/
abbrev cond1_3 (i : grid1.Coords) : Prop := k1_cond4 i = 1#1
theorem hcond1_3 : ∀ t : Fin cfg1.N, cond1_3 (grid1.coords t) ↔ t.val % 4 = t.val / 4 % 4 :=
  (by decide +kernel : ∀ t : Fin grid1.N, cond1_3 (grid1.coords t) ↔ t.val % 4 = t.val / 4 % 4)

/-! ## Where the windows are idle, and where the output is written back -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- off the diagonal the body stores nothing into the output block -/
theorem idleAt1_3 : ∀ t : Fin cfg1.N, ¬ t.val % 4 = t.val / 4 % 4 → cfg1.idle 3 (grid1.coords t) = true := by decide +kernel
/-- on the diagonal it stores the whole block -/
theorem liveAt1_3 : ∀ t : Fin cfg1.N, t.val % 4 = t.val / 4 % 4 → cfg1.idle 3 (grid1.coords t) = false := by decide +kernel
/-- the output block is written back at the last key block only -/
theorem flushAt1_3 : ∀ t : Fin cfg1.N, (cfg1.win 3).flush t = true ↔ t.val % 4 = 3 :=
  (by decide +kernel : ∀ t : Fin grid1.N, win1_3.flush t = true ↔ t.val % 4 = 3)
theorem noFlush1_3 (t : Fin cfg1.N) (h : ¬ t.val % 4 = 3) : (cfg1.win 3).flush t = false := by
  cases hf : (cfg1.win 3).flush t
  · rfl
  · exact absurd ((flushAt1_3 t).mp hf) h

/-! ## The memrefs the body is called with -/

abbrev VO1_3 : View sig .tc .vmem S1x1024x128 .f32 := (Memref.whole cc1_stg3_0 : Memref sig .tc .vmem S1x1024x128 .f32).view
abbrev ms1_0 (t : Fin cfg1.N) : Memref sig .tc .vmem S1x1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x128 .f32 := win1_3.stage (cfg1.slots t 3)
abbrev hs1_3 (t : Fin cfg1.N) : (ms1_3 t).IsWhole := hstage1_3 ((cfg1.slots t 3).cast nbuf1_3)
/-- the running maximum, the running denominator, the running numerator -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x128 .f32 := scM1_2.view

/-- The other region's staging buffers, each whole at some contents: they ride through this region untouched. -/
abbrev Rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The region's invariant as the launch hands it over: the other region's staging buffers, the three scratch buffers
    at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.KI.AttnRunA.lean ====
/-
  The body at the first key block of the first query block (ki = 0 = qi): the scratch buffers are reset, the diagonal
  update runs on the masked scores, and the output block is stored.
-/
import proofs.«147976_j43456479101605_2_alg».proof.Proof.Gen.KernelIdeal.Launch
import proofs.«147976_j43456479101605_2_alg».proof.Proof.Gen.KernelIdeal.Skeleton
import proofs.«147976_j43456479101605_2_alg».proof.Proof.Gen.KernelIdeal.Points
import proofs.«147976_j43456479101605_2_alg».proof.Proof.KI.AttnDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
noncomputable def kernelRun1_A (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (hc2 : cond1_2 i) (hc3 : cond1_3 i)
    (x0 x1 x2 : Vec F S1x1024x128 .bf16)  :
    Σ' (L3 : List (View.Piece (Elt F) S1x1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨?_, ?_, ?_, ?_, fun E K => ?run⟩
  case run =>
    simp only [cc1_attn_kernel_eq_skeleton]; unfold cc1_attn_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.AttnRunB.lean ====
/-
  The body at the first key block of a later query block (ki = 0 < qi): the scratch buffers are reset and the
  off-diagonal update runs; the output block is not touched.
-/
import proofs.«147976_j43456479101605_2_alg».proof.Proof.Gen.KernelIdeal.Launch
import proofs.«147976_j43456479101605_2_alg».proof.Proof.Gen.KernelIdeal.Skeleton
import proofs.«147976_j43456479101605_2_alg».proof.Proof.Gen.KernelIdeal.Points
import proofs.«147976_j43456479101605_2_alg».proof.Proof.KI.AttnDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
noncomputable def kernelRun1_B (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : cond1_1 i) (hc2 : ¬cond1_2 i) (hc3 : ¬cond1_3 i)
    (x0 x1 x2 : Vec F S1x1024x128 .bf16)  :
    Σ' (LS0 : List (View.Piece (Elt F) S1024x1 .f32)) (LS1 : List (View.Piece (Elt F) S1024x1 .f32)), { LS2 : List (View.Piece (Elt F) S1024x128 .f32) //
      ∀ (xi3 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨?_, ?_, ?_, fun xi3 E K => ?run⟩
  case run =>
    simp only [cc1_attn_kernel_eq_skeleton]; unfold cc1_attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.AttnRunC.lean ====
/-
  The body at a key block strictly between the first and the diagonal (0 < ki < qi): only the off-diagonal update
  runs. The scratch buffers come in at what the point before left and go out rewritten; the output block is not touched.
-/
import proofs.«147976_j43456479101605_2_alg».proof.Proof.Gen.KernelIdeal.Launch
import proofs.«147976_j43456479101605_2_alg».proof.Proof.Gen.KernelIdeal.Skeleton
import proofs.«147976_j43456479101605_2_alg».proof.Proof.Gen.KernelIdeal.Points
import proofs.«147976_j43456479101605_2_alg».proof.Proof.KI.AttnDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
noncomputable def kernelRun1_C (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (hc2 : ¬cond1_2 i) (hc3 : ¬cond1_3 i)
    (x0 x1 x2 : Vec F S1x1024x128 .bf16) (xs0 xs1 : Vec F S1024x1 .f32) (xs2 : Vec F S1024x128 .f32) :
    Σ' (LS0 : List (View.Piece (Elt F) S1024x1 .f32)) (LS1 : List (View.Piece (Elt F) S1024x1 .f32)), { LS2 : List (View.Piece (Elt F) S1024x128 .f32) //
      ∀ (xi3 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨?_, ?_, ?_, fun xi3 E K => ?run⟩
  case run =>
    simp only [cc1_attn_kernel_eq_skeleton]; unfold cc1_attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.AttnRunD.lean ====
/-
  The body at the diagonal block of a later query block (0 < ki = qi): the diagonal update runs on the masked scores
  from what the point before left in the scratch buffers, and the output block is stored.
-/
import proofs.«147976_j43456479101605_2_alg».proof.Proof.Gen.KernelIdeal.Launch
import proofs.«147976_j43456479101605_2_alg».proof.Proof.Gen.KernelIdeal.Skeleton
import proofs.«147976_j43456479101605_2_alg».proof.Proof.Gen.KernelIdeal.Points
import proofs.«147976_j43456479101605_2_alg».proof.Proof.KI.AttnDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
noncomputable def kernelRun1_D (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (hc2 : cond1_2 i) (hc3 : cond1_3 i)
    (x0 x1 x2 : Vec F S1x1024x128 .bf16) (xs0 xs1 : Vec F S1024x1 .f32) (xs2 : Vec F S1024x128 .f32) :
    Σ' (L3 : List (View.Piece (Elt F) S1x1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_attn_kernel i arg3 harg3 arg4 harg4 arg5 harg5 arg6 harg6 arg7 harg7 arg8 harg8 arg9 harg9) K } := by
  refine ⟨?_, ?_, ?_, ?_, fun E K => ?run⟩
  case run =>
    simp only [cc1_attn_kernel_eq_skeleton]; unfold cc1_attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.AttnRunE.lean ====
/-
  The body at a key block above the diagonal (ki > qi): no branch is taken; every buffer is handed back as found.
-/
import proofs.«147976_j43456479101605_2_alg».proof.Proof.Gen.KernelIdeal.Launch
import proofs.«147976_j43456479101605_2_alg».proof.Proof.Gen.KernelIdeal.Skeleton
import proofs.«147976_j43456479101605_2_alg».proof.Proof.Gen.KernelIdeal.Points
import proofs.«147976_j43456479101605_2_alg».proof.Proof.KI.AttnDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
theorem kernelRun1_E (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (hc2 : ¬cond1_2 i) (hc3 : ¬cond1_3 i)
    (x0 x1 x2 : Vec F S1x1024x128 .bf16) (xs0 xs1 : Vec F S1024x1 .f32) (xs2 : Vec F S1024x128 .f32) :
    ∀ (xi3 : Vec F S1x1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_attn_kernel i arg3 harg3 arg4 harg4 arg5 harg5 arg6 harg6 arg7 harg7 arg8 harg8 arg9 harg9) K := by
  intro xi3 E K
  · simp only [cc1_attn_kernel_eq_skeleton]; unfold cc1_attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Hand

end
-- ==== Proof.KI.Attn.lean ====
/-
  The attention region, point by point: what the output block's staging buffer and the three scratch buffers hold
  after the body at each grid point (the state: output block, running maximum, running denominator, running
  numerator), by recursion on the point number t = 16 b + 4 qi + ki.
    ki = 0 = qi : reset, then the masked (diagonal) update, then the output block is stored;
    ki = 0 < qi : reset, then the plain update;
    0 < ki < qi : the plain update from the previous point's scratch;
    0 < ki = qi : the masked update from the previous point's scratch, then the output block is stored;
    ki > qi     : nothing moves: the state is the previous point's, so the block stored on the diagonal is still
                  in the staging buffer when it is written back at ki = 3.
-/
import proofs.«147976_j43456479101605_2_alg».proof.Proof.Gen.KernelIdeal.Launch
import proofs.«147976_j43456479101605_2_alg».proof.Proof.Gen.KernelIdeal.Skeleton
import proofs.«147976_j43456479101605_2_alg».proof.Proof.Gen.KernelIdeal.Points
import proofs.«147976_j43456479101605_2_alg».proof.Proof.KI.AttnRunA
import proofs.«147976_j43456479101605_2_alg».proof.Proof.KI.AttnRunB
import proofs.«147976_j43456479101605_2_alg».proof.Proof.KI.AttnRunC
import proofs.«147976_j43456479101605_2_alg».proof.Proof.KI.AttnRunD
import proofs.«147976_j43456479101605_2_alg».proof.Proof.KI.AttnRunE
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## Each case's stores cover the buffers they rewrite -/

theorem cover1_A_3 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (hc2 : cond1_2 i) (hc3 : cond1_3 i)
    (x0 x1 x2 : Vec F S1x1024x128 .bf16)  (y : S1x1024x128.Idx) :
    ∃ pc ∈ (kernelRun1_A c i arg3 harg3 arg4 harg4 arg5 harg5 arg6 harg6 arg7 harg7 arg8 harg8 arg9 harg9 hc0 hc1 hc2 hc3 x0 x1 x2).1, y ∈ pc.1.set :=
  View.cover_of_tiledL (kernelRun1_A c i arg3 harg3 arg4 harg4 arg5 harg5 arg6 harg6 arg7 harg7 arg8 harg8 arg9 harg9 hc0 hc1 hc2 hc3 x0 x1 x2).1 S1x1024x128.size (by sl_kernel_rfl) y

theorem scover1_A_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (hc2 : cond1_2 i) (hc3 : cond1_3 i)
    (x0 x1 x2 : Vec F S1x1024x128 .bf16)  (y : S1024x1.Idx) :
    ∃ pc ∈ (kernelRun1_A c i arg3 harg3 arg4 harg4 arg5 harg5 arg6 harg6 arg7 harg7 arg8 harg8 arg9 harg9 hc0 hc1 hc2 hc3 x0 x1 x2).2.1, y ∈ pc.1.set :=
  View.cover_of_tiledL (kernelRun1_A c i arg3 harg3 arg4 harg4 arg5 harg5 arg6 harg6 arg7 harg7 arg8 harg8 arg9 harg9 hc0 hc1 hc2 hc3 x0 x1 x2).2.1 S1024x1.size (by sl_kernel_rfl) y

theorem scover1_A_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (hc2 : cond1_2 i) (hc3 : cond1_3 i)
    (x0 x1 x2 : Vec F S1x1024x128 .bf16)  (y : S1024x1.Idx) :
    ∃ pc ∈ (kernelRun1_A c i arg3 harg3 arg4 harg4 arg5 harg5 arg6 harg6 arg7 harg7 arg8 harg8 arg9 harg9 hc0 hc1 hc2 hc3 x0 x1 x2).2.2.1, y ∈ pc.1.set :=
  View.cover_of_tiledL (kernelRun1_A c i arg3 harg3 arg4 harg4 arg5 harg5 arg6 harg6 arg7 harg7 arg8 harg8 arg9 harg9 hc0 hc1 hc2 hc3 x0 x1 x2).2.2.1 S1024x1.size (by sl_kernel_rfl) y

theorem scover1_A_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (hc2 : cond1_2 i) (hc3 : cond1_3 i)
    (x0 x1 x2 : Vec F S1x1024x128 .bf16)  (y : S1024x128.Idx) :
    ∃ pc ∈ (kernelRun1_A c i arg3 harg3 arg4 harg4 arg5 harg5 arg6 harg6 arg7 harg7 arg8 harg8 arg9 harg9 hc0 hc1 hc2 hc3 x0 x1 x2).2.2.2.1, y ∈ pc.1.set :=
  View.cover_of_tiledL (kernelRun1_A c i arg3 harg3 arg4 harg4 arg5 harg5 arg6 harg6 arg7 harg7 arg8 harg8 arg9 harg9 hc0 hc1 hc2 hc3 x0 x1 x2).2.2.2.1 S1024x128.size (by sl_kernel_rfl) y

theorem scover1_B_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : cond1_1 i) (hc2 : ¬cond1_2 i) (hc3 : ¬cond1_3 i)
    (x0 x1 x2 : Vec F S1x1024x128 .bf16)  (y : S1024x1.Idx) :
    ∃ pc ∈ (kernelRun1_B c i arg3 harg3 arg4 harg4 arg5 harg5 arg6 harg6 arg7 harg7 arg8 harg8 arg9 harg9 hc0 hc1 hc2 hc3 x0 x1 x2).1, y ∈ pc.1.set :=
  View.cover_of_tiledL (kernelRun1_B c i arg3 harg3 arg4 harg4 arg5 harg5 arg6 harg6 arg7 harg7 arg8 harg8 arg9 harg9 hc0 hc1 hc2 hc3 x0 x1 x2).1 S1024x1.size (by sl_kernel_rfl) y

theorem scover1_B_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : cond1_1 i) (hc2 : ¬cond1_2 i) (hc3 : ¬cond1_3 i)
    (x0 x1 x2 : Vec F S1x1024x128 .bf16)  (y : S1024x1.Idx) :
    ∃ pc ∈ (kernelRun1_B c i arg3 harg3 arg4 harg4 arg5 harg5 arg6 harg6 arg7 harg7 arg8 harg8 arg9 harg9 hc0 hc1 hc2 hc3 x0 x1 x2).2.1, y ∈ pc.1.set :=
  View.cover_of_tiledL (kernelRun1_B c i arg3 harg3 arg4 harg4 arg5 harg5 arg6 harg6 arg7 harg7 arg8 harg8 arg9 harg9 hc0 hc1 hc2 hc3 x0 x1 x2).2.1 S1024x1.size (by sl_kernel_rfl) y

theorem scover1_B_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : cond1_1 i) (hc2 : ¬cond1_2 i) (hc3 : ¬cond1_3 i)
    (x0 x1 x2 : Vec F S1x1024x128 .bf16)  (y : S1024x128.Idx) :
    ∃ pc ∈ (kernelRun1_B c i arg3 harg3 arg4 harg4 arg5 harg5 arg6 harg6 arg7 harg7 arg8 harg8 arg9 harg9 hc0 hc1 hc2 hc3 x0 x1 x2).2.2.1, y ∈ pc.1.set :=
  View.cover_of_tiledL (kernelRun1_B c i arg3 harg3 arg4 harg4 arg5 harg5 arg6 harg6 arg7 harg7 arg8 harg8 arg9 harg9 hc0 hc1 hc2 hc3 x0 x1 x2).2.2.1 S1024x128.size (by sl_kernel_rfl) y

theorem scover1_C_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (hc2 : ¬cond1_2 i) (hc3 : ¬cond1_3 i)
    (x0 x1 x2 : Vec F S1x1024x128 .bf16) (xs0 xs1 : Vec F S1024x1 .f32) (xs2 : Vec F S1024x128 .f32) (y : S1024x1.Idx) :
    ∃ pc ∈ (kernelRun1_C c i arg3 harg3 arg4 harg4 arg5 harg5 arg6 harg6 arg7 harg7 arg8 harg8 arg9 harg9 hc0 hc1 hc2 hc3 x0 x1 x2 xs0 xs1 xs2).1, y ∈ pc.1.set :=
  View.cover_of_tiledL (kernelRun1_C c i arg3 harg3 arg4 harg4 arg5 harg5 arg6 harg6 arg7 harg7 arg8 harg8 arg9 harg9 hc0 hc1 hc2 hc3 x0 x1 x2 xs0 xs1 xs2).1 S1024x1.size (by sl_kernel_rfl) y

theorem scover1_C_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (hc2 : ¬cond1_2 i) (hc3 : ¬cond1_3 i)
    (x0 x1 x2 : Vec F S1x1024x128 .bf16) (xs0 xs1 : Vec F S1024x1 .f32) (xs2 : Vec F S1024x128 .f32) (y : S1024x1.Idx) :
    ∃ pc ∈ (kernelRun1_C c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (kernelRun1_C c i arg3 harg3 arg4 harg4 arg5 harg5 arg6 harg6 arg7 harg7 arg8 harg8 arg9 harg9 hc0 hc1 hc2 hc3 x0 x1 x2 xs0 xs1 xs2).2.1 S1024x1.size (by sl_kernel_rfl) y

theorem scover1_C_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (hc2 : ¬cond1_2 i) (hc3 : ¬cond1_3 i)
    (x0 x1 x2 : Vec F S1x1024x128 .bf16) (xs0 xs1 : Vec F S1024x1 .f32) (xs2 : Vec F S1024x128 .f32) (y : S1024x128.Idx) :
    ∃ pc ∈ (kernelRun1_C c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (kernelRun1_C c i arg3 harg3 arg4 harg4 arg5 harg5 arg6 harg6 arg7 harg7 arg8 harg8 arg9 harg9 hc0 hc1 hc2 hc3 x0 x1 x2 xs0 xs1 xs2).2.2.1 S1024x128.size (by sl_kernel_rfl) y

theorem cover1_D_3 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (hc2 : cond1_2 i) (hc3 : cond1_3 i)
    (x0 x1 x2 : Vec F S1x1024x128 .bf16) (xs0 xs1 : Vec F S1024x1 .f32) (xs2 : Vec F S1024x128 .f32) (y : S1x1024x128.Idx) :
    ∃ pc ∈ (kernelRun1_D c i arg3 harg3 arg4 harg4 arg5 harg5 arg6 harg6 arg7 harg7 arg8 harg8 arg9 harg9 hc0 hc1 hc2 hc3 x0 x1 x2 xs0 xs1 xs2).1, y ∈ pc.1.set :=
  View.cover_of_tiledL (kernelRun1_D c i arg3 harg3 arg4 harg4 arg5 harg5 arg6 harg6 arg7 harg7 arg8 harg8 arg9 harg9 hc0 hc1 hc2 hc3 x0 x1 x2 xs0 xs1 xs2).1 S1x1024x128.size (by sl_kernel_rfl) y

theorem scover1_D_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (hc2 : cond1_2 i) (hc3 : cond1_3 i)
    (x0 x1 x2 : Vec F S1x1024x128 .bf16) (xs0 xs1 : Vec F S1024x1 .f32) (xs2 : Vec F S1024x128 .f32) (y : S1024x1.Idx) :
    ∃ pc ∈ (kernelRun1_D c i arg3 harg3 arg4 harg4 arg5 harg5 arg6 harg6 arg7 harg7 arg8 harg8 arg9 harg9 hc0 hc1 hc2 hc3 x0 x1 x2 xs0 xs1 xs2).2.1, y ∈ pc.1.set :=
  View.cover_of_tiledL (kernelRun1_D c i arg3 harg3 arg4 harg4 arg5 harg5 arg6 harg6 arg7 harg7 arg8 harg8 arg9 harg9 hc0 hc1 hc2 hc3 x0 x1 x2 xs0 xs1 xs2).2.1 S1024x1.size (by sl_kernel_rfl) y

theorem scover1_D_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (hc2 : cond1_2 i) (hc3 : cond1_3 i)
    (x0 x1 x2 : Vec F S1x1024x128 .bf16) (xs0 xs1 : Vec F S1024x1 .f32) (xs2 : Vec F S1024x128 .f32) (y : S1024x1.Idx) :
    ∃ pc ∈ (kernelRun1_D c i arg3 harg3 arg4 harg4 arg5 harg5 arg6 harg6 arg7 harg7 arg8 harg8 arg9 harg9 hc0 hc1 hc2 hc3 x0 x1 x2 xs0 xs1 xs2).2.2.1, y ∈ pc.1.set :=
  View.cover_of_tiledL (kernelRun1_D c i arg3 harg3 arg4 harg4 arg5 harg5 arg6 harg6 arg7 harg7 arg8 harg8 arg9 harg9 hc0 hc1 hc2 hc3 x0 x1 x2 xs0 xs1 xs2).2.2.1 S1024x1.size (by sl_kernel_rfl) y

theorem scover1_D_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (hc2 : cond1_2 i) (hc3 : cond1_3 i)
    (x0 x1 x2 : Vec F S1x1024x128 .bf16) (xs0 xs1 : Vec F S1024x1 .f32) (xs2 : Vec F S1024x128 .f32) (y : S1024x128.Idx) :
    ∃ pc ∈ (kernelRun1_D c i arg3 harg3 arg4 harg4 arg5 harg5 arg6 harg6 arg7 harg7 arg8 harg8 arg9 harg9 hc0 hc1 hc2 hc3 x0 x1 x2 xs0 xs1 xs2).2.2.2.1, y ∈ pc.1.set :=
  View.cover_of_tiledL (kernelRun1_D c i arg3 harg3 arg4 harg4 arg5 harg5 arg6 harg6 arg7 harg7 arg8 harg8 arg9 harg9 hc0 hc1 hc2 hc3 x0 x1 x2 xs0 xs1 xs2).2.2.2.1 S1024x128.size (by sl_kernel_rfl) y

/-! ## The region's arrays and blocks -/

-- the buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The state after a point: the output block's staging buffer, then the running maximum, denominator and numerator. -/
abbrev St (F : FTy → Type) : Type := Vec F S1x1024x128 .f32 × Vec F S1024x1 .f32 × Vec F S1024x1 .f32 × Vec F S1024x128 .f32

/-! ## The cases' runs at a point of the grid -/

def runA (c : Dev nD) (t : Fin cfg1.N) (h0 : t.val % 4 = 0) (heq : t.val % 4 = t.val / 4 % 4) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => absurd ((hcond1_1 t).mp h) (by omega)) ((hcond1_2 t).mpr heq) ((hcond1_3 t).mpr heq) (iblk1 V c 0 t) (iblk1 V c 1 t) (iblk1 V c 2 t)
def runB (c : Dev nD) (t : Fin cfg1.N) (h0 : t.val % 4 = 0) (hlt : t.val % 4 < t.val / 4 % 4) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr hlt) (fun h => absurd ((hcond1_2 t).mp h) (by omega)) (fun h => absurd ((hcond1_3 t).mp h) (by omega)) (iblk1 V c 0 t) (iblk1 V c 1 t) (iblk1 V c 2 t)
def runC (c : Dev nD) (t : Fin cfg1.N) (h0 : ¬ t.val % 4 = 0) (hlt : t.val % 4 < t.val / 4 % 4) (xs0 xs1 : Vec F S1024x1 .f32) (xs2 : Vec F S1024x128 .f32) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr hlt) (fun h => absurd ((hcond1_2 t).mp h) (by omega)) (fun h => absurd ((hcond1_3 t).mp h) (by omega)) (iblk1 V c 0 t) (iblk1 V c 1 t) (iblk1 V c 2 t) xs0 xs1 xs2
def runD (c : Dev nD) (t : Fin cfg1.N) (h0 : ¬ t.val % 4 = 0) (heq : t.val % 4 = t.val / 4 % 4) (xs0 xs1 : Vec F S1024x1 .f32) (xs2 : Vec F S1024x128 .f32) :=
  kernelRun1_D (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => absurd ((hcond1_1 t).mp h) (by omega)) ((hcond1_2 t).mpr heq) ((hcond1_3 t).mpr heq) (iblk1 V c 0 t) (iblk1 V c 1 t) (iblk1 V c 2 t) xs0 xs1 xs2

/-- What case ki = 0 = qi leaves. -/
def stA (c : Dev nD) (t : Fin cfg1.N) (h0 : t.val % 4 = 0) (heq : t.val % 4 = t.val / 4 % 4) : St F :=
  (VO1_3.read (Elt F) (VO1_3.writes (Elt F) VO1_3.junk (runA V c t h0 heq).1),
   VS1_0.read (Elt F) (VS1_0.writes (Elt F) VS1_0.junk (runA V c t h0 heq).2.1),
   VS1_1.read (Elt F) (VS1_1.writes (Elt F) VS1_1.junk (runA V c t h0 heq).2.2.1),
   VS1_2.read (Elt F) (VS1_2.writes (Elt F) VS1_2.junk (runA V c t h0 heq).2.2.2.1))
/-- What case ki = 0 < qi leaves, over an output buffer it does not touch (`o`). -/
def stB (c : Dev nD) (t : Fin cfg1.N) (h0 : t.val % 4 = 0) (hlt : t.val % 4 < t.val / 4 % 4) (o : Vec F S1x1024x128 .f32) : St F :=
  (o,
   VS1_0.read (Elt F) (VS1_0.writes (Elt F) VS1_0.junk (runB V c t h0 hlt).1),
   VS1_1.read (Elt F) (VS1_1.writes (Elt F) VS1_1.junk (runB V c t h0 hlt).2.1),
   VS1_2.read (Elt F) (VS1_2.writes (Elt F) VS1_2.junk (runB V c t h0 hlt).2.2.1))
/-- What case 0 < ki < qi leaves, from the previous point's state `p`. -/
def stC (c : Dev nD) (t : Fin cfg1.N) (h0 : ¬ t.val % 4 = 0) (hlt : t.val % 4 < t.val / 4 % 4) (p : St F) : St F :=
  (p.1,
   VS1_0.read (Elt F) (VS1_0.writes (Elt F) VS1_0.junk (runC V c t h0 hlt p.2.1 p.2.2.1 p.2.2.2).1),
   VS1_1.read (Elt F) (VS1_1.writes (Elt F) VS1_1.junk (runC V c t h0 hlt p.2.1 p.2.2.1 p.2.2.2).2.1),
   VS1_2.read (Elt F) (VS1_2.writes (Elt F) VS1_2.junk (runC V c t h0 hlt p.2.1 p.2.2.1 p.2.2.2).2.2.1))
/-- What case 0 < ki = qi leaves, from the previous point's state `p`. -/
def stD (c : Dev nD) (t : Fin cfg1.N) (h0 : ¬ t.val % 4 = 0) (heq : t.val % 4 = t.val / 4 % 4) (p : St F) : St F :=
  (VO1_3.read (Elt F) (VO1_3.writes (Elt F) VO1_3.junk (runD V c t h0 heq p.2.1 p.2.2.1 p.2.2.2).1),
   VS1_0.read (Elt F) (VS1_0.writes (Elt F) VS1_0.junk (runD V c t h0 heq p.2.1 p.2.2.1 p.2.2.2).2.1),
   VS1_1.read (Elt F) (VS1_1.writes (Elt F) VS1_1.junk (runD V c t h0 heq p.2.1 p.2.2.1 p.2.2.2).2.2.1),
   VS1_2.read (Elt F) (VS1_2.writes (Elt F) VS1_2.junk (runD V c t h0 heq p.2.1 p.2.2.1 p.2.2.2).2.2.2.1))

/-! ## The state after each point -/

/-- The state after the body at point number `n`. -/
def outsAt1 (c : Dev nD) : (n : ℕ) → n < cfg1.N → St F
  | 0, hn => stA V c ⟨0, hn⟩ (show (0 : ℕ) % 4 = 0 from rfl) (show (0 : ℕ) % 4 = 0 / 4 % 4 from rfl)
  | n + 1, hn =>
    if heq : (n + 1) % 4 = (n + 1) / 4 % 4 then
      if h0 : (n + 1) % 4 = 0 then stA V c ⟨n + 1, hn⟩ h0 heq
      else stD V c ⟨n + 1, hn⟩ h0 heq (outsAt1 c n (Nat.lt_of_succ_lt hn))
    else
      if hlt : (n + 1) % 4 < (n + 1) / 4 % 4 then
        if h0 : (n + 1) % 4 = 0 then stB V c ⟨n + 1, hn⟩ h0 hlt (outsAt1 c n (Nat.lt_of_succ_lt hn)).1
        else stC V c ⟨n + 1, hn⟩ h0 hlt (outsAt1 c n (Nat.lt_of_succ_lt hn))
      else outsAt1 c n (Nat.lt_of_succ_lt hn)

/-- the point before `t` -/
abbrev prevLt (t : Fin cfg1.N) : t.val - 1 < cfg1.N := Nat.lt_of_le_of_lt (Nat.sub_le _ _) t.isLt

theorem outsAt1_A (c : Dev nD) (t : Fin cfg1.N) (h0 : t.val % 4 = 0) (heq : t.val % 4 = t.val / 4 % 4) : outsAt1 V c t.val t.isLt = stA V c t h0 heq := by
  obtain ⟨n, hn⟩ := t
  cases n with
  | zero => rfl
  | succ n => exact (dif_pos heq).trans (dif_pos h0)

theorem outsAt1_D (c : Dev nD) (t : Fin cfg1.N) (h0 : ¬ t.val % 4 = 0) (heq : t.val % 4 = t.val / 4 % 4) :
    outsAt1 V c t.val t.isLt = stD V c t h0 heq (outsAt1 V c (t.val - 1) (prevLt t)) := by
  obtain ⟨n, hn⟩ := t
  cases n with
  | zero => exact absurd (show (0 : ℕ) % 4 = 0 from rfl) h0
  | succ n => exact (dif_pos heq).trans (dif_neg h0)

theorem outsAt1_B (c : Dev nD) (t : Fin cfg1.N) (h0 : t.val % 4 = 0) (hlt : t.val % 4 < t.val / 4 % 4) :
    outsAt1 V c t.val t.isLt = stB V c t h0 hlt (outsAt1 V c (t.val - 1) (prevLt t)).1 := by
  obtain ⟨n, hn⟩ := t
  cases n with
  | zero => exact absurd (show (0 : ℕ) % 4 < 0 / 4 % 4 from hlt) (by decide)
  | succ n =>
    have hne : ¬ (n + 1) % 4 = (n + 1) / 4 % 4 := fun e => by
      have hlt' : (n + 1) % 4 < (n + 1) / 4 % 4 := hlt
      omega
    exact (dif_neg hne).trans ((dif_pos hlt).trans (dif_pos h0))

theorem outsAt1_C (c : Dev nD) (t : Fin cfg1.N) (h0 : ¬ t.val % 4 = 0) (hlt : t.val % 4 < t.val / 4 % 4) :
    outsAt1 V c t.val t.isLt = stC V c t h0 hlt (outsAt1 V c (t.val - 1) (prevLt t)) := by
  obtain ⟨n, hn⟩ := t
  cases n with
  | zero => exact absurd (show (0 : ℕ) % 4 = 0 from rfl) h0
  | succ n =>
    have hne : ¬ (n + 1) % 4 = (n + 1) / 4 % 4 := fun e => by
      have hlt' : (n + 1) % 4 < (n + 1) / 4 % 4 := hlt
      omega
    exact (dif_neg hne).trans ((dif_pos hlt).trans (dif_neg h0))

theorem outsAt1_E (c : Dev nD) (t : Fin cfg1.N) (heq : ¬ t.val % 4 = t.val / 4 % 4) (hlt : ¬ t.val % 4 < t.val / 4 % 4) :
    outsAt1 V c t.val t.isLt = outsAt1 V c (t.val - 1) (prevLt t) := by
  obtain ⟨n, hn⟩ := t
  cases n with
  | zero => exact absurd (show (0 : ℕ) % 4 = 0 / 4 % 4 from rfl) heq
  | succ n => exact (dif_neg heq).trans (dif_neg hlt)

end Cert.KernelIdeal.Hand

end
-- ==== Proof.KI.AttnBody.lean ====
/-
  The attention region's body obligation. The invariant between points holds the three scratch buffers at the state
  the point before left (before the first point: at anything); the proof data names, after each point, every input
  window's buffer at its block and the output window's at the state's output component. At every point the closed
  forms of the branch conditions pick the case, and that case's run of the body is the obligation: on the diagonal
  the output buffer ends at the block the run stores; below it (ki < qi) the buffer is handed back as found; above it
  (ki > qi) it still holds the block stored on the diagonal, which is what the write-back at ki = 3 writes.
-/
import proofs.«147976_j43456479101605_2_alg».proof.Proof.Gen.KernelIdeal.Launch
import proofs.«147976_j43456479101605_2_alg».proof.Proof.Gen.KernelIdeal.Skeleton
import proofs.«147976_j43456479101605_2_alg».proof.Proof.Gen.KernelIdeal.Points
import proofs.«147976_j43456479101605_2_alg».proof.Proof.KI.Attn
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The invariant between points -/

def PhiS1 (c : Dev nD) : (n : ℕ) → n ≤ cfg1.N → sProp 𝕄
  | 0, _ => Pipeline.ΦA spec1 c
  | n + 1, hn => iprop(iprop(Rest1 (F := F) c ∗ owns (c : Thread nD τ) scM1_0 fullShare (outsAt1 V c n hn).2.1
      ∗ owns (c : Thread nD τ) scM1_1 fullShare (outsAt1 V c n hn).2.2.1 ∗ owns (c : Thread nD τ) scM1_2 fullShare (outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(Rest1 (F := F) c ∗ owns (c : Thread nD τ) scM1_0 fullShare (outsAt1 V c n hn).2.1
      ∗ owns (c : Thread nD τ) scM1_1 fullShare (outsAt1 V c n hn).2.2.1 ∗ owns (c : Thread nD τ) scM1_2 fullShare (outsAt1 V c n hn).2.2.2) ∗ (∃ r, prngReg c r)) := rfl

theorem PhiS1_pos (c : Dev nD) (n : ℕ) (h : n ≤ cfg1.N) (hz : n ≠ 0) :
    PhiS1 V c n h = iprop(iprop(Rest1 (F := F) c ∗ owns (c : Thread nD τ) scM1_0 fullShare (outsAt1 V c (n - 1) (by omega)).2.1
      ∗ owns (c : Thread nD τ) scM1_1 fullShare (outsAt1 V c (n - 1) (by omega)).2.2.1 ∗ owns (c : Thread nD τ) scM1_2 fullShare (outsAt1 V c (n - 1) (by omega)).2.2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- An input window's buffer holds its block at every point, fetched there or not: when it is not fetched its block
    index has not moved (the key and value windows' index min(ki, qi) stays put above the diagonal). -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- Above the diagonal the output window's buffer holds the output component of the previous point's state: no
    write-back lies between (those are at ki = 3, and the point before has ki ≤ 2), the point before either stored the
    block (the diagonal) or found and left it (above the diagonal again). -/
theorem before1_3_E (c : Dev nD) : ∀ (n : ℕ) (hn : n < cfg1.N), ¬ n % 4 = n / 4 % 4 → ¬ n % 4 < n / 4 % 4 →
    ∀ d, (dat1 V c).before 3 ⟨n, hn⟩ d = (outsAt1 V c (n - 1) (Nat.lt_of_le_of_lt (Nat.sub_le _ _) hn)).1 := by
  intro n
  induction n using Nat.strong_induction_on with
  | _ n ih =>
    intro hn heq hlt d
    have hN : n < 64 := lt_of_lt_of_eq hn (show cfg1.N = 64 from N_1)
    have ht : n ≠ 0 := fun h => heq (by subst h; rfl)
    rw [(dat1 V c).before_of_pos 3 ⟨n, hn⟩ ht ((cfg1.win 3).fetch_out rfl ⟨n, hn⟩)]
    rw [noFlush1_3 ⟨n - 1, Nat.lt_of_le_of_lt (Nat.sub_le _ _) hn⟩ (by show ¬ (n - 1) % 4 = 3; omega), if_neg Bool.false_ne_true]
    unfold Dat.left
    by_cases hp : (n - 1) % 4 = (n - 1) / 4 % 4
    · rw [liveAt1_3 ⟨n - 1, Nat.lt_of_le_of_lt (Nat.sub_le _ _) hn⟩ hp]
      dsimp only
      unfold Dat.kept
      rw [Pipeline.fill_of_clip_none 3 _ (fun _ => rfl) d ((dat1 V c).after 3 ⟨n - 1, Nat.lt_of_le_of_lt (Nat.sub_le _ _) hn⟩), Window.fill_cut, after1_3]
    · rw [idleAt1_3 ⟨n - 1, Nat.lt_of_le_of_lt (Nat.sub_le _ _) hn⟩ hp]
      dsimp only
      rw [ih (n - 1) (by omega) (Nat.lt_of_le_of_lt (Nat.sub_le _ _) hn) hp (by omega) d]
      exact congrArg Prod.fst (outsAt1_E V c ⟨n - 1, Nat.lt_of_le_of_lt (Nat.sub_le _ _) hn⟩ hp (by show ¬ (n - 1) % 4 < (n - 1) / 4 % 4; omega)).symm

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- ki = 0 = qi, at the very first point: the scratch buffers come in at anything. -/
theorem sound_A0 (c : Dev nD) (t : Fin cfg1.N) (h0 : t.val % 4 = 0) (heq : t.val % 4 = t.val / 4 % 4) (hz : t.val = 0) : bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t heq], after1_3]
  rw [outsAt1_A V c t h0 heq]
  unfold stA runA; (try dsimp only)
  rw [PhiS1_castSucc V c t, PhiS1_zero V c _ _ hz, PhiA1_eq]
  iintro ⟨⟨⟨R1, R2, R3, R4, R5, R6, R7, R8, R9, HS0, HS1, HS2⟩, Hg⟩, Ho, ⟨%d0, H0⟩, ⟨%d1, H1⟩, ⟨%d2, H2⟩, ⟨%d3, H3⟩⟩
  iapply ((kernelRun1_A c (grid1.coords t) _ _ _ _ _ _ _ _ _ _ _ _ _ _ ((hcond1_0 t).mpr h0) (fun h => absurd ((hcond1_1 t).mp h) (by omega)) ((hcond1_2 t).mpr heq) ((hcond1_3 t).mpr heq) (iblk1 V c 0 t) (iblk1 V c 1 t) (iblk1 V c 2 t)).2.2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, ⟨%es0, HS0⟩, ⟨%es1, HS1⟩, ⟨%es2, HS2⟩⟩
  isplitl [R1 R2 R3 R4 R5 R6 R7 R8 R9 HS0 HS1 HS2 Hg]
  · isplitl [R1 R2 R3 R4 R5 R6 R7 R8 R9 HS0 HS1 HS2]
    · isplitl [R1 R2 R3 R4 R5 R6 R7 R8 R9]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        iexact R9
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ )
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ )
      unfold owns; iexists _; isplitr
      swap; · iexact HS2
      ipureintro; exact View.read_writes_of_cover _ _ _ _ _ (scover1_A_2 c _ _ _ _ _ _ _ _ _ _ _ _ _ _ _ _ _ _ _ _ _ _ )
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _ _ _ _ _ _ _ _ _ _ _ _ )

set_option maxHeartbeats 4000000 in
/-- ki = 0 = qi at a later batch element: the scratch buffers come in at what the point before left, which the reset overwrites. -/
theorem sound_A1 (c : Dev nD) (t : Fin cfg1.N) (h0 : t.val % 4 = 0) (heq : t.val % 4 = t.val / 4 % 4) (hz : t.val ≠ 0) : bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t heq], after1_3]
  rw [outsAt1_A V c t h0 heq]
  unfold stA runA; (try dsimp only)
  rw [PhiS1_castSucc V c t, PhiS1_pos V c _ _ hz]
  iintro ⟨⟨⟨HR, HS0, HS1, HS2⟩, Hg⟩, Ho, ⟨%d0, H0⟩, ⟨%d1, H1⟩, ⟨%d2, H2⟩, ⟨%d3, H3⟩⟩
  iapply ((kernelRun1_A c (grid1.coords t) _ _ _ _ _ _ _ _ _ _ _ _ _ _ ((hcond1_0 t).mpr h0) (fun h => absurd ((hcond1_1 t).mp h) (by omega)) ((hcond1_2 t).mpr heq) ((hcond1_3 t).mpr heq) (iblk1 V c 0 t) (iblk1 V c 1 t) (iblk1 V c 2 t)).2.2.2.2 Set.univ _)
  isplitl [H0]; · iexact H0
  isplitl [H1]; · iexact H1
  isplitl [H2]; · iexact H2
  isplitl [H3]; · iexists _; iexact H3
  isplitl [HS0]; · iexists _; iexact HS0
  isplitl [HS1]; · iexists _; iexact HS1
  isplitl [HS2]; · iexists _; iexact HS2
  iintro ⟨H0, H1, H2, ⟨%e3, H3⟩, ⟨%es0, HS0⟩, ⟨%es1, HS1⟩, ⟨%es2, HS2⟩⟩
  isplitl [HR HS0 HS1 HS2 Hg]
  · isplitl [HR HS0 HS1 HS2]
    · isplitl [HR]; · iexact HR
      isplitl [HS0]
      · unfold owns; iexists _; isplitr
        swap; · iexact HS0
        ipureintro; exact View.read_writes_of_cover _ _ _ _ _ (scover1_A_0 c _ _ _ _ _ _ _ _ _ _ _ _ _ _ _ _ _ _ _ _ _ _ )
      isplitl [HS1]
      · unfold owns; iexists _; isplitr
        swap; · iexact HS1
        ipureintro; exact View.read_writes_of_cover _ _ _ _ _ (scover1_A_1 c _ _ _ _ _ _ _ _ _ _ _ _ _ _ _ _ _ _ _ _ _ _ )
      unfold owns; iexists _; isplitr
      swap; · iexact HS2
      ipureintro; exact View.read_writes_of_cover _ _ _ _ _ (scover1_A_2 c _ _ _ _ _ _ _ _ _ _ _ _ _ _ _ _ _ _ _ _ _ _ )
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _ _ _ _ _ _ _ _ _ _ _ _ )

set_option maxHeartbeats 4000000 in
/-- 0 < ki = qi -/
theorem sound_D (c : Dev nD) (t : Fin cfg1.N) (h0 : ¬ t.val % 4 = 0) (heq : t.val % 4 = t.val / 4 % 4) : bodyPre1 V c t ⊢ wp frame (wpE (defs₀ (F := F)) Variants.none c none) Set.univ (bodyAt1 t) (fun _ => bodyPost1 V c t) := by
  have hz : t.val ≠ 0 := fun h => h0 (by rw [h])
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t heq], after1_3]
  rw [outsAt1_D V c t h0 heq]
  unfold stD runD; (try dsimp only)
  rw [PhiS1_castSucc V c t, PhiS1_pos V c _ _ hz]
  iintro ⟨⟨⟨HR, HS0, HS1, HS2⟩, Hg⟩, Ho, ⟨%d0, H0⟩, ⟨%d1, H1⟩, ⟨%d2, H2⟩, ⟨%d3, H3⟩⟩
  iapply ((kernelRun1_D c (grid1.coords t) _ _ _ _ _ _ _ _ _ _ _ _ _ _ (fun h => h0 ((hcond1_0 t).mp h)) (fun h => absurd ((hcond1_1 t).mp h) (by omega)) ((hcond1_2 t).mpr heq) ((hcond1_3 t).mpr heq) (iblk1 V c 0 t) (iblk1 V c 1 t) (iblk1 V c 2 t) _ _ _).2.2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, ⟨%es0, HS0⟩, ⟨%es1, HS1⟩, ⟨%es2, HS2⟩⟩
  isplitl [HR HS0 HS1 HS2 Hg]
  · isplitl [HR HS0 HS1 HS2]
    · isplitl [HR]; · iexact HR
      isplitl [HS0]
      · unfold owns; iexists _; isplitr
        swap; · iexact HS0
        ipureintro; exact View.read_writes_of_cover _ _ _ _ _ (scover1_D_0 c _ _ _ _ _ _ _ _ _ _ _ _ _ _ _ _ _ _ _ _ _ _ _ _ _ )
      isplitl [HS1]
      · unfold owns; iexists _; isplitr
        swap; · iexact HS1
        ipureintro; exact View.read_writes_of_cover _ _ _ _ _ (scover1_D_1 c _ _ _ _ _ _ _ _ _ _ _ _ _ _ _ _ _ _ _ _ _ _ _ _ _ )
      unfold owns; iexists _; isplitr
      swap; · iexact HS2
      ipureintro; exact View.read_writes_of_cover _ _ _ _ _ (scover1_D_2 c _ _ _ _ _ _ _ _ _ _ _ _ _ _ _ _ _ _ _ _ _ _ _ _ _ )
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_D_3 c _ _ _ _ _ _ _ _ _ _ _ _ _ _ _ _ _ _ _ _ _ _ _ _ _ )

set_option maxHeartbeats 4000000 in
/-- ki = 0 < qi -/
theorem sound_B (c : Dev nD) (t : Fin cfg1.N) (h0 : t.val % 4 = 0) (hlt : t.val % 4 < t.val / 4 % 4) : bodyPre1 V c t ⊢ wp frame (wpE (defs₀ (F := F)) Variants.none c none) Set.univ (bodyAt1 t) (fun _ => bodyPost1 V c t) := by
  have heq : ¬ t.val % 4 = t.val / 4 % 4 := by omega
  have hz : t.val ≠ 0 := fun h => by rw [h] at hlt; exact absurd hlt (by decide)
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3 t heq) (noFlush1_3 t (by omega))]
  rw [outsAt1_B V c t h0 hlt]
  unfold stB runB; (try dsimp only)
  rw [PhiS1_castSucc V c t, PhiS1_pos V c _ _ hz]
  iintro ⟨⟨⟨HR, HS0, HS1, HS2⟩, Hg⟩, Ho, ⟨%d0, H0⟩, ⟨%d1, H1⟩, ⟨%d2, H2⟩, ⟨%d3, H3⟩⟩
  iapply ((kernelRun1_B c (grid1.coords t) _ _ _ _ _ _ _ _ _ _ _ _ _ _ ((hcond1_0 t).mpr h0) ((hcond1_1 t).mpr hlt) (fun h => absurd ((hcond1_2 t).mp h) (by omega)) (fun h => absurd ((hcond1_3 t).mp h) (by omega)) (iblk1 V c 0 t) (iblk1 V c 1 t) (iblk1 V c 2 t)).2.2.2 _ Set.univ _)
  isplitl [H0]; · iexact H0
  isplitl [H1]; · iexact H1
  isplitl [H2]; · iexact H2
  isplitl [H3]; · iexact H3
  isplitl [HS0]; · iexists _; iexact HS0
  isplitl [HS1]; · iexists _; iexact HS1
  isplitl [HS2]; · iexists _; iexact HS2
  iintro ⟨H0, H1, H2, H3, ⟨%es0, HS0⟩, ⟨%es1, HS1⟩, ⟨%es2, HS2⟩⟩
  isplitl [HR HS0 HS1 HS2 Hg]
  · isplitl [HR HS0 HS1 HS2]
    · isplitl [HR]; · iexact HR
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ )
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ )
      unfold owns; iexists _; isplitr
      swap; · iexact HS2
      ipureintro; exact View.read_writes_of_cover _ _ _ _ _ (scover1_B_2 c _ _ _ _ _ _ _ _ _ _ _ _ _ _ _ _ _ _ _ _ _ _ )
    iexact Hg
  isplitl [Ho]; · iexact Ho
  isplitl [H0]; · iexact H0
  isplitl [H1]; · iexact H1
  isplitl [H2]; · iexact H2
  iexists _; iexact H3

set_option maxHeartbeats 4000000 in
/-- 0 < ki < qi -/
theorem sound_C (c : Dev nD) (t : Fin cfg1.N) (h0 : ¬ t.val % 4 = 0) (hlt : t.val % 4 < t.val / 4 % 4) : bodyPre1 V c t ⊢ wp frame (wpE (defs₀ (F := F)) Variants.none c none) Set.univ (bodyAt1 t) (fun _ => bodyPost1 V c t) := by
  have heq : ¬ t.val % 4 = t.val / 4 % 4 := by omega
  have hz : t.val ≠ 0 := fun h => by rw [h] at hlt; exact absurd hlt (by decide)
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3 t heq) (noFlush1_3 t (by omega))]
  rw [outsAt1_C V c t h0 hlt]
  unfold stC runC; (try dsimp only)
  rw [PhiS1_castSucc V c t, PhiS1_pos V c _ _ hz]
  iintro ⟨⟨⟨HR, HS0, HS1, HS2⟩, Hg⟩, Ho, ⟨%d0, H0⟩, ⟨%d1, H1⟩, ⟨%d2, H2⟩, ⟨%d3, H3⟩⟩
  iapply ((kernelRun1_C c (grid1.coords t) _ _ _ _ _ _ _ _ _ _ _ _ _ _ (fun h => h0 ((hcond1_0 t).mp h)) ((hcond1_1 t).mpr hlt) (fun h => absurd ((hcond1_2 t).mp h) (by omega)) (fun h => absurd ((hcond1_3 t).mp h) (by omega)) (iblk1 V c 0 t) (iblk1 V c 1 t) (iblk1 V c 2 t) _ _ _).2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, ⟨%es0, HS0⟩, ⟨%es1, HS1⟩, ⟨%es2, HS2⟩⟩
  isplitl [HR HS0 HS1 HS2 Hg]
  · isplitl [HR HS0 HS1 HS2]
    · isplitl [HR]; · iexact HR
      isplitl [HS0]
      · unfold owns; iexists _; isplitr
        swap; · iexact HS0
        ipureintro; exact View.read_writes_of_cover _ _ _ _ _ (scover1_C_0 c _ _ _ _ _ _ _ _ _ _ _ _ _ _ _ _ _ _ _ _ _ _ _ _ _ )
      isplitl [HS1]
      · unfold owns; iexists _; isplitr
        swap; · iexact HS1
        ipureintro; exact View.read_writes_of_cover _ _ _ _ _ (scover1_C_1 c _ _ _ _ _ _ _ _ _ _ _ _ _ _ _ _ _ _ _ _ _ _ _ _ _ )
      unfold owns; iexists _; isplitr
      swap; · iexact HS2
      ipureintro; exact View.read_writes_of_cover _ _ _ _ _ (scover1_C_2 c _ _ _ _ _ _ _ _ _ _ _ _ _ _ _ _ _ _ _ _ _ _ _ _ _ )
    iexact Hg
  isplitl [Ho]; · iexact Ho
  isplitl [H0]; · iexact H0
  isplitl [H1]; · iexact H1
  isplitl [H2]; · iexact H2
  iexists _; iexact H3

set_option maxHeartbeats 4000000 in
/-- ki > qi at the last key block: the buffer, untouched, is what the write-back writes. -/
theorem sound_E3 (c : Dev nD) (t : Fin cfg1.N) (heq : ¬ t.val % 4 = t.val / 4 % 4) (hlt : ¬ t.val % 4 < t.val / 4 % 4) (h3 : t.val % 4 = 3) : bodyPre1 V c t ⊢ wp frame (wpE (defs₀ (F := F)) Variants.none c none) Set.univ (bodyAt1 t) (fun _ => bodyPost1 V c t) := by
  have hz : t.val ≠ 0 := fun h => heq (by rw [h])
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [idleAt1_3 t heq, (flushAt1_3 t).mpr h3], after1_3, outsAt1_E V c t heq hlt]
  rw [PhiS1_castSucc V c t, PhiS1_pos V c _ _ hz]
  iintro ⟨⟨⟨HR, HS0, HS1, HS2⟩, Hg⟩, Ho, ⟨%d0, H0⟩, ⟨%d1, H1⟩, ⟨%d2, H2⟩, ⟨%d3, H3⟩⟩
  rw [before1_3_E V c t.val t.isLt heq hlt d3]
  iapply (kernelRun1_E c (grid1.coords t) _ _ _ _ _ _ _ _ _ _ _ _ _ _ (fun h => absurd ((hcond1_0 t).mp h) (by omega)) (fun h => hlt ((hcond1_1 t).mp h)) (fun h => heq ((hcond1_2 t).mp h)) (fun h => heq ((hcond1_3 t).mp h)) (iblk1 V c 0 t) (iblk1 V c 1 t) (iblk1 V c 2 t) _ _ _ _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HR HS0 HS1 HS2 Hg]
  · isplitl [HR HS0 HS1 HS2]
    · isplitl [HR]; · iexact HR
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iexact H3

set_option maxHeartbeats 4000000 in
/-- ki > qi before the last key block: the buffer is handed back as found. -/
theorem sound_E (c : Dev nD) (t : Fin cfg1.N) (heq : ¬ t.val % 4 = t.val / 4 % 4) (hlt : ¬ t.val % 4 < t.val / 4 % 4) (h3 : ¬ t.val % 4 = 3) : bodyPre1 V c t ⊢ wp frame (wpE (defs₀ (F := F)) Variants.none c none) Set.univ (bodyAt1 t) (fun _ => bodyPost1 V c t) := by
  have hz : t.val ≠ 0 := fun h => heq (by rw [h])
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3 t heq) (noFlush1_3 t h3)]
  rw [outsAt1_E V c t heq hlt]
  rw [PhiS1_castSucc V c t, PhiS1_pos V c _ _ hz]
  iintro ⟨⟨⟨HR, HS0, HS1, HS2⟩, Hg⟩, Ho, ⟨%d0, H0⟩, ⟨%d1, H1⟩, ⟨%d2, H2⟩, ⟨%d3, H3⟩⟩
  iapply (kernelRun1_E c (grid1.coords t) _ _ _ _ _ _ _ _ _ _ _ _ _ _ (fun h => absurd ((hcond1_0 t).mp h) (by omega)) (fun h => hlt ((hcond1_1 t).mp h)) (fun h => heq ((hcond1_2 t).mp h)) (fun h => heq ((hcond1_3 t).mp h)) (iblk1 V c 0 t) (iblk1 V c 1 t) (iblk1 V c 2 t) _ _ _ _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HR HS0 HS1 HS2 Hg]
  · isplitl [HR HS0 HS1 HS2]
    · isplitl [HR]; · iexact HR
      isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iexists _; iexact H3

/-- The body at any point: the closed forms of the conditions pick the case. -/
theorem sound_body1 (c : Dev nD) (t : Fin cfg1.N) : bodyPre1 V c t ⊢ wp frame (wpE (defs₀ (F := F)) Variants.none c none) Set.univ (bodyAt1 t) (fun _ => bodyPost1 V c t) := by
  by_cases heq : t.val % 4 = t.val / 4 % 4
  · by_cases h0 : t.val % 4 = 0
    · by_cases hz : t.val = 0
      · exact sound_A0 V c t h0 heq hz
      · exact sound_A1 V c t h0 heq hz
    · exact sound_D V c t h0 heq
  · by_cases hlt : t.val % 4 < t.val / 4 % 4
    · by_cases h0 : t.val % 4 = 0
      · exact sound_B V c t h0 hlt
      · exact sound_C V c t h0 hlt
    · by_cases h3 : t.val % 4 = 3
      · exact sound_E3 V c t heq hlt h3
      · exact sound_E V c t heq hlt h3

theorem body_obligation1 (c : Dev nD) : BodyObligation (dat1 (F := F) V c) (defs₀ (F := F)) Variants.none () Set.univ := fun t => by
  rw [bigSep_W1, bigSep_W1]
  exact sound_body1 V c t

/-! ## In and out of the invariant -/

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the scratch buffers' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨⟨R1, R2, R3, R4, R5, R6, R7, R8, R9⟩, HS0, HS1, HS2⟩, Hg⟩
  isplitl [R1 R2 R3 R4 R5 R6 R7 R8 R9 HS0 HS1 HS2]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [HS0]; · iexists _; iexact HS0
    isplitl [HS1]; · iexists _; iexact HS1
    iexists _; iexact HS2
  iexact Hg

end Cert.KernelIdeal.Hand

end
-- ==== Proof.KI.Frame.lean ====
/-
  The whole run of @main: a stretch of host operations (the three weight matrices joined side by side and rounded,
  the activations flattened), the projection region, a stretch of host reshapes, the attention region. Between two
  items every buffer of the program is held whole at named contents — the launch memory, then each host stretch
  applied, then each region's arrays at what its write-backs leave — and the argument arrays are never written: no
  host operation's result is an argument, and no window of either region stages one. So every weakly fair execution
  terminates with the arguments as launched, and with the result buffer at what the attention region's write-backs
  leave of its output window.
-/
import proofs.«147976_j43456479101605_2_alg».proof.Proof.Gen.KernelIdeal.Launch
import proofs.«147976_j43456479101605_2_alg».proof.Proof.Gen.KernelIdeal.Skeleton
import proofs.«147976_j43456479101605_2_alg».proof.Proof.Gen.KernelIdeal.Points
import proofs.«147976_j43456479101605_2_alg».proof.Proof.Gen.KernelIdeal.Regions
import proofs.«147976_j43456479101605_2_alg».proof.Proof.KI.Proj
import proofs.«147976_j43456479101605_2_alg».proof.Proof.KI.AttnBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After the projection region: its arrays at what its write-backs leave, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- After the attention region: its arrays at what its write-backs leave, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-! ## The proof data family and the thread state -/

def pdats : (p : Fin 2) → (c : Dev nD) → Dat τ (Elt F) Unit ℕ (UR sig nD τ) ℕ (Pipeline.pin (pcfgs (F := F)) Gen.adm p) c
  | ⟨0, _⟩ => fun c => dat0 (U1 m ρ) c
  | ⟨1, _⟩ => fun c => dat1 (U3 m ρ) c
abbrev 𝒱z : Variants := Variants.none
abbrev Lz : GSem nD τ sig → Finset Unit := fun _ => ∅
abbrev lvz : GSem nD τ sig → Unit → ℕ := fun _ _ => 0
/-- What rides beside the buffers through every item: the generator register at some state, and nothing owed. -/
abbrev Rc (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱z Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rc
theorem mem_uc' (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as items -/

set_option backward.isDefEq.respectTransparency.types false in
def reg0 : Pipeline.RegionSeg (pcfgs (F := F)) Gen.adm (pdats m ρ) () defs₀ 𝒱z Lz lvz 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ Lz lvz 0 fun _ _ => rfl
  pre c := iprop(StableHlo.held (c : Thread nD τ) (Pipeline.ucRefs τ sig) (W1 m ρ c) ∗ Rc c)
  post c := iprop(StableHlo.held (c : Thread nD τ) (Pipeline.ucRefs τ sig) (W2 m ρ c) ∗ Rc c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) Gen.adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) Gen.adm (pdats m ρ) () defs₀ 𝒱z Lz lvz 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ Lz lvz 1 fun _ _ => rfl
  pre c := iprop(StableHlo.held (c : Thread nD τ) (Pipeline.ucRefs τ sig) (W3 m ρ c) ∗ Rc c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) Gen.adm (pdats m ρ) launch1.win launch1.arr_whole c
      ((pdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [show (pdats m ρ 1 c).Φ (Fin.last _) = (dat1 (U3 m ρ) c).Φ (Fin.last cfg1.N) from rfl]
    refine (hout1 (U3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m ρ) ((pdats m ρ 1 c).share_full fun _ => rfl)
      (U3 m ρ c) (U4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as items, and the launch -/

abbrev mainSegs : List (Pipeline.Seg (pcfgs (F := F)) Gen.adm (pdats m ρ) () defs₀ 𝒱z Lz lvz) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (mainSegs m ρ) := (main_chain c).trans (by chain_rfl)

set_option backward.isDefEq.respectTransparency.types false in
/-- Every weakly fair execution of @main terminates, nothing faulting, with every unscoped buffer at the last
    boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) Gen.adm (pdats m ρ) () cellOf_inj emb₁ defs₀ 𝒱z Lz lvz m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rc c)) (Tₙ := Tₙ m ρ)
    (hch := ⟨fun _ => .rfl, fun _ => .rfl, fun _ => .rfl, fun _ => .rfl, fun _ => .rfl⟩)
    (hinit := by
      refine Pipeline.initEach Lz lvz fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc' main_arg0 (by decide))).trans (W4_main_arg0 m ρ c),
     (h c _ (mem_uc' main_arg1 (by decide))).trans (W4_main_arg1 m ρ c),
     (h c _ (mem_uc' main_arg2 (by decide))).trans (W4_main_arg2 m ρ c),
     (h c _ (mem_uc' main_arg3 (by decide))).trans (W4_main_arg3 m ρ c)⟩) (run_main m ρ)

/-- The result buffer ends at what the attention region's write-backs leave of its output window's array. -/
theorem result_main_v7 (r : PUnit × MemSt nD τ sig (Elt F)) (h : ∀ c : Dev nD, ∀ b ∈ Pipeline.ucRefs τ sig, r.2.mem (((c : Thread nD τ)).1, b) = W4 m ρ c b) (c : Dev nD) :
    r.2.mem ((c.tc : Thread nD τ).loc main_v7) = (dat1 (U3 m ρ) c).arrAt 3 cfg1.N :=
  (h c _ (mem_uc' main_v7 (by decide))).trans (W4_arr m ρ c 3)

end Cert.KernelIdeal.Hand

end
-- ==== Proof.KI.ProjValue.lean ====
/- The VALUE of REGION 0 of @main at the ideal carrier (the extended reals): each of the three projection arrays
   the region writes, read at a row r and a column h, is the inner product of row r of the activation array with one
   column of the concatenated weight -- column h for the first array, 128 + h for the second, 256 + h for the third.
   The body's matrix product into a zero accumulator is the plain sum over the contraction axis; the format changes and
   the shape casts to the same shape are the identity on extended reals; a column slice reads the product at the shifted
   column. Point t of the 16-point grid writes rows 1024 t .. 1024 t + 1023 of each output, so the point that covers
   row r is r / 1024, and the sixteen blocks cover the arrays. -/
import proofs.«147976_j43456479101605_2_alg».proof.Proof.KI.Proj
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-- A buffer's contents over a literal shape, read as a function into the extended reals (the identity: it only fixes
    the type the arithmetic is read at). -/
abbrev efn (S : Shape) (A : S.Idx → EReal) : S.Idx → EReal := A

/-! ## The body's payloads at an index -/

/-- The zero offsets of a whole-block access. -/
theorem hz0 : (![0, 0] : Fin 2 → Nat) = fun _ => 0 := funext fun a => by fin_cases a <;> rfl

/-- The dimension numbers of the body's one product: rows by the contraction axis, times the contraction axis by columns. -/
abbrev projDot := dot_S1024x2048_S2048x384_S1024x384_1_0_0_1_n_n

/-- At output index (p, q) and contraction position k the left operand is read at (p, k) ... -/
theorem projDot_lhs (p : Fin 1024) (q : Fin 384) (k : Fin 2048) :
    projDot.lhsIdx (ix2 p q) ((contrEquiv1 projDot 2048 rfl rfl).symm k) = ix2 p k := by
  funext a
  apply Fin.ext
  match a with
  | ⟨0, _⟩ => rfl
  | ⟨1, _⟩ => exact (projDot.lhsIdx_val_of_single (cl := 1) rfl (ix2 p q) _).trans (contrEquiv1_symm_val projDot 2048 rfl rfl k)

/-- ... and the right operand at (k, q). -/
theorem projDot_rhs (p : Fin 1024) (q : Fin 384) (k : Fin 2048) :
    projDot.rhsIdx (ix2 p q) ((contrEquiv1 projDot 2048 rfl rfl).symm k) = ix2 k q := by
  funext a
  apply Fin.ext
  match a with
  | ⟨0, _⟩ => exact (projDot.rhsIdx_val_of_single (cr := 0) rfl (ix2 p q) _).trans (contrEquiv1_symm_val projDot 2048 rfl rfl k)
  | ⟨1, _⟩ => rfl

/-- The product of the activation block with the whole weight, at (p, q): the sum over the contraction axis. -/
theorem pay1_apply (x0 : Vec Ideal S1024x2048 .f32) (x1 : Vec Ideal S2048x384 .bf16) (p : Fin 1024) (q : Fin 384) :
    k0_pay1 x0 x1 (ix2 p q) = ∑ k : Fin 2048, x0 (ix2 p k) * x1 (ix2 k q) := by
  unfold k0_pay1
  refine (Ideal.matmul_constant_zero_apply projDot none _ _ (ix2 p q)).trans ?_
  rw [← Equiv.sum_comp (contrEquiv1 projDot 2048 rfl rfl).symm]
  refine Finset.sum_congr rfl fun k _ => ?_
  rw [projDot_lhs, projDot_rhs, shapeCast_self, shapeCast_self]
  rfl

/-- The weight's column that column h of each output reads: h itself, 128 + h, 256 + h. -/
def col2 (h : Fin 128) : Fin 384 := ⟨h.val, by omega⟩
def col3 (h : Fin 128) : Fin 384 := ⟨128 + h.val, by omega⟩
def col4 (h : Fin 128) : Fin 384 := ⟨256 + h.val, by omega⟩

/-- The first output's payload: columns 0 .. 127 of the product. -/
theorem pay2_apply (x0 : Vec Ideal S1024x2048 .f32) (x1 : Vec Ideal S2048x384 .bf16) (p : Fin 1024) (q : Fin 128) :
    k0_pay2 x0 x1 (ix2 p q) = ∑ k : Fin 2048, x0 (ix2 p k) * x1 (ix2 k (col2 q)) := by
  unfold k0_pay2
  show extractStridedSlice S1024x128 ![0, 0] (k0_pay1 x0 x1) slices_S1024x384_o0_0_S1024x128 (ix2 p q) = _
  refine (slice2_axis1_apply 0 (k0_pay1 x0 x1) slices_S1024x384_o0_0_S1024x128 p q (col2 q) (Nat.zero_add _).symm).trans ?_
  exact pay1_apply x0 x1 p (col2 q)

/-- The second output's payload: columns 128 .. 255. -/
theorem pay3_apply (x0 : Vec Ideal S1024x2048 .f32) (x1 : Vec Ideal S2048x384 .bf16) (p : Fin 1024) (q : Fin 128) :
    k0_pay3 x0 x1 (ix2 p q) = ∑ k : Fin 2048, x0 (ix2 p k) * x1 (ix2 k (col3 q)) := by
  unfold k0_pay3
  show extractStridedSlice S1024x128 ![0, 128] (k0_pay1 x0 x1) slices_S1024x384_o0_128_S1024x128 (ix2 p q) = _
  refine (slice2_axis1_apply 128 (k0_pay1 x0 x1) slices_S1024x384_o0_128_S1024x128 p q (col3 q) rfl).trans ?_
  exact pay1_apply x0 x1 p (col3 q)

/-- The third output's payload: columns 256 .. 383. -/
theorem pay4_apply (x0 : Vec Ideal S1024x2048 .f32) (x1 : Vec Ideal S2048x384 .bf16) (p : Fin 1024) (q : Fin 128) :
    k0_pay4 x0 x1 (ix2 p q) = ∑ k : Fin 2048, x0 (ix2 p k) * x1 (ix2 k (col4 q)) := by
  unfold k0_pay4
  show extractStridedSlice S1024x128 ![0, 256] (k0_pay1 x0 x1) slices_S1024x384_o0_256_S1024x128 (ix2 p q) = _
  refine (slice2_axis1_apply 256 (k0_pay1 x0 x1) slices_S1024x384_o0_256_S1024x128 p q (col4 q) rfl).trans ?_
  exact pay1_apply x0 x1 p (col4 q)

/-! ## The blocks -/

variable (V : (c : Dev nD) → (b : Ref sig .tc) → Buf (Elt Ideal) ((c : Thread nD τ).loc b))

/-- The block index maps over the 16 grid points: the activation and the three outputs move down the rows with the
    point; the weight's one block stays. -/
theorem proj_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The activation block at point t is rows 1024 t .. 1024 t + 1023 of the activation array. -/
theorem iblk0_0_apply (c : Dev nD) (t : Fin cfg0.N) (x : S1024x2048.Idx) (i : S16384x2048.Idx)
    (h0 : (i 0).val = t.val * 1024 + (x 0).val) (h1 : (i 1).val = (x 1).val) :
    (iblk0 V c 0 t : Vec Ideal S1024x2048 .f32) x = efn S16384x2048 (V c main_v2) i := by
  obtain ⟨e0, e1, -⟩ := proj_idx_facts t
  unfold iblk0
  rw [View.read_apply]
  show efn S16384x2048 (V c main_v2) _ = efn S16384x2048 (V c main_v2) _
  refine congrArg _ ?_
  funext a
  apply Fin.ext
  match a with
  | ⟨0, _⟩ => show win0_0.index t (0 : Fin 2) * 1024 + 1 * (x 0).val = (i 0).val; rw [e0, h0]; omega
  | ⟨1, _⟩ => show win0_0.index t (1 : Fin 2) * 2048 + 1 * (x 1).val = (i 1).val; rw [e1, h1]; omega

/-- The weight block at every point is the whole weight array. -/
theorem iblk0_1_apply (c : Dev nD) (t : Fin cfg0.N) (x : S2048x384.Idx) :
    (iblk0 V c 1 t : Vec Ideal S2048x384 .bf16) x = efn S2048x384 (V c main_v1) x := by
  obtain ⟨-, -, e2, e3, -⟩ := proj_idx_facts t
  unfold iblk0
  rw [View.read_apply]
  show efn S2048x384 (V c main_v1) _ = efn S2048x384 (V c main_v1) _
  refine congrArg _ ?_
  funext a
  apply Fin.ext
  match a with
  | ⟨0, _⟩ => show win0_1.index t (0 : Fin 2) * 2048 + 1 * (x 0).val = (x 0).val; rw [e2]; omega
  | ⟨1, _⟩ => show win0_1.index t (1 : Fin 2) * 384 + 1 * (x 1).val = (x 1).val; rw [e3]; omega

/-- One projection array as ONE function of the region-entry contents: at (r, h) the inner product of row r of the
    activation with the weight's column `col h`. -/
def projG (col : Fin 128 → Fin 384) (c : Dev nD) : S16384x128.Idx → EReal := fun i =>
  ∑ k : Fin 2048, efn S16384x2048 (V c main_v2) (ix2 ⟨(i 0).val, idx2_lt0 i⟩ k)
    * efn S2048x384 (V c main_v1) (ix2 k (col ⟨(i 1).val, idx2_lt1 i⟩))

/-! ## Output window 2 -/

/-- What point t writes back to window 2's array is block t of `projG` at that window's columns. -/
theorem flushed2_eq (c : Dev nD) (t : Fin cfg0.N) :
    (dat0 (F := Ideal) V c).flushed 2 t = ((cfg0.win 2).blk t).view.read (Elt Ideal) (projG V col2 c) := by
  show (cfg0.win 2).cut (grid0.coords t) ((dat0 (F := Ideal) V c).after 2 t) = _
  rw [after0_2]
  unfold out0_2
  rw [View.canon_unit_zero hz0]
  simp only [View.ld_unit_zero (S := S1024x2048) hz0, View.ld_unit_zero (S := S2048x384) hz0]
  obtain ⟨-, -, -, -, f20, f21, f30, f31, f40, f41⟩ := proj_idx_facts t
  funext j
  obtain ⟨p, q, rfl⟩ : ∃ (p : Fin 1024) (q : Fin 128), j = ix2 p q := ⟨j 0, j 1, eq_ix2 j⟩
  show k0_pay2 (iblk0 V c 0 t) (iblk0 V c 1 t) (ix2 p q) = projG V col2 c (((cfg0.win 2).blk t).view.emb (ix2 p q))
  refine (pay2_apply (iblk0 V c 0 t) (iblk0 V c 1 t) p q).trans ?_
  unfold projG
  refine Finset.sum_congr rfl fun k _ => ?_
  refine congrArg₂ (· * ·) (iblk0_0_apply V c t (ix2 p k) _ ?_ rfl) ((iblk0_1_apply V c t (ix2 k (col2 q))).trans ?_)
  · show win0_2.index t (0 : Fin 2) * 1024 + 1 * p.val = t.val * 1024 + p.val
    rw [f20]; omega
  · refine congrArg _ (congrArg (ix2 k) (congrArg col2 (Fin.ext ?_)))
    show q.val = win0_2.index t (1 : Fin 2) * 128 + 1 * q.val
    rw [f21]; omega

/-- An index of the array is in point t's block iff each coordinate is in the block's range on its axis. -/
theorem mem_blk2 (t : Fin cfg0.N) (i : S16384x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v3_0).slice (win0_2.rect t)).set ↔ _
  rw [View.set_slice_whole, Rect.mem_set_unit]
  exact Iff.rfl

/-- Every index of the array is in the block of the point its row falls in: row r belongs to point r / 1024. -/
theorem cover2 (i : S16384x128.Idx) : ∃ t : Fin cfg0.N, (cfg0.win 2).flush t = true ∧ i ∈ ((cfg0.win 2).blk t).view.set := by
  have hN : cfg0.N = 16 := N_0
  have hi0 : (i 0).val < 16384 := idx2_lt0 i
  have hi1 : (i 1).val < 128 := idx2_lt1 i
  refine ⟨⟨(i 0).val / 1024, by rw [hN]; omega⟩, flush0_2 _, ?_⟩
  rw [mem_blk2]
  obtain ⟨-, -, -, -, f20, f21, f30, f31, f40, f41⟩ := proj_idx_facts ⟨(i 0).val / 1024, by rw [hN]; omega⟩
  intro a
  match a with
  | ⟨0, _⟩ =>
    show win0_2.index _ (0 : Fin 2) * 1024 ≤ (i 0).val ∧ (i 0).val < win0_2.index _ (0 : Fin 2) * 1024 + 1024
    rw [f20]; show (i 0).val / 1024 * 1024 ≤ (i 0).val ∧ (i 0).val < (i 0).val / 1024 * 1024 + 1024; omega
  | ⟨1, _⟩ =>
    show win0_2.index _ (1 : Fin 2) * 128 ≤ (i 1).val ∧ (i 1).val < win0_2.index _ (1 : Fin 2) * 128 + 128
    rw [f21]; omega

/-- The array after the region is `projG` at that window's columns. -/
theorem final2 (c : Dev nD) : (dat0 (F := Ideal) V c).arrAt 2 cfg0.N = projG V col2 c :=
  (dat0 (F := Ideal) V c).arrAt_eq_of_cover 2 (projG V col2 c) (fun t _ => flushed2_eq V c t) (cover2)

/-! ## Output window 3 -/

/-- What point t writes back to window 3's array is block t of `projG` at that window's columns. -/
theorem flushed3_eq (c : Dev nD) (t : Fin cfg0.N) :
    (dat0 (F := Ideal) V c).flushed 3 t = ((cfg0.win 3).blk t).view.read (Elt Ideal) (projG V col3 c) := by
  show (cfg0.win 3).cut (grid0.coords t) ((dat0 (F := Ideal) V c).after 3 t) = _
  rw [after0_3]
  unfold out0_3
  rw [View.canon_unit_zero hz0]
  simp only [View.ld_unit_zero (S := S1024x2048) hz0, View.ld_unit_zero (S := S2048x384) hz0]
  obtain ⟨-, -, -, -, f20, f21, f30, f31, f40, f41⟩ := proj_idx_facts t
  funext j
  obtain ⟨p, q, rfl⟩ : ∃ (p : Fin 1024) (q : Fin 128), j = ix2 p q := ⟨j 0, j 1, eq_ix2 j⟩
  show k0_pay3 (iblk0 V c 0 t) (iblk0 V c 1 t) (ix2 p q) = projG V col3 c (((cfg0.win 3).blk t).view.emb (ix2 p q))
  refine (pay3_apply (iblk0 V c 0 t) (iblk0 V c 1 t) p q).trans ?_
  unfold projG
  refine Finset.sum_congr rfl fun k _ => ?_
  refine congrArg₂ (· * ·) (iblk0_0_apply V c t (ix2 p k) _ ?_ rfl) ((iblk0_1_apply V c t (ix2 k (col3 q))).trans ?_)
  · show win0_3.index t (0 : Fin 2) * 1024 + 1 * p.val = t.val * 1024 + p.val
    rw [f30]; omega
  · refine congrArg _ (congrArg (ix2 k) (congrArg col3 (Fin.ext ?_)))
    show q.val = win0_3.index t (1 : Fin 2) * 128 + 1 * q.val
    rw [f31]; omega

/-- An index of the array is in point t's block iff each coordinate is in the block's range on its axis. -/
theorem mem_blk3 (t : Fin cfg0.N) (i : S16384x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v3_1).slice (win0_3.rect t)).set ↔ _
  rw [View.set_slice_whole, Rect.mem_set_unit]
  exact Iff.rfl

/-- Every index of the array is in the block of the point its row falls in: row r belongs to point r / 1024. -/
theorem cover3 (i : S16384x128.Idx) : ∃ t : Fin cfg0.N, (cfg0.win 3).flush t = true ∧ i ∈ ((cfg0.win 3).blk t).view.set := by
  have hN : cfg0.N = 16 := N_0
  have hi0 : (i 0).val < 16384 := idx2_lt0 i
  have hi1 : (i 1).val < 128 := idx2_lt1 i
  refine ⟨⟨(i 0).val / 1024, by rw [hN]; omega⟩, flush0_3 _, ?_⟩
  rw [mem_blk3]
  obtain ⟨-, -, -, -, f20, f21, f30, f31, f40, f41⟩ := proj_idx_facts ⟨(i 0).val / 1024, by rw [hN]; omega⟩
  intro a
  match a with
  | ⟨0, _⟩ =>
    show win0_3.index _ (0 : Fin 2) * 1024 ≤ (i 0).val ∧ (i 0).val < win0_3.index _ (0 : Fin 2) * 1024 + 1024
    rw [f30]; show (i 0).val / 1024 * 1024 ≤ (i 0).val ∧ (i 0).val < (i 0).val / 1024 * 1024 + 1024; omega
  | ⟨1, _⟩ =>
    show win0_3.index _ (1 : Fin 2) * 128 ≤ (i 1).val ∧ (i 1).val < win0_3.index _ (1 : Fin 2) * 128 + 128
    rw [f31]; omega

/-- The array after the region is `projG` at that window's columns. -/
theorem final3 (c : Dev nD) : (dat0 (F := Ideal) V c).arrAt 3 cfg0.N = projG V col3 c :=
  (dat0 (F := Ideal) V c).arrAt_eq_of_cover 3 (projG V col3 c) (fun t _ => flushed3_eq V c t) (cover3)

/-! ## Output window 4 -/

/-- What point t writes back to window 4's array is block t of `projG` at that window's columns. -/
theorem flushed4_eq (c : Dev nD) (t : Fin cfg0.N) :
    (dat0 (F := Ideal) V c).flushed 4 t = ((cfg0.win 4).blk t).view.read (Elt Ideal) (projG V col4 c) := by
  show (cfg0.win 4).cut (grid0.coords t) ((dat0 (F := Ideal) V c).after 4 t) = _
  rw [after0_4]
  unfold out0_4
  rw [View.canon_unit_zero hz0]
  simp only [View.ld_unit_zero (S := S1024x2048) hz0, View.ld_unit_zero (S := S2048x384) hz0]
  obtain ⟨-, -, -, -, f20, f21, f30, f31, f40, f41⟩ := proj_idx_facts t
  funext j
  obtain ⟨p, q, rfl⟩ : ∃ (p : Fin 1024) (q : Fin 128), j = ix2 p q := ⟨j 0, j 1, eq_ix2 j⟩
  show k0_pay4 (iblk0 V c 0 t) (iblk0 V c 1 t) (ix2 p q) = projG V col4 c (((cfg0.win 4).blk t).view.emb (ix2 p q))
  refine (pay4_apply (iblk0 V c 0 t) (iblk0 V c 1 t) p q).trans ?_
  unfold projG
  refine Finset.sum_congr rfl fun k _ => ?_
  refine congrArg₂ (· * ·) (iblk0_0_apply V c t (ix2 p k) _ ?_ rfl) ((iblk0_1_apply V c t (ix2 k (col4 q))).trans ?_)
  · show win0_4.index t (0 : Fin 2) * 1024 + 1 * p.val = t.val * 1024 + p.val
    rw [f40]; omega
  · refine congrArg _ (congrArg (ix2 k) (congrArg col4 (Fin.ext ?_)))
    show q.val = win0_4.index t (1 : Fin 2) * 128 + 1 * q.val
    rw [f41]; omega

/-- An index of the array is in point t's block iff each coordinate is in the block's range on its axis. -/
theorem mem_blk4 (t : Fin cfg0.N) (i : S16384x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v3_2).slice (win0_4.rect t)).set ↔ _
  rw [View.set_slice_whole, Rect.mem_set_unit]
  exact Iff.rfl

/-- Every index of the array is in the block of the point its row falls in: row r belongs to point r / 1024. -/
theorem cover4 (i : S16384x128.Idx) : ∃ t : Fin cfg0.N, (cfg0.win 4).flush t = true ∧ i ∈ ((cfg0.win 4).blk t).view.set := by
  have hN : cfg0.N = 16 := N_0
  have hi0 : (i 0).val < 16384 := idx2_lt0 i
  have hi1 : (i 1).val < 128 := idx2_lt1 i
  refine ⟨⟨(i 0).val / 1024, by rw [hN]; omega⟩, flush0_4 _, ?_⟩
  rw [mem_blk4]
  obtain ⟨-, -, -, -, f20, f21, f30, f31, f40, f41⟩ := proj_idx_facts ⟨(i 0).val / 1024, by rw [hN]; omega⟩
  intro a
  match a with
  | ⟨0, _⟩ =>
    show win0_4.index _ (0 : Fin 2) * 1024 ≤ (i 0).val ∧ (i 0).val < win0_4.index _ (0 : Fin 2) * 1024 + 1024
    rw [f40]; show (i 0).val / 1024 * 1024 ≤ (i 0).val ∧ (i 0).val < (i 0).val / 1024 * 1024 + 1024; omega
  | ⟨1, _⟩ =>
    show win0_4.index _ (1 : Fin 2) * 128 ≤ (i 1).val ∧ (i 1).val < win0_4.index _ (1 : Fin 2) * 128 + 128
    rw [f41]; omega

/-- The array after the region is `projG` at that window's columns. -/
theorem final4 (c : Dev nD) : (dat0 (F := Ideal) V c).arrAt 4 cfg0.N = projG V col4 c :=
  (dat0 (F := Ideal) V c).arrAt_eq_of_cover 4 (projG V col4 c) (fun t _ => flushed4_eq V c t) (cover4)

/-! ## The three arrays, entry by entry -/

/-- The first projection array at (r, h): row r of the activation against column h of the weight. -/
theorem arr0_2 (c : Dev nD) (r : Fin 16384) (h : Fin 128) :
    efn S16384x128 ((dat0 (F := Ideal) V c).arrAt 2 cfg0.N) (ix2 r h)
      = ∑ k : Fin 2048, efn S16384x2048 (V c main_v2) (ix2 r k) * efn S2048x384 (V c main_v1) (ix2 k ⟨h.val, by omega⟩) := by
  rw [final2]; rfl

/-- The second at (r, h): against column 128 + h. -/
theorem arr0_3 (c : Dev nD) (r : Fin 16384) (h : Fin 128) :
    efn S16384x128 ((dat0 (F := Ideal) V c).arrAt 3 cfg0.N) (ix2 r h)
      = ∑ k : Fin 2048, efn S16384x2048 (V c main_v2) (ix2 r k) * efn S2048x384 (V c main_v1) (ix2 k ⟨128 + h.val, by omega⟩) := by
  rw [final3]; rfl

/-- The third at (r, h): against column 256 + h. -/
theorem arr0_4 (c : Dev nD) (r : Fin 16384) (h : Fin 128) :
    efn S16384x128 ((dat0 (F := Ideal) V c).arrAt 4 cfg0.N) (ix2 r h)
      = ∑ k : Fin 2048, efn S16384x2048 (V c main_v2) (ix2 r k) * efn S2048x384 (V c main_v1) (ix2 k ⟨256 + h.val, by omega⟩) := by
  rw [final4]; rfl

end Cert.KernelIdeal.Hand

end
-- ==== Proof.LibFmax.lean ====
/-
  The maximum of a finite family of extended reals, taken from -∞ (the fold of max over the family).
-/
import Mathlib.Data.EReal.Basic
import Mathlib.Data.Fintype.Basic
import Mathlib.Data.Fintype.BigOperators

namespace Cert.Attn

/-- The maximum of a finite family of extended reals, from -∞. -/
noncomputable def fmax {n : ℕ} (f : Fin n → EReal) : EReal := (Finset.univ : Finset (Fin n)).fold max ⊥ f

end Cert.Attn
-- ==== Proof.Spec.lean ====
/-
  The specification: causal single-head attention as one function of the four argument arrays.

  x : [4, 4096, 2048] are the token rows of four sequences, wq, wk, wv : [2048, 128] the three projections.
  Row t of sequence b is projected to a query, a key and a value of 128 entries (a sum over the 2048 input
  columns). The score of query row t against key row s is their inner product times the scale, for s ≤ t, and
  -∞ for s > t (the causal mask). The result at (b, t, h) is the softmax of row t's scores — taken with the
  row's maximum subtracted, the maximum from -∞ — against column h of the values.
-/
import Idealize.ShloMosaic.PureOps.Ideal
import Idealize.ShloMosaic.Lib.ValueIdx
import proofs.«147976_j43456479101605_2_alg».proof.Proof.LibFmax

noncomputable section

namespace Cert.Spec

open Idealize.ShloMosaic Idealize.ShloMosaic.ValueIdx Cert.Attn
open scoped BigOperators

/-- the index sets of the token array and of a projection matrix -/
abbrev XIdx : Type := (⟨3, ![4, 4096, 2048]⟩ : Shape).Idx
abbrev WIdx : Type := (⟨2, ![2048, 128]⟩ : Shape).Idx

/-- entry h of row t of sequence b, projected by w: the sum over the input columns -/
def proj (x : XIdx → EReal) (w : WIdx → EReal) (b : Fin 4) (t : Fin 4096) (h : Fin 128) : EReal :=
  ∑ c : Fin 2048, x (ix3 b t c) * w (ix2 c h)

/-- the score of query row t against key row s: the scaled inner product where s ≤ t, -∞ above the diagonal -/
def score (x : XIdx → EReal) (wq wk : WIdx → EReal) (b : Fin 4) (t s : Fin 4096) : EReal :=
  if s.val ≤ t.val then (∑ h : Fin 128, proj x wq b t h * proj x wk b s h) * Ideal.ofBits .f32 0x3CB504F3#32 else ⊥

/-- the attention output at (b, t, h): the softmax of row t's scores, with the row's maximum (from -∞)
    subtracted, against column h of the values -/
def attn (x : XIdx → EReal) (wk wq wv : WIdx → EReal) (b : Fin 4) (t : Fin 4096) (h : Fin 128) : EReal :=
  ∑ s : Fin 4096, Ideal.div (Ideal.exp (score x wq wk b t s - max ⊥ (fmax (score x wq wk b t))))
      (0 + ∑ s' : Fin 4096, Ideal.exp (score x wq wk b t s' - max ⊥ (fmax (score x wq wk b t)))) * proj x wv b s h

/-- the same with the 4096 keys numbered as 4 tiles of 1024 -/
theorem attn_tiles (x : XIdx → EReal) (wk wq wv : WIdx → EReal) (b : Fin 4) (t : Fin 4096) (h : Fin 128) :
    attn x wk wq wv b t h
      = ∑ i : Fin (4 * 1024), Ideal.div (Ideal.exp ((score x wq wk b t : Fin (4 * 1024) → EReal) i
            - max ⊥ (fmax (score x wq wk b t : Fin (4 * 1024) → EReal))))
          (0 + ∑ i' : Fin (4 * 1024), Ideal.exp ((score x wq wk b t : Fin (4 * 1024) → EReal) i'
            - max ⊥ (fmax (score x wq wk b t : Fin (4 * 1024) → EReal))))
          * (fun s : Fin (4 * 1024) => proj x wv b s h) i := rfl

end Cert.Spec
-- ==== Proof.KI.Glue.lean ====
/-
  The host operations around the two regions, read at an index, and the projection region's arrays as the
  specification's projections.

  Before the projection region the three weight matrices are joined side by side — query | key | value, columns
  0..127, 128..255, 256..383 — and rounded (the identity on extended reals), and the [4, 4096, 2048] activations are
  read as [16384, 2048]: row b·4096 + t of the flat array is row (b, t). After it each [16384, 128] projection
  array is read back as [4, 4096, 128] the same way. The region writes, at row r and column h of its three arrays,
  the inner products of row r of the flat activations with columns h, 128 + h, 256 + h of the joined weight: the
  specification's query, key and value projections of row (b, t).
-/
import proofs.«147976_j43456479101605_2_alg».proof.Proof.Gen.KernelIdeal.Launch
import proofs.«147976_j43456479101605_2_alg».proof.Proof.KI.ProjValue
import proofs.«147976_j43456479101605_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Glue

open Cert.KernelIdeal Cert.KernelIdeal.Gen Cert.KernelIdeal.Hand
open Idealize.ShloMosaic Idealize.ShloMosaic.TcCoe Idealize.SL.Sem Idealize.ShloMosaic.StableHlo
open Idealize.ShloMosaic.ValueIdx
open scoped BigOperators

/-! ### The host operations' results -/

/-- the flattened activations: the [4, 4096, 2048] array read as [16384, 2048] -/
abbrev flatX (x : S4x4096x2048.Idx → EReal) : S16384x2048.Idx → EReal :=
  shapeCast S16384x2048 x shapeCasts_S4x4096x2048_S16384x2048

/-- the three weight matrices side by side, query | key | value, rounded (the identity on extended reals) -/
abbrev catW (wq wk wv : S2048x128.Idx → EReal) : S2048x384.Idx → EReal :=
  truncf (F := Ideal) .bf16 (concatenate S2048x384 1 [⟨S2048x128, wq⟩, ⟨S2048x128, wk⟩, ⟨S2048x128, wv⟩]
    concatenates_S2048x128_S2048x128_S2048x128_S2048x384_d1) bitsLt_bf16_f32

/-- a [16384, 128] projection array read as [4, 4096, 128] -/
abbrev unflat (y : S16384x128.Idx → EReal) : S4x4096x128.Idx → EReal :=
  shapeCast S4x4096x128 y shapeCasts_S16384x128_S4x4096x128

/-- after the first stretch of host operations the flat activation buffer holds the activations, flattened -/
theorem after0_v2 (Vv : Valuation τ sig (Elt Ideal)) :
    StableHlo.after (hostOps0 (F := Ideal)) Vv (Proc.devRef .tc main_v2) = flatX (Vv (Proc.devRef .tc main_arg0)) := by
  after_results; rfl

/-- ... and the joined-weight buffer the three weights side by side: query (argument 2), key (argument 1),
    value (argument 3) -/
theorem after0_v1 (Vv : Valuation τ sig (Elt Ideal)) :
    StableHlo.after (hostOps0 (F := Ideal)) Vv (Proc.devRef .tc main_v1)
      = catW (Vv (Proc.devRef .tc main_arg2)) (Vv (Proc.devRef .tc main_arg1)) (Vv (Proc.devRef .tc main_arg3)) := by
  after_results; rfl

/-- after the second stretch the three [4, 4096, 128] buffers hold the projection arrays, read back by rows -/
theorem after1_v4 (Vv : Valuation τ sig (Elt Ideal)) :
    StableHlo.after (hostOps1 (F := Ideal)) Vv (Proc.devRef .tc main_v4) = unflat (Vv (Proc.devRef .tc main_v3_0)) := by
  after_results; rfl
theorem after1_v5 (Vv : Valuation τ sig (Elt Ideal)) :
    StableHlo.after (hostOps1 (F := Ideal)) Vv (Proc.devRef .tc main_v5) = unflat (Vv (Proc.devRef .tc main_v3_1)) := by
  after_results; rfl
theorem after1_v6 (Vv : Valuation τ sig (Elt Ideal)) :
    StableHlo.after (hostOps1 (F := Ideal)) Vv (Proc.devRef .tc main_v6) = unflat (Vv (Proc.devRef .tc main_v3_2)) := by
  after_results; rfl

/-! ### Each at an index -/

/-- the flat row of row t of sequence b -/
def rowOf (b : Fin 4) (t : Fin 4096) : Fin 16384 := ⟨b.val * 4096 + t.val, by omega⟩

/-- row b·4096 + t of the flattened activations is row (b, t) -/
theorem flatX_apply (x : S4x4096x2048.Idx → EReal) (b : Fin 4) (t : Fin 4096) (k : Fin 2048) (r : Fin 16384)
    (hr : r.val = b.val * 4096 + t.val) : flatX x (ix2 r k) = x (ix3 b t k) :=
  shapeCast_apply x _ _ _ (by
    rw [Shape.rowMajor_val_three, Shape.rowMajor_val_two]
    show (b.val * 4096 + t.val) * 2048 + k.val = r.val * 2048 + k.val
    rw [hr])

/-- row (b, t) of a projection array read back is its flat row b·4096 + t -/
theorem unflat_apply (y : S16384x128.Idx → EReal) (b : Fin 4) (t : Fin 4096) (h : Fin 128) (r : Fin 16384)
    (hr : r.val = b.val * 4096 + t.val) : unflat y (ix3 b t h) = y (ix2 r h) :=
  shapeCast_apply y _ _ _ (by
    rw [Shape.rowMajor_val_three, Shape.rowMajor_val_two]
    show r.val * 128 + h.val = (b.val * 4096 + t.val) * 128 + h.val
    rw [hr])

/-- off the joined axis a piece's index has the joined index's coordinate -/
private theorem off_axis (k : Fin 2048) (h : Fin 128) (q : Fin 384) :
    ∀ b : Fin S2048x128.rank, b.cast (rfl : S2048x128.rank = S2048x384.rank) ≠ (1 : Fin S2048x384.rank) →
      ((ix2 k h : S2048x128.Idx) b).val = ((ix2 k q : S2048x384.Idx) (b.cast rfl)).val := fun b hb => by
  match b with
  | ⟨0, _⟩ => rfl
  | ⟨1, _⟩ => exact absurd (Fin.ext rfl) hb

/-- columns 0..127 of the joined weight are the query weight's -/
theorem catW_q (wq wk wv : S2048x128.Idx → EReal) (k : Fin 2048) (h : Fin 128) (q : Fin 384) (hq : q.val = h.val) :
    catW wq wk wv (ix2 k q) = wq (ix2 k h) := by
  show concatenate S2048x384 1 [⟨S2048x128, wq⟩, ⟨S2048x128, wk⟩, ⟨S2048x128, wv⟩]
    concatenates_S2048x128_S2048x128_S2048x128_S2048x384_d1 (ix2 k q) = _
  exact concatenate_apply_piece 1 _ _ (ix2 k q) 0 (by show 0 < 3; omega) S2048x128 wq rfl rfl 0 rfl (ix2 k h) (off_axis k h q)
    (by show 0 + h.val = q.val; omega)

/-- columns 128..255 the key weight's -/
theorem catW_k (wq wk wv : S2048x128.Idx → EReal) (k : Fin 2048) (h : Fin 128) (q : Fin 384) (hq : q.val = 128 + h.val) :
    catW wq wk wv (ix2 k q) = wk (ix2 k h) := by
  show concatenate S2048x384 1 [⟨S2048x128, wq⟩, ⟨S2048x128, wk⟩, ⟨S2048x128, wv⟩]
    concatenates_S2048x128_S2048x128_S2048x128_S2048x384_d1 (ix2 k q) = _
  exact concatenate_apply_piece 1 _ _ (ix2 k q) 1 (by show 1 < 3; omega) S2048x128 wk rfl rfl 128 rfl (ix2 k h) (off_axis k h q)
    (by show 128 + h.val = q.val; omega)

/-- columns 256..383 the value weight's -/
theorem catW_v (wq wk wv : S2048x128.Idx → EReal) (k : Fin 2048) (h : Fin 128) (q : Fin 384) (hq : q.val = 256 + h.val) :
    catW wq wk wv (ix2 k q) = wv (ix2 k h) := by
  show concatenate S2048x384 1 [⟨S2048x128, wq⟩, ⟨S2048x128, wk⟩, ⟨S2048x128, wv⟩]
    concatenates_S2048x128_S2048x128_S2048x128_S2048x384_d1 (ix2 k q) = _
  exact concatenate_apply_piece 1 _ _ (ix2 k q) 2 (by show 2 < 3; omega) S2048x128 wv rfl rfl 256 rfl (ix2 k h) (off_axis k h q)
    (by show 256 + h.val = q.val; omega)

/-! ### The projection region's arrays -/

variable (V : (c : Dev nD) → (b : Ref sig .tc) → Buf (Elt Ideal) ((c : Thread nD τ).loc b))

/-- the first projection array holds the queries -/
theorem arr_q (c : Dev nD) (x : Cert.Spec.XIdx → EReal) (wk wq wv : Cert.Spec.WIdx → EReal)
    (hV2 : V c main_v2 = flatX x) (hV1 : V c main_v1 = catW wq wk wv)
    (b : Fin 4) (t : Fin 4096) (h : Fin 128) (r : Fin 16384) (hr : r.val = b.val * 4096 + t.val) :
    efn S16384x128 ((dat0 (F := Ideal) V c).arrAt 2 cfg0.N) (ix2 r h) = Cert.Spec.proj x wq b t h := by
  refine (arr0_2 V c r h).trans ?_
  unfold Cert.Spec.proj
  refine Finset.sum_congr rfl fun k _ => ?_
  rw [hV2, hV1]
  exact congrArg₂ (· * ·) (flatX_apply x b t k r hr) (catW_q wq wk wv k h _ rfl)

/-- the second the keys -/
theorem arr_k (c : Dev nD) (x : Cert.Spec.XIdx → EReal) (wk wq wv : Cert.Spec.WIdx → EReal)
    (hV2 : V c main_v2 = flatX x) (hV1 : V c main_v1 = catW wq wk wv)
    (b : Fin 4) (t : Fin 4096) (h : Fin 128) (r : Fin 16384) (hr : r.val = b.val * 4096 + t.val) :
    efn S16384x128 ((dat0 (F := Ideal) V c).arrAt 3 cfg0.N) (ix2 r h) = Cert.Spec.proj x wk b t h := by
  refine (arr0_3 V c r h).trans ?_
  unfold Cert.Spec.proj
  refine Finset.sum_congr rfl fun k _ => ?_
  rw [hV2, hV1]
  exact congrArg₂ (· * ·) (flatX_apply x b t k r hr) (catW_k wq wk wv k h _ rfl)

/-- the third the values -/
theorem arr_v (c : Dev nD) (x : Cert.Spec.XIdx → EReal) (wk wq wv : Cert.Spec.WIdx → EReal)
    (hV2 : V c main_v2 = flatX x) (hV1 : V c main_v1 = catW wq wk wv)
    (b : Fin 4) (t : Fin 4096) (h : Fin 128) (r : Fin 16384) (hr : r.val = b.val * 4096 + t.val) :
    efn S16384x128 ((dat0 (F := Ideal) V c).arrAt 4 cfg0.N) (ix2 r h) = Cert.Spec.proj x wv b t h := by
  refine (arr0_4 V c r h).trans ?_
  unfold Cert.Spec.proj
  refine Finset.sum_congr rfl fun k _ => ?_
  rw [hV2, hV1]
  exact congrArg₂ (· * ·) (flatX_apply x b t k r hr) (catW_v wq wk wv k h _ rfl)

/-! ### The attention region's inputs -/

/-- From contents that hold the projection region's three arrays, the second stretch of host operations leaves the
    attention region's query, key and value inputs at the specification's projections. -/
theorem qkv_after1 (c : Dev nD) (Vv : Valuation τ sig (Elt Ideal)) (x : Cert.Spec.XIdx → EReal)
    (wk wq wv : Cert.Spec.WIdx → EReal) (hV2 : V c main_v2 = flatX x) (hV1 : V c main_v1 = catW wq wk wv)
    (h2 : Vv (Proc.devRef .tc (Pipeline.arrRef spec0 2)) = (dat0 (F := Ideal) V c).arrAt 2 cfg0.N)
    (h3 : Vv (Proc.devRef .tc (Pipeline.arrRef spec0 3)) = (dat0 (F := Ideal) V c).arrAt 3 cfg0.N)
    (h4 : Vv (Proc.devRef .tc (Pipeline.arrRef spec0 4)) = (dat0 (F := Ideal) V c).arrAt 4 cfg0.N)
    (b : Fin 4) (t : Fin 4096) (h : Fin 128) :
    efn S4x4096x128 (StableHlo.after (hostOps1 (F := Ideal)) Vv (Proc.devRef .tc main_v4)) (ix3 b t h) = Cert.Spec.proj x wq b t h
      ∧ efn S4x4096x128 (StableHlo.after (hostOps1 (F := Ideal)) Vv (Proc.devRef .tc main_v5)) (ix3 b t h) = Cert.Spec.proj x wk b t h
      ∧ efn S4x4096x128 (StableHlo.after (hostOps1 (F := Ideal)) Vv (Proc.devRef .tc main_v6)) (ix3 b t h) = Cert.Spec.proj x wv b t h := by
  have e2 : Vv (Proc.devRef .tc main_v3_0) = (dat0 (F := Ideal) V c).arrAt 2 cfg0.N := h2
  have e3 : Vv (Proc.devRef .tc main_v3_1) = (dat0 (F := Ideal) V c).arrAt 3 cfg0.N := h3
  have e4 : Vv (Proc.devRef .tc main_v3_2) = (dat0 (F := Ideal) V c).arrAt 4 cfg0.N := h4
  refine ⟨?_, ?_, ?_⟩
  · rw [after1_v4, e2]
    exact (unflat_apply _ b t h (rowOf b t) rfl).trans (arr_q V c x wk wq wv hV2 hV1 b t h (rowOf b t) rfl)
  · rw [after1_v5, e3]
    exact (unflat_apply _ b t h (rowOf b t) rfl).trans (arr_k V c x wk wq wv hV2 hV1 b t h (rowOf b t) rfl)
  · rw [after1_v6, e4]
    exact (unflat_apply _ b t h (rowOf b t) rfl).trans (arr_v V c x wk wq wv hV2 hV1 b t h (rowOf b t) rfl)

end Cert.KernelIdeal.Glue
-- ==== Proof.KI.GlueFrame.lean ====
/-
  The attention region's query, key and value inputs, in the whole run of @main, are the specification's projections
  of the launch arguments: the first stretch of host operations leaves the flat activations and the joined weight,
  the projection region writes the three projection arrays from them, and the second stretch reads those back by rows.
-/
import proofs.«147976_j43456479101605_2_alg».proof.Proof.KI.Frame
import proofs.«147976_j43456479101605_2_alg».proof.Proof.KI.Glue

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- at (b, t, h) the attention region's first three inputs are the query, key and value projections of row (b, t) -/
theorem U3_qkv (c : Dev nD) (b : Fin 4) (t : Fin 4096) (h : Fin 128) :
    efn S4x4096x128 (U3 m ρ c main_v4) (ix3 b t h)
        = Cert.Spec.proj (m ((c : Thread nD τ).loc main_arg0)) (m ((c : Thread nD τ).loc main_arg2)) b t h
      ∧ efn S4x4096x128 (U3 m ρ c main_v5) (ix3 b t h)
        = Cert.Spec.proj (m ((c : Thread nD τ).loc main_arg0)) (m ((c : Thread nD τ).loc main_arg1)) b t h
      ∧ efn S4x4096x128 (U3 m ρ c main_v6) (ix3 b t h)
        = Cert.Spec.proj (m ((c : Thread nD τ).loc main_arg0)) (m ((c : Thread nD τ).loc main_arg3)) b t h :=
  Glue.qkv_after1 (U1 m ρ) c (W2 m ρ c) (m ((c : Thread nD τ).loc main_arg0)) (m ((c : Thread nD τ).loc main_arg1))
    (m ((c : Thread nD τ).loc main_arg2)) (m ((c : Thread nD τ).loc main_arg3))
    (Glue.after0_v2 (W0 m ρ c)) (Glue.after0_v1 (W0 m ρ c)) (W2_arr m ρ c 2) (W2_arr m ρ c 3) (W2_arr m ρ c 4) b t h

end Cert.KernelIdeal.Hand
-- ==== Proof.KI.AttnState.lean ====
/-
  What each case of the attention body leaves in the output block's staging buffer and in the three scratch buffers,
  as functions of the point's query, key and value blocks and of the state the point before left.
  Every buffer a case rewrites is rewritten by whole-buffer stores, so what is read back afterwards is the last
  store's value; the values the body loads in between are the blocks themselves, the previous state, or (after a
  reset) the values an earlier store of the same body left. Reading the stores in order gives:
    below the diagonal   : maximum, denominator and numerator are the plain update of the state read at entry;
    on the diagonal      : they are the masked update, and the output block is the new numerator scaled by the
                           reciprocal of the new denominator;
    at the first key block the state read at entry is the reset one (-∞, 0, 0).
-/
import proofs.«147976_j43456479101605_2_alg».proof.Proof.KI.Attn
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A key block strictly between the first and the diagonal -/

/-- the running maximum the plain update leaves -/
theorem canonC_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (hc2 : ¬cond1_2 i) (hc3 : ¬cond1_3 i)
    (x0 x1 x2 : Vec F S1x1024x128 .bf16) (xs0 xs1 : Vec F S1024x1 .f32) (xs2 : Vec F S1024x128 .f32) :
    View.canon (kernelRun1_C c i arg3 harg3 arg4 harg4 arg5 harg5 arg6 harg6 arg7 harg7 arg8 harg8 arg9 harg9 hc0 hc1 hc2 hc3 x0 x1 x2 xs0 xs1 xs2).1 = k1_pay5 (k1_pay10 x0 x1 xs0) := by
  unfold kernelRun1_C
  dsimp only
  sl_unfold_words
  rw [View.canon_cons_unit_zero (S := S1024x1) hz2]
  simp only [View.readAt_eq_ld, harg3.read_unread, harg4.read_unread, harg5.read_unread, harg7.read_unread,
    harg8.read_unread, harg9.read_unread, View.ld_unit_zero (S := S1024x1) hz2, View.ld_unit_zero (S := S1024x128) hz2,
    View.ld_unit_zero (S := S1x1024x128) hz3, View.readCov_cons_toLoadRect]
  rfl

/-- the denominator the plain update leaves -/
theorem canonC_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (hc2 : ¬cond1_2 i) (hc3 : ¬cond1_3 i)
    (x0 x1 x2 : Vec F S1x1024x128 .bf16) (xs0 xs1 : Vec F S1024x1 .f32) (xs2 : Vec F S1024x128 .f32) :
    View.canon (kernelRun1_C c i arg3 harg3 arg4 harg4 arg5 harg5 arg6 harg6 arg7 harg7 arg8 harg8 arg9 harg9 hc0 hc1 hc2 hc3 x0 x1 x2 xs0 xs1 xs2).2.1 = k1_pay13 x0 x1 xs0 xs1 := by
  unfold kernelRun1_C
  dsimp only
  sl_unfold_words
  rw [View.canon_cons_unit_zero (S := S1024x1) hz2]
  simp only [View.readAt_eq_ld, harg3.read_unread, harg4.read_unread, harg5.read_unread, harg7.read_unread,
    harg8.read_unread, harg9.read_unread, View.ld_unit_zero (S := S1024x1) hz2, View.ld_unit_zero (S := S1024x128) hz2,
    View.ld_unit_zero (S := S1x1024x128) hz3, View.readCov_cons_toLoadRect]
  rfl

/-- the numerator the plain update leaves -/
theorem canonC_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (hc2 : ¬cond1_2 i) (hc3 : ¬cond1_3 i)
    (x0 x1 x2 : Vec F S1x1024x128 .bf16) (xs0 xs1 : Vec F S1024x1 .f32) (xs2 : Vec F S1024x128 .f32) :
    View.canon (kernelRun1_C c i arg3 harg3 arg4 harg4 arg5 harg5 arg6 harg6 arg7 harg7 arg8 harg8 arg9 harg9 hc0 hc1 hc2 hc3 x0 x1 x2 xs0 xs1 xs2).2.2.1 = k1_pay4 (k1_pay14 x0 x1 xs0 xs2 x2) := by
  unfold kernelRun1_C
  dsimp only
  sl_unfold_words
  rw [View.canon_cons_unit_zero (S := S1024x128) hz2]
  simp only [View.readAt_eq_ld, harg3.read_unread, harg4.read_unread, harg5.read_unread, harg7.read_unread,
    harg8.read_unread, harg9.read_unread, View.ld_unit_zero (S := S1024x1) hz2, View.ld_unit_zero (S := S1024x128) hz2,
    View.ld_unit_zero (S := S1x1024x128) hz3, View.readCov_cons_toLoadRect]
  rfl

/-! ## The first key block, below the diagonal: the reset values are read back by the update -/

/-- the running maximum: the plain update of the reset value -/
theorem canonB_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : cond1_1 i) (hc2 : ¬cond1_2 i) (hc3 : ¬cond1_3 i)
    (x0 x1 x2 : Vec F S1x1024x128 .bf16) :
    View.canon (kernelRun1_B c i arg3 harg3 arg4 harg4 arg5 harg5 arg6 harg6 arg7 harg7 arg8 harg8 arg9 harg9 hc0 hc1 hc2 hc3 x0 x1 x2).1 = k1_pay5 (k1_pay10 x0 x1 k1_pay1) := by
  unfold kernelRun1_B
  dsimp only
  sl_unfold_words
  rw [View.canon_cons_unit_zero (S := S1024x1) hz2]
  simp only [View.readAt_eq_ld, harg3.read_unread, harg4.read_unread, harg5.read_unread,
    View.ld_unit_zero (S := S1024x1) hz2, View.ld_unit_zero (S := S1024x128) hz2,
    View.ld_unit_zero (S := S1x1024x128) hz3, View.readCov_cons_toLoadRect]
  rfl

/-- the denominator: the plain update of the reset values -/
theorem canonB_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : cond1_1 i) (hc2 : ¬cond1_2 i) (hc3 : ¬cond1_3 i)
    (x0 x1 x2 : Vec F S1x1024x128 .bf16) :
    View.canon (kernelRun1_B c i arg3 harg3 arg4 harg4 arg5 harg5 arg6 harg6 arg7 harg7 arg8 harg8 arg9 harg9 hc0 hc1 hc2 hc3 x0 x1 x2).2.1 = k1_pay13 x0 x1 k1_pay1 k1_pay2 := by
  unfold kernelRun1_B
  dsimp only
  sl_unfold_words
  rw [View.canon_cons_unit_zero (S := S1024x1) hz2]
  simp only [View.readAt_eq_ld, harg3.read_unread, harg4.read_unread, harg5.read_unread,
    View.ld_unit_zero (S := S1024x1) hz2, View.ld_unit_zero (S := S1024x128) hz2,
    View.ld_unit_zero (S := S1x1024x128) hz3, View.readCov_cons_toLoadRect]
  rfl

/-- the numerator: the plain update of the reset values -/
theorem canonB_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : cond1_1 i) (hc2 : ¬cond1_2 i) (hc3 : ¬cond1_3 i)
    (x0 x1 x2 : Vec F S1x1024x128 .bf16) :
    View.canon (kernelRun1_B c i arg3 harg3 arg4 harg4 arg5 harg5 arg6 harg6 arg7 harg7 arg8 harg8 arg9 harg9 hc0 hc1 hc2 hc3 x0 x1 x2).2.2.1 = k1_pay4 (k1_pay14 x0 x1 k1_pay1 k1_pay3 x2) := by
  unfold kernelRun1_B
  dsimp only
  sl_unfold_words
  rw [View.canon_cons_unit_zero (S := S1024x128) hz2]
  simp only [View.readAt_eq_ld, harg3.read_unread, harg4.read_unread, harg5.read_unread,
    View.ld_unit_zero (S := S1024x1) hz2, View.ld_unit_zero (S := S1024x128) hz2,
    View.ld_unit_zero (S := S1x1024x128) hz3, View.readCov_cons_toLoadRect]
  rfl

/-! ## The diagonal block after the first: the masked update, then the output block -/

/-- the output block: the new numerator over the new denominator -/
theorem canonD_3 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (hc2 : cond1_2 i) (hc3 : cond1_3 i)
    (x0 x1 x2 : Vec F S1x1024x128 .bf16) (xs0 xs1 : Vec F S1024x1 .f32) (xs2 : Vec F S1024x128 .f32) :
    View.canon (kernelRun1_D c i arg3 harg3 arg4 harg4 arg5 harg5 arg6 harg6 arg7 harg7 arg8 harg8 arg9 harg9 hc0 hc1 hc2 hc3 x0 x1 x2 xs0 xs1 xs2).1 = k1_pay8 (k1_pay19 (BitVec.ofNat 32 (i 1).val) (BitVec.ofNat 32 (i 2).val) x0 x1 xs0 xs1) (k1_pay6 (k1_pay18 (BitVec.ofNat 32 (i 1).val) (BitVec.ofNat 32 (i 2).val) x0 x1 xs0) xs2 (k1_pay20 (BitVec.ofNat 32 (i 1).val) (BitVec.ofNat 32 (i 2).val) x0 x1 xs0) x2) := by
  unfold kernelRun1_D
  dsimp only
  sl_unfold_words
  rw [View.canon_cons_unit_zero (S := S1x1024x128) hz3]
  simp only [View.readAt_eq_ld, harg3.read_unread, harg4.read_unread, harg5.read_unread, harg7.read_unread,
    harg8.read_unread, harg9.read_unread, View.ld_unit_zero (S := S1024x1) hz2, View.ld_unit_zero (S := S1024x128) hz2,
    View.ld_unit_zero (S := S1x1024x128) hz3, View.readCov_cons_toLoadRect]

/-- the running maximum the masked update leaves -/
theorem canonD_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (hc2 : cond1_2 i) (hc3 : cond1_3 i)
    (x0 x1 x2 : Vec F S1x1024x128 .bf16) (xs0 xs1 : Vec F S1024x1 .f32) (xs2 : Vec F S1024x128 .f32) :
    View.canon (kernelRun1_D c i arg3 harg3 arg4 harg4 arg5 harg5 arg6 harg6 arg7 harg7 arg8 harg8 arg9 harg9 hc0 hc1 hc2 hc3 x0 x1 x2 xs0 xs1 xs2).2.1 = k1_pay7 (k1_pay16 (BitVec.ofNat 32 (i 1).val) (BitVec.ofNat 32 (i 2).val) x0 x1 xs0) := by
  unfold kernelRun1_D
  dsimp only
  sl_unfold_words
  rw [View.canon_cons_unit_zero (S := S1024x1) hz2]
  simp only [View.readAt_eq_ld, harg3.read_unread, harg4.read_unread, harg5.read_unread, harg7.read_unread,
    harg8.read_unread, harg9.read_unread, View.ld_unit_zero (S := S1024x1) hz2, View.ld_unit_zero (S := S1024x128) hz2,
    View.ld_unit_zero (S := S1x1024x128) hz3, View.readCov_cons_toLoadRect]

/-- the denominator the masked update leaves -/
theorem canonD_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (hc2 : cond1_2 i) (hc3 : cond1_3 i)
    (x0 x1 x2 : Vec F S1x1024x128 .bf16) (xs0 xs1 : Vec F S1024x1 .f32) (xs2 : Vec F S1024x128 .f32) :
    View.canon (kernelRun1_D c i arg3 harg3 arg4 harg4 arg5 harg5 arg6 harg6 arg7 harg7 arg8 harg8 arg9 harg9 hc0 hc1 hc2 hc3 x0 x1 x2 xs0 xs1 xs2).2.2.1 = k1_pay19 (BitVec.ofNat 32 (i 1).val) (BitVec.ofNat 32 (i 2).val) x0 x1 xs0 xs1 := by
  unfold kernelRun1_D
  dsimp only
  sl_unfold_words
  rw [View.canon_cons_unit_zero (S := S1024x1) hz2]
  simp only [View.readAt_eq_ld, harg3.read_unread, harg4.read_unread, harg5.read_unread, harg7.read_unread,
    harg8.read_unread, harg9.read_unread, View.ld_unit_zero (S := S1024x1) hz2, View.ld_unit_zero (S := S1024x128) hz2,
    View.ld_unit_zero (S := S1x1024x128) hz3, View.readCov_cons_toLoadRect]

/-- the numerator the masked update leaves -/
theorem canonD_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (hc2 : cond1_2 i) (hc3 : cond1_3 i)
    (x0 x1 x2 : Vec F S1x1024x128 .bf16) (xs0 xs1 : Vec F S1024x1 .f32) (xs2 : Vec F S1024x128 .f32) :
    View.canon (kernelRun1_D c i arg3 harg3 arg4 harg4 arg5 harg5 arg6 harg6 arg7 harg7 arg8 harg8 arg9 harg9 hc0 hc1 hc2 hc3 x0 x1 x2 xs0 xs1 xs2).2.2.2.1 = k1_pay6 (k1_pay18 (BitVec.ofNat 32 (i 1).val) (BitVec.ofNat 32 (i 2).val) x0 x1 xs0) xs2 (k1_pay20 (BitVec.ofNat 32 (i 1).val) (BitVec.ofNat 32 (i 2).val) x0 x1 xs0) x2 := by
  unfold kernelRun1_D
  dsimp only
  sl_unfold_words
  rw [View.canon_cons_unit_zero (S := S1024x128) hz2]
  simp only [View.readAt_eq_ld, harg3.read_unread, harg4.read_unread, harg5.read_unread, harg7.read_unread,
    harg8.read_unread, harg9.read_unread, View.ld_unit_zero (S := S1024x1) hz2, View.ld_unit_zero (S := S1024x128) hz2,
    View.ld_unit_zero (S := S1x1024x128) hz3, View.readCov_cons_toLoadRect]

/-! ## The first key block on the diagonal: reset, masked update, output block -/

/-- the output block: the new numerator over the new denominator -/
theorem canonA_3 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (hc2 : cond1_2 i) (hc3 : cond1_3 i)
    (x0 x1 x2 : Vec F S1x1024x128 .bf16) :
    View.canon (kernelRun1_A c i arg3 harg3 arg4 harg4 arg5 harg5 arg6 harg6 arg7 harg7 arg8 harg8 arg9 harg9 hc0 hc1 hc2 hc3 x0 x1 x2).1 = k1_pay8 (k1_pay19 (BitVec.ofNat 32 (i 1).val) (BitVec.ofNat 32 (i 2).val) x0 x1 k1_pay1 k1_pay2) (k1_pay6 (k1_pay18 (BitVec.ofNat 32 (i 1).val) (BitVec.ofNat 32 (i 2).val) x0 x1 k1_pay1) k1_pay3 (k1_pay20 (BitVec.ofNat 32 (i 1).val) (BitVec.ofNat 32 (i 2).val) x0 x1 k1_pay1) x2) := by
  unfold kernelRun1_A
  dsimp only
  sl_unfold_words
  rw [View.canon_cons_unit_zero (S := S1x1024x128) hz3]
  simp only [View.readAt_eq_ld, harg3.read_unread, harg4.read_unread, harg5.read_unread,
    View.ld_unit_zero (S := S1024x1) hz2, View.ld_unit_zero (S := S1024x128) hz2,
    View.ld_unit_zero (S := S1x1024x128) hz3, View.readCov_cons_toLoadRect]

/-- the running maximum: the masked update of the reset value -/
theorem canonA_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (hc2 : cond1_2 i) (hc3 : cond1_3 i)
    (x0 x1 x2 : Vec F S1x1024x128 .bf16) :
    View.canon (kernelRun1_A c i arg3 harg3 arg4 harg4 arg5 harg5 arg6 harg6 arg7 harg7 arg8 harg8 arg9 harg9 hc0 hc1 hc2 hc3 x0 x1 x2).2.1 = k1_pay7 (k1_pay16 (BitVec.ofNat 32 (i 1).val) (BitVec.ofNat 32 (i 2).val) x0 x1 k1_pay1) := by
  unfold kernelRun1_A
  dsimp only
  sl_unfold_words
  rw [View.canon_cons_unit_zero (S := S1024x1) hz2]
  simp only [View.readAt_eq_ld, harg3.read_unread, harg4.read_unread, harg5.read_unread,
    View.ld_unit_zero (S := S1024x1) hz2, View.ld_unit_zero (S := S1024x128) hz2,
    View.ld_unit_zero (S := S1x1024x128) hz3, View.readCov_cons_toLoadRect]

/-- the denominator: the masked update of the reset values -/
theorem canonA_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (hc2 : cond1_2 i) (hc3 : cond1_3 i)
    (x0 x1 x2 : Vec F S1x1024x128 .bf16) :
    View.canon (kernelRun1_A c i arg3 harg3 arg4 harg4 arg5 harg5 arg6 harg6 arg7 harg7 arg8 harg8 arg9 harg9 hc0 hc1 hc2 hc3 x0 x1 x2).2.2.1 = k1_pay19 (BitVec.ofNat 32 (i 1).val) (BitVec.ofNat 32 (i 2).val) x0 x1 k1_pay1 k1_pay2 := by
  unfold kernelRun1_A
  dsimp only
  sl_unfold_words
  rw [View.canon_cons_unit_zero (S := S1024x1) hz2]
  simp only [View.readAt_eq_ld, harg3.read_unread, harg4.read_unread, harg5.read_unread,
    View.ld_unit_zero (S := S1024x1) hz2, View.ld_unit_zero (S := S1024x128) hz2,
    View.ld_unit_zero (S := S1x1024x128) hz3, View.readCov_cons_toLoadRect]

/-- the numerator: the masked update of the reset values -/
theorem canonA_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (hc2 : cond1_2 i) (hc3 : cond1_3 i)
    (x0 x1 x2 : Vec F S1x1024x128 .bf16) :
    View.canon (kernelRun1_A c i arg3 harg3 arg4 harg4 arg5 harg5 arg6 harg6 arg7 harg7 arg8 harg8 arg9 harg9 hc0 hc1 hc2 hc3 x0 x1 x2).2.2.2.1 = k1_pay6 (k1_pay18 (BitVec.ofNat 32 (i 1).val) (BitVec.ofNat 32 (i 2).val) x0 x1 k1_pay1) k1_pay3 (k1_pay20 (BitVec.ofNat 32 (i 1).val) (BitVec.ofNat 32 (i 2).val) x0 x1 k1_pay1) x2 := by
  unfold kernelRun1_A
  dsimp only
  sl_unfold_words
  rw [View.canon_cons_unit_zero (S := S1024x128) hz2]
  simp only [View.readAt_eq_ld, harg3.read_unread, harg4.read_unread, harg5.read_unread,
    View.ld_unit_zero (S := S1024x1) hz2, View.ld_unit_zero (S := S1024x128) hz2,
    View.ld_unit_zero (S := S1x1024x128) hz3, View.readCov_cons_toLoadRect]

/-- read back through any view of the buffer -/
theorem readC_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (hc2 : ¬cond1_2 i) (hc3 : ¬cond1_3 i)
    (x0 x1 x2 : Vec F S1x1024x128 .bf16) (xs0 xs1 : Vec F S1024x1 .f32) (xs2 : Vec F S1024x128 .f32) (v : View sig .tc .vmem S1024x1 .f32) (f : v.ty.Contents (Elt F)) :
    v.read (Elt F) (v.writes (Elt F) f (kernelRun1_C c i arg3 harg3 arg4 harg4 arg5 harg5 arg6 harg6 arg7 harg7 arg8 harg8 arg9 harg9 hc0 hc1 hc2 hc3 x0 x1 x2 xs0 xs1 xs2).1) = k1_pay5 (k1_pay10 x0 x1 xs0) :=
  (View.read_writes_eq_canon v f _ (scover1_C_0 c i arg3 harg3 arg4 harg4 arg5 harg5 arg6 harg6 arg7 harg7 arg8 harg8 arg9 harg9 hc0 hc1 hc2 hc3 x0 x1 x2 xs0 xs1 xs2)).trans (canonC_0 c i arg3 harg3 arg4 harg4 arg5 harg5 arg6 harg6 arg7 harg7 arg8 harg8 arg9 harg9 hc0 hc1 hc2 hc3 x0 x1 x2 xs0 xs1 xs2)

/-- read back through any view of the buffer -/
theorem readC_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (hc2 : ¬cond1_2 i) (hc3 : ¬cond1_3 i)
    (x0 x1 x2 : Vec F S1x1024x128 .bf16) (xs0 xs1 : Vec F S1024x1 .f32) (xs2 : Vec F S1024x128 .f32) (v : View sig .tc .vmem S1024x1 .f32) (f : v.ty.Contents (Elt F)) :
    v.read (Elt F) (v.writes (Elt F) f (kernelRun1_C c i arg3 harg3 arg4 harg4 arg5 harg5 arg6 harg6 arg7 harg7 arg8 harg8 arg9 harg9 hc0 hc1 hc2 hc3 x0 x1 x2 xs0 xs1 xs2).2.1) = k1_pay13 x0 x1 xs0 xs1 :=
  (View.read_writes_eq_canon v f _ (scover1_C_1 c i arg3 harg3 arg4 harg4 arg5 harg5 arg6 harg6 arg7 harg7 arg8 harg8 arg9 harg9 hc0 hc1 hc2 hc3 x0 x1 x2 xs0 xs1 xs2)).trans (canonC_1 c i arg3 harg3 arg4 harg4 arg5 harg5 arg6 harg6 arg7 harg7 arg8 harg8 arg9 harg9 hc0 hc1 hc2 hc3 x0 x1 x2 xs0 xs1 xs2)

/-- read back through any view of the buffer -/
theorem readC_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i) (hc2 : ¬cond1_2 i) (hc3 : ¬cond1_3 i)
    (x0 x1 x2 : Vec F S1x1024x128 .bf16) (xs0 xs1 : Vec F S1024x1 .f32) (xs2 : Vec F S1024x128 .f32) (v : View sig .tc .vmem S1024x128 .f32) (f : v.ty.Contents (Elt F)) :
    v.read (Elt F) (v.writes (Elt F) f (kernelRun1_C c i arg3 harg3 arg4 harg4 arg5 harg5 arg6 harg6 arg7 harg7 arg8 harg8 arg9 harg9 hc0 hc1 hc2 hc3 x0 x1 x2 xs0 xs1 xs2).2.2.1) = k1_pay4 (k1_pay14 x0 x1 xs0 xs2 x2) :=
  (View.read_writes_eq_canon v f _ (scover1_C_2 c i arg3 harg3 arg4 harg4 arg5 harg5 arg6 harg6 arg7 harg7 arg8 harg8 arg9 harg9 hc0 hc1 hc2 hc3 x0 x1 x2 xs0 xs1 xs2)).trans (canonC_2 c i arg3 harg3 arg4 harg4 arg5 harg5 arg6 harg6 arg7 harg7 arg8 harg8 arg9 harg9 hc0 hc1 hc2 hc3 x0 x1 x2 xs0 xs1 xs2)

/-- read back through any view of the buffer -/
theorem readB_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : cond1_1 i) (hc2 : ¬cond1_2 i) (hc3 : ¬cond1_3 i)
    (x0 x1 x2 : Vec F S1x1024x128 .bf16) (v : View sig .tc .vmem S1024x1 .f32) (f : v.ty.Contents (Elt F)) :
    v.read (Elt F) (v.writes (Elt F) f (kernelRun1_B c i arg3 harg3 arg4 harg4 arg5 harg5 arg6 harg6 arg7 harg7 arg8 harg8 arg9 harg9 hc0 hc1 hc2 hc3 x0 x1 x2).1) = k1_pay5 (k1_pay10 x0 x1 k1_pay1) :=
  (View.read_writes_eq_canon v f _ (scover1_B_0 c i arg3 harg3 arg4 harg4 arg5 harg5 arg6 harg6 arg7 harg7 arg8 harg8 arg9 harg9 hc0 hc1 hc2 hc3 x0 x1 x2)).trans (canonB_0 c i arg3 harg3 arg4 harg4 arg5 harg5 arg6 harg6 arg7 harg7 arg8 harg8 arg9 harg9 hc0 hc1 hc2 hc3 x0 x1 x2)

/-- read back through any view of the buffer -/
theorem readB_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : cond1_1 i) (hc2 : ¬cond1_2 i) (hc3 : ¬cond1_3 i)
    (x0 x1 x2 : Vec F S1x1024x128 .bf16) (v : View sig .tc .vmem S1024x1 .f32) (f : v.ty.Contents (Elt F)) :
    v.read (Elt F) (v.writes (Elt F) f (kernelRun1_B c i arg3 harg3 arg4 harg4 arg5 harg5 arg6 harg6 arg7 harg7 arg8 harg8 arg9 harg9 hc0 hc1 hc2 hc3 x0 x1 x2).2.1) = k1_pay13 x0 x1 k1_pay1 k1_pay2 :=
  (View.read_writes_eq_canon v f _ (scover1_B_1 c i arg3 harg3 arg4 harg4 arg5 harg5 arg6 harg6 arg7 harg7 arg8 harg8 arg9 harg9 hc0 hc1 hc2 hc3 x0 x1 x2)).trans (canonB_1 c i arg3 harg3 arg4 harg4 arg5 harg5 arg6 harg6 arg7 harg7 arg8 harg8 arg9 harg9 hc0 hc1 hc2 hc3 x0 x1 x2)

/-- read back through any view of the buffer -/
theorem readB_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : cond1_1 i) (hc2 : ¬cond1_2 i) (hc3 : ¬cond1_3 i)
    (x0 x1 x2 : Vec F S1x1024x128 .bf16) (v : View sig .tc .vmem S1024x128 .f32) (f : v.ty.Contents (Elt F)) :
    v.read (Elt F) (v.writes (Elt F) f (kernelRun1_B c i arg3 harg3 arg4 harg4 arg5 harg5 arg6 harg6 arg7 harg7 arg8 harg8 arg9 harg9 hc0 hc1 hc2 hc3 x0 x1 x2).2.2.1) = k1_pay4 (k1_pay14 x0 x1 k1_pay1 k1_pay3 x2) :=
  (View.read_writes_eq_canon v f _ (scover1_B_2 c i arg3 harg3 arg4 harg4 arg5 harg5 arg6 harg6 arg7 harg7 arg8 harg8 arg9 harg9 hc0 hc1 hc2 hc3 x0 x1 x2)).trans (canonB_2 c i arg3 harg3 arg4 harg4 arg5 harg5 arg6 harg6 arg7 harg7 arg8 harg8 arg9 harg9 hc0 hc1 hc2 hc3 x0 x1 x2)

/-- read back through any view of the buffer -/
theorem readD_3 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (hc2 : cond1_2 i) (hc3 : cond1_3 i)
    (x0 x1 x2 : Vec F S1x1024x128 .bf16) (xs0 xs1 : Vec F S1024x1 .f32) (xs2 : Vec F S1024x128 .f32) (v : View sig .tc .vmem S1x1024x128 .f32) (f : v.ty.Contents (Elt F)) :
    v.read (Elt F) (v.writes (Elt F) f (kernelRun1_D c i arg3 harg3 arg4 harg4 arg5 harg5 arg6 harg6 arg7 harg7 arg8 harg8 arg9 harg9 hc0 hc1 hc2 hc3 x0 x1 x2 xs0 xs1 xs2).1) = k1_pay8 (k1_pay19 (BitVec.ofNat 32 (i 1).val) (BitVec.ofNat 32 (i 2).val) x0 x1 xs0 xs1) (k1_pay6 (k1_pay18 (BitVec.ofNat 32 (i 1).val) (BitVec.ofNat 32 (i 2).val) x0 x1 xs0) xs2 (k1_pay20 (BitVec.ofNat 32 (i 1).val) (BitVec.ofNat 32 (i 2).val) x0 x1 xs0) x2) :=
  (View.read_writes_eq_canon v f _ (cover1_D_3 c i arg3 harg3 arg4 harg4 arg5 harg5 arg6 harg6 arg7 harg7 arg8 harg8 arg9 harg9 hc0 hc1 hc2 hc3 x0 x1 x2 xs0 xs1 xs2)).trans (canonD_3 c i arg3 harg3 arg4 harg4 arg5 harg5 arg6 harg6 arg7 harg7 arg8 harg8 arg9 harg9 hc0 hc1 hc2 hc3 x0 x1 x2 xs0 xs1 xs2)

/-- read back through any view of the buffer -/
theorem readD_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (hc2 : cond1_2 i) (hc3 : cond1_3 i)
    (x0 x1 x2 : Vec F S1x1024x128 .bf16) (xs0 xs1 : Vec F S1024x1 .f32) (xs2 : Vec F S1024x128 .f32) (v : View sig .tc .vmem S1024x1 .f32) (f : v.ty.Contents (Elt F)) :
    v.read (Elt F) (v.writes (Elt F) f (kernelRun1_D c i arg3 harg3 arg4 harg4 arg5 harg5 arg6 harg6 arg7 harg7 arg8 harg8 arg9 harg9 hc0 hc1 hc2 hc3 x0 x1 x2 xs0 xs1 xs2).2.1) = k1_pay7 (k1_pay16 (BitVec.ofNat 32 (i 1).val) (BitVec.ofNat 32 (i 2).val) x0 x1 xs0) :=
  (View.read_writes_eq_canon v f _ (scover1_D_0 c i arg3 harg3 arg4 harg4 arg5 harg5 arg6 harg6 arg7 harg7 arg8 harg8 arg9 harg9 hc0 hc1 hc2 hc3 x0 x1 x2 xs0 xs1 xs2)).trans (canonD_0 c i arg3 harg3 arg4 harg4 arg5 harg5 arg6 harg6 arg7 harg7 arg8 harg8 arg9 harg9 hc0 hc1 hc2 hc3 x0 x1 x2 xs0 xs1 xs2)

/-- read back through any view of the buffer -/
theorem readD_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (hc2 : cond1_2 i) (hc3 : cond1_3 i)
    (x0 x1 x2 : Vec F S1x1024x128 .bf16) (xs0 xs1 : Vec F S1024x1 .f32) (xs2 : Vec F S1024x128 .f32) (v : View sig .tc .vmem S1024x1 .f32) (f : v.ty.Contents (Elt F)) :
    v.read (Elt F) (v.writes (Elt F) f (kernelRun1_D c i arg3 harg3 arg4 harg4 arg5 harg5 arg6 harg6 arg7 harg7 arg8 harg8 arg9 harg9 hc0 hc1 hc2 hc3 x0 x1 x2 xs0 xs1 xs2).2.2.1) = k1_pay19 (BitVec.ofNat 32 (i 1).val) (BitVec.ofNat 32 (i 2).val) x0 x1 xs0 xs1 :=
  (View.read_writes_eq_canon v f _ (scover1_D_1 c i arg3 harg3 arg4 harg4 arg5 harg5 arg6 harg6 arg7 harg7 arg8 harg8 arg9 harg9 hc0 hc1 hc2 hc3 x0 x1 x2 xs0 xs1 xs2)).trans (canonD_1 c i arg3 harg3 arg4 harg4 arg5 harg5 arg6 harg6 arg7 harg7 arg8 harg8 arg9 harg9 hc0 hc1 hc2 hc3 x0 x1 x2 xs0 xs1 xs2)

/-- read back through any view of the buffer -/
theorem readD_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i) (hc2 : cond1_2 i) (hc3 : cond1_3 i)
    (x0 x1 x2 : Vec F S1x1024x128 .bf16) (xs0 xs1 : Vec F S1024x1 .f32) (xs2 : Vec F S1024x128 .f32) (v : View sig .tc .vmem S1024x128 .f32) (f : v.ty.Contents (Elt F)) :
    v.read (Elt F) (v.writes (Elt F) f (kernelRun1_D c i arg3 harg3 arg4 harg4 arg5 harg5 arg6 harg6 arg7 harg7 arg8 harg8 arg9 harg9 hc0 hc1 hc2 hc3 x0 x1 x2 xs0 xs1 xs2).2.2.2.1) = k1_pay6 (k1_pay18 (BitVec.ofNat 32 (i 1).val) (BitVec.ofNat 32 (i 2).val) x0 x1 xs0) xs2 (k1_pay20 (BitVec.ofNat 32 (i 1).val) (BitVec.ofNat 32 (i 2).val) x0 x1 xs0) x2 :=
  (View.read_writes_eq_canon v f _ (scover1_D_2 c i arg3 harg3 arg4 harg4 arg5 harg5 arg6 harg6 arg7 harg7 arg8 harg8 arg9 harg9 hc0 hc1 hc2 hc3 x0 x1 x2 xs0 xs1 xs2)).trans (canonD_2 c i arg3 harg3 arg4 harg4 arg5 harg5 arg6 harg6 arg7 harg7 arg8 harg8 arg9 harg9 hc0 hc1 hc2 hc3 x0 x1 x2 xs0 xs1 xs2)

/-- read back through any view of the buffer -/
theorem readA_3 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (hc2 : cond1_2 i) (hc3 : cond1_3 i)
    (x0 x1 x2 : Vec F S1x1024x128 .bf16) (v : View sig .tc .vmem S1x1024x128 .f32) (f : v.ty.Contents (Elt F)) :
    v.read (Elt F) (v.writes (Elt F) f (kernelRun1_A c i arg3 harg3 arg4 harg4 arg5 harg5 arg6 harg6 arg7 harg7 arg8 harg8 arg9 harg9 hc0 hc1 hc2 hc3 x0 x1 x2).1) = k1_pay8 (k1_pay19 (BitVec.ofNat 32 (i 1).val) (BitVec.ofNat 32 (i 2).val) x0 x1 k1_pay1 k1_pay2) (k1_pay6 (k1_pay18 (BitVec.ofNat 32 (i 1).val) (BitVec.ofNat 32 (i 2).val) x0 x1 k1_pay1) k1_pay3 (k1_pay20 (BitVec.ofNat 32 (i 1).val) (BitVec.ofNat 32 (i 2).val) x0 x1 k1_pay1) x2) :=
  (View.read_writes_eq_canon v f _ (cover1_A_3 c i arg3 harg3 arg4 harg4 arg5 harg5 arg6 harg6 arg7 harg7 arg8 harg8 arg9 harg9 hc0 hc1 hc2 hc3 x0 x1 x2)).trans (canonA_3 c i arg3 harg3 arg4 harg4 arg5 harg5 arg6 harg6 arg7 harg7 arg8 harg8 arg9 harg9 hc0 hc1 hc2 hc3 x0 x1 x2)

/-- read back through any view of the buffer -/
theorem readA_0 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (hc2 : cond1_2 i) (hc3 : cond1_3 i)
    (x0 x1 x2 : Vec F S1x1024x128 .bf16) (v : View sig .tc .vmem S1024x1 .f32) (f : v.ty.Contents (Elt F)) :
    v.read (Elt F) (v.writes (Elt F) f (kernelRun1_A c i arg3 harg3 arg4 harg4 arg5 harg5 arg6 harg6 arg7 harg7 arg8 harg8 arg9 harg9 hc0 hc1 hc2 hc3 x0 x1 x2).2.1) = k1_pay7 (k1_pay16 (BitVec.ofNat 32 (i 1).val) (BitVec.ofNat 32 (i 2).val) x0 x1 k1_pay1) :=
  (View.read_writes_eq_canon v f _ (scover1_A_0 c i arg3 harg3 arg4 harg4 arg5 harg5 arg6 harg6 arg7 harg7 arg8 harg8 arg9 harg9 hc0 hc1 hc2 hc3 x0 x1 x2)).trans (canonA_0 c i arg3 harg3 arg4 harg4 arg5 harg5 arg6 harg6 arg7 harg7 arg8 harg8 arg9 harg9 hc0 hc1 hc2 hc3 x0 x1 x2)

/-- read back through any view of the buffer -/
theorem readA_1 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (hc2 : cond1_2 i) (hc3 : cond1_3 i)
    (x0 x1 x2 : Vec F S1x1024x128 .bf16) (v : View sig .tc .vmem S1024x1 .f32) (f : v.ty.Contents (Elt F)) :
    v.read (Elt F) (v.writes (Elt F) f (kernelRun1_A c i arg3 harg3 arg4 harg4 arg5 harg5 arg6 harg6 arg7 harg7 arg8 harg8 arg9 harg9 hc0 hc1 hc2 hc3 x0 x1 x2).2.2.1) = k1_pay19 (BitVec.ofNat 32 (i 1).val) (BitVec.ofNat 32 (i 2).val) x0 x1 k1_pay1 k1_pay2 :=
  (View.read_writes_eq_canon v f _ (scover1_A_1 c i arg3 harg3 arg4 harg4 arg5 harg5 arg6 harg6 arg7 harg7 arg8 harg8 arg9 harg9 hc0 hc1 hc2 hc3 x0 x1 x2)).trans (canonA_1 c i arg3 harg3 arg4 harg4 arg5 harg5 arg6 harg6 arg7 harg7 arg8 harg8 arg9 harg9 hc0 hc1 hc2 hc3 x0 x1 x2)

/-- read back through any view of the buffer -/
theorem readA_2 (c : Dev nD) (i : grid1.Coords) (arg3 : Memref sig .tc .vmem S1x1024x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S1x1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i) (hc2 : cond1_2 i) (hc3 : cond1_3 i)
    (x0 x1 x2 : Vec F S1x1024x128 .bf16) (v : View sig .tc .vmem S1024x128 .f32) (f : v.ty.Contents (Elt F)) :
    v.read (Elt F) (v.writes (Elt F) f (kernelRun1_A c i arg3 harg3 arg4 harg4 arg5 harg5 arg6 harg6 arg7 harg7 arg8 harg8 arg9 harg9 hc0 hc1 hc2 hc3 x0 x1 x2).2.2.2.1) = k1_pay6 (k1_pay18 (BitVec.ofNat 32 (i 1).val) (BitVec.ofNat 32 (i 2).val) x0 x1 k1_pay1) k1_pay3 (k1_pay20 (BitVec.ofNat 32 (i 1).val) (BitVec.ofNat 32 (i 2).val) x0 x1 k1_pay1) x2 :=
  (View.read_writes_eq_canon v f _ (scover1_A_2 c i arg3 harg3 arg4 harg4 arg5 harg5 arg6 harg6 arg7 harg7 arg8 harg8 arg9 harg9 hc0 hc1 hc2 hc3 x0 x1 x2)).trans (canonA_2 c i arg3 harg3 arg4 harg4 arg5 harg5 arg6 harg6 arg7 harg7 arg8 harg8 arg9 harg9 hc0 hc1 hc2 hc3 x0 x1 x2)

/-! ## The state each case leaves, as the payloads of the point's blocks -/

section States
variable (V : (c : Dev nD) → (b : Ref sig .tc) → Buf (Elt F) ((c : Thread nD τ).loc b))

/-- 0 < ki < qi: the plain update of the previous state by the point's query, key and value blocks. -/
theorem stC_eq (c : Dev nD) (t : Fin cfg1.N) (h0 : ¬ t.val % 4 = 0) (hlt : t.val % 4 < t.val / 4 % 4) (p : St F) :
    stC V c t h0 hlt p
      = (p.1, k1_pay5 (k1_pay10 (iblk1 V c 0 t) (iblk1 V c 1 t) p.2.1), k1_pay13 (iblk1 V c 0 t) (iblk1 V c 1 t) p.2.1 p.2.2.1,
          k1_pay4 (k1_pay14 (iblk1 V c 0 t) (iblk1 V c 1 t) p.2.1 p.2.2.2 (iblk1 V c 2 t))) := by
  unfold stC runC
  rw [readC_0, readC_1, readC_2]

/-- ki = 0 < qi: the plain update of the reset state. -/
theorem stB_eq (c : Dev nD) (t : Fin cfg1.N) (h0 : t.val % 4 = 0) (hlt : t.val % 4 < t.val / 4 % 4) (o : Vec F S1x1024x128 .f32) :
    stB V c t h0 hlt o
      = (o, k1_pay5 (k1_pay10 (iblk1 V c 0 t) (iblk1 V c 1 t) k1_pay1), k1_pay13 (iblk1 V c 0 t) (iblk1 V c 1 t) k1_pay1 k1_pay2,
          k1_pay4 (k1_pay14 (iblk1 V c 0 t) (iblk1 V c 1 t) k1_pay1 k1_pay3 (iblk1 V c 2 t))) := by
  unfold stB runB
  rw [readB_0, readB_1, readB_2]

/-- 0 < ki = qi: the masked update of the previous state, and the output block from the new sums. -/
theorem stD_eq (c : Dev nD) (t : Fin cfg1.N) (h0 : ¬ t.val % 4 = 0) (heq : t.val % 4 = t.val / 4 % 4) (p : St F) :
    stD V c t h0 heq p
      = (k1_pay8 (k1_pay19 (BitVec.ofNat 32 ((grid1.coords t) 1).val) (BitVec.ofNat 32 ((grid1.coords t) 2).val) (iblk1 V c 0 t) (iblk1 V c 1 t) p.2.1 p.2.2.1)
            (k1_pay6 (k1_pay18 (BitVec.ofNat 32 ((grid1.coords t) 1).val) (BitVec.ofNat 32 ((grid1.coords t) 2).val) (iblk1 V c 0 t) (iblk1 V c 1 t) p.2.1) p.2.2.2 (k1_pay20 (BitVec.ofNat 32 ((grid1.coords t) 1).val) (BitVec.ofNat 32 ((grid1.coords t) 2).val) (iblk1 V c 0 t) (iblk1 V c 1 t) p.2.1) (iblk1 V c 2 t)),
          k1_pay7 (k1_pay16 (BitVec.ofNat 32 ((grid1.coords t) 1).val) (BitVec.ofNat 32 ((grid1.coords t) 2).val) (iblk1 V c 0 t) (iblk1 V c 1 t) p.2.1),
          k1_pay19 (BitVec.ofNat 32 ((grid1.coords t) 1).val) (BitVec.ofNat 32 ((grid1.coords t) 2).val) (iblk1 V c 0 t) (iblk1 V c 1 t) p.2.1 p.2.2.1,
          k1_pay6 (k1_pay18 (BitVec.ofNat 32 ((grid1.coords t) 1).val) (BitVec.ofNat 32 ((grid1.coords t) 2).val) (iblk1 V c 0 t) (iblk1 V c 1 t) p.2.1) p.2.2.2 (k1_pay20 (BitVec.ofNat 32 ((grid1.coords t) 1).val) (BitVec.ofNat 32 ((grid1.coords t) 2).val) (iblk1 V c 0 t) (iblk1 V c 1 t) p.2.1) (iblk1 V c 2 t)) := by
  unfold stD runD
  rw [readD_3, readD_0, readD_1, readD_2]

/-- ki = 0 = qi: the masked update of the reset state, and the output block from the new sums. -/
theorem stA_eq (c : Dev nD) (t : Fin cfg1.N) (h0 : t.val % 4 = 0) (heq : t.val % 4 = t.val / 4 % 4) :
    stA V c t h0 heq
      = (k1_pay8 (k1_pay19 (BitVec.ofNat 32 ((grid1.coords t) 1).val) (BitVec.ofNat 32 ((grid1.coords t) 2).val) (iblk1 V c 0 t) (iblk1 V c 1 t) k1_pay1 k1_pay2)
            (k1_pay6 (k1_pay18 (BitVec.ofNat 32 ((grid1.coords t) 1).val) (BitVec.ofNat 32 ((grid1.coords t) 2).val) (iblk1 V c 0 t) (iblk1 V c 1 t) k1_pay1) k1_pay3 (k1_pay20 (BitVec.ofNat 32 ((grid1.coords t) 1).val) (BitVec.ofNat 32 ((grid1.coords t) 2).val) (iblk1 V c 0 t) (iblk1 V c 1 t) k1_pay1) (iblk1 V c 2 t)),
          k1_pay7 (k1_pay16 (BitVec.ofNat 32 ((grid1.coords t) 1).val) (BitVec.ofNat 32 ((grid1.coords t) 2).val) (iblk1 V c 0 t) (iblk1 V c 1 t) k1_pay1),
          k1_pay19 (BitVec.ofNat 32 ((grid1.coords t) 1).val) (BitVec.ofNat 32 ((grid1.coords t) 2).val) (iblk1 V c 0 t) (iblk1 V c 1 t) k1_pay1 k1_pay2,
          k1_pay6 (k1_pay18 (BitVec.ofNat 32 ((grid1.coords t) 1).val) (BitVec.ofNat 32 ((grid1.coords t) 2).val) (iblk1 V c 0 t) (iblk1 V c 1 t) k1_pay1) k1_pay3 (k1_pay20 (BitVec.ofNat 32 ((grid1.coords t) 1).val) (BitVec.ofNat 32 ((grid1.coords t) 2).val) (iblk1 V c 0 t) (iblk1 V c 1 t) k1_pay1) (iblk1 V c 2 t)) := by
  unfold stA runA
  rw [readA_3, readA_0, readA_1, readA_2]

end States

end Cert.KernelIdeal.Hand

end
-- ==== Proof.LibOnlineSoftmax.lean ====
/-
  Online softmax over key tiles equals the one-pass softmax-weighted sum, on the extended reals.

  A row of T * K scores s (each -∞ or a real, the first one a real) and real values v is read in T tiles of
  width K. A running state (m, d, a) — the maximum so far, the denominator and the numerator of the weighted sum,
  both taken relative to m — starts at (-∞, 0, 0); a tile with scores s' and values v' updates it to
    m' = max m (max s'),  d' = exp (m - m') · d + ∑ⱼ exp (s'ⱼ - m'),  a' = exp (m - m') · a + ∑ⱼ exp (s'ⱼ - m') · v'ⱼ.
  After n ≥ 1 tiles m is the real maximum M of the scores read so far, d = ∑ᵢ exp (sᵢ - M) and
  a = ∑ᵢ exp (sᵢ - M) · vᵢ over them (exp (-∞) = 0; exp (m - m') · exp (sᵢ - m) = exp (sᵢ - m') on the reals),
  so after all the tiles a / d = ∑ᵢ (exp (sᵢ - M) / ∑ᵢ' exp (sᵢ' - M)) · vᵢ with M the maximum of the row: the
  softmax of the row, taken with its maximum subtracted, against v. A tile that is entirely -∞ leaves a state
  with a real maximum unchanged, so such tiles at the end of the row may be skipped.
-/
import Idealize.ShloMosaic.PureOps.Ideal
import Mathlib.Algebra.BigOperators.Fin
import Mathlib.Algebra.Order.BigOperators.Group.Finset
import Mathlib.Data.Finset.Lattice.Fold
import proofs.«147976_j43456479101605_2_alg».proof.Proof.LibFmax

noncomputable section

namespace Cert.Softmax

open Cert.Attn Idealize.ShloMosaic
open scoped BigOperators

/-! ### The recurrence -/

/-- column j of tile t in the flat numbering of T tiles of width K -/
def tileIx (T K : ℕ) (t : Fin T) (j : Fin K) : Fin (T * K) :=
  ⟨t.val * K + j.val,
    calc t.val * K + j.val < t.val * K + K := Nat.add_lt_add_left j.isLt _
      _ = (t.val + 1) * K := (Nat.succ_mul _ _).symm
      _ ≤ T * K := Nat.mul_le_mul_right _ t.isLt⟩

/-- one tile's update of a row's running (maximum, denominator, numerator at one output column) -/
def step {K : ℕ} (st : EReal × EReal × EReal) (s v : Fin K → EReal) : EReal × EReal × EReal :=
  (max st.1 (fmax s),
   Ideal.exp (st.1 - max st.1 (fmax s)) * st.2.1 + ∑ j : Fin K, Ideal.exp (s j - max st.1 (fmax s)),
   Ideal.exp (st.1 - max st.1 (fmax s)) * st.2.2 + ∑ j : Fin K, Ideal.exp (s j - max st.1 (fmax s)) * v j)

/-- the state after the first n tiles, from (-∞, 0, 0) -/
def run (T K : ℕ) (s v : Fin (T * K) → EReal) : ℕ → EReal × EReal × EReal
  | 0 => (⊥, 0, 0)
  | n + 1 => if h : n < T then step (run T K s v n) (fun j => s (tileIx T K ⟨n, h⟩ j)) (fun j => v (tileIx T K ⟨n, h⟩ j)) else run T K s v n

theorem run_zero (T K : ℕ) (s v : Fin (T * K) → EReal) : run T K s v 0 = (⊥, 0, 0) := rfl

theorem run_succ_of_lt (T K : ℕ) (s v : Fin (T * K) → EReal) (n : ℕ) (h : n < T) :
    run T K s v (n + 1)
      = step (run T K s v n) (fun j => s (tileIx T K ⟨n, h⟩ j)) (fun j => v (tileIx T K ⟨n, h⟩ j)) := by
  show (if h : n < T then _ else _) = _
  rw [dif_pos h]

theorem run_succ_of_ge (T K : ℕ) (s v : Fin (T * K) → EReal) (n : ℕ) (h : T ≤ n) :
    run T K s v (n + 1) = run T K s v n := by
  show (if h : n < T then _ else _) = _
  rw [dif_neg (Nat.not_lt.mpr h)]

/-- past the last tile the state no longer moves -/
theorem run_of_ge (T K : ℕ) (s v : Fin (T * K) → EReal) (n : ℕ) (h : T ≤ n) :
    run T K s v n = run T K s v T := by
  induction n, h using Nat.le_induction with
  | base => rfl
  | succ n h ih => rw [run_succ_of_ge T K s v n h, ih]

/-! ### Extended reals that are -∞ or real -/

/-- the maximum of a family of values that are -∞ or real is -∞ or real -/
theorem fmax_bot_or_coe {n : ℕ} (f : Fin n → EReal) (hf : ∀ i, f i = ⊥ ∨ ∃ r : ℝ, f i = (r : EReal)) :
    fmax f = ⊥ ∨ ∃ r : ℝ, fmax f = (r : EReal) := by
  refine Finset.sup_induction (p := fun a : EReal => a = ⊥ ∨ ∃ r : ℝ, a = (r : EReal)) (Or.inl rfl) ?_
    (fun i _ => hf i)
  intro a ha b hb
  rcases max_choice a b with h | h
  · rw [show a ⊔ b = a from h]; exact ha
  · rw [show a ⊔ b = b from h]; exact hb

theorem le_fmax {n : ℕ} (f : Fin n → EReal) (i : Fin n) : f i ≤ fmax f :=
  Finset.le_sup (f := f) (Finset.mem_univ i)

theorem fmax_le {n : ℕ} (f : Fin n → EReal) (a : EReal) (h : ∀ i, f i ≤ a) : fmax f ≤ a :=
  Finset.sup_le (fun i _ => h i)

theorem fmax_bot {n : ℕ} : fmax (fun _ : Fin n => (⊥ : EReal)) = ⊥ :=
  Finset.sup_bot _

/-- a value that is -∞ or real and at least a real is real -/
theorem coe_of_coe_le {a : EReal} (ha : a = ⊥ ∨ ∃ r : ℝ, a = (r : EReal)) {r0 : ℝ} (h : (r0 : EReal) ≤ a) :
    ∃ r : ℝ, a = (r : EReal) := by
  rcases ha with ha | ha
  · exact absurd (le_bot_iff.mp (ha ▸ h)) (EReal.coe_ne_bot r0)
  · exact ha

/-- exp (a - m) as a real, for a that is -∞ or real and m real -/
def ew (a : EReal) (m : ℝ) : ℝ := if a = ⊥ then 0 else Real.exp (a.toReal - m)

theorem exp_sub_coe (a : EReal) (ha : a = ⊥ ∨ ∃ r : ℝ, a = (r : EReal)) (m : ℝ) :
    Ideal.exp (a - (m : EReal)) = ((ew a m : ℝ) : EReal) := by
  rcases ha with ha | ⟨r, ha⟩
  · rw [ha, EReal.bot_sub, Ideal.exp_bot, ew, if_pos rfl, EReal.coe_zero]
  · rw [ha, ← EReal.coe_sub, Ideal.exp_coe, ew, if_neg (EReal.coe_ne_bot r), EReal.toReal_coe]

theorem ew_nonneg (a : EReal) (m : ℝ) : 0 ≤ ew a m := by
  unfold ew; split
  · exact le_refl 0
  · exact (Real.exp_pos _).le

theorem ew_coe_pos (r m : ℝ) : 0 < ew (r : EReal) m := by
  rw [ew, if_neg (EReal.coe_ne_bot r)]; exact Real.exp_pos _

/-- changing the reference maximum from m to m' multiplies by exp (m - m') -/
theorem ew_rescale (a : EReal) (m m' : ℝ) : ew (m : EReal) m' * ew a m = ew a m' := by
  rw [ew, if_neg (EReal.coe_ne_bot m), EReal.toReal_coe]
  unfold ew; split
  · exact mul_zero _
  · rw [← Real.exp_add]; congr 1; ring

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### One tile's update, on the reals -/

/-- one tile's update of a state whose maximum is -∞ or real and whose sums are real, the new maximum being the
    real m' -/
theorem step_coe {K : ℕ} (M : EReal) (hM : M = ⊥ ∨ ∃ r : ℝ, M = (r : EReal)) (D N : ℝ) (s v : Fin K → EReal)
    (hs : ∀ j, s j = ⊥ ∨ ∃ r : ℝ, s j = (r : EReal)) (vr : Fin K → ℝ) (hv : ∀ j, v j = (vr j : EReal)) (m' : ℝ)
    (hm' : max M (fmax s) = (m' : EReal)) :
    step (M, (D : EReal), (N : EReal)) s v
      = ((m' : EReal), ((ew M m' * D + ∑ j, ew (s j) m' : ℝ) : EReal),
          ((ew M m' * N + ∑ j, ew (s j) m' * vr j : ℝ) : EReal)) := by
  unfold step
  simp only [hm']
  rw [exp_sub_coe M hM m']
  refine Prod.ext rfl (Prod.ext ?_ ?_)
  · show _ * (D : EReal) + ∑ j : Fin K, Ideal.exp (s j - (m' : EReal))
      = ((ew M m' * D + ∑ j, ew (s j) m' : ℝ) : EReal)
    rw [EReal.coe_add, EReal.coe_mul, coe_sum]
    congr 1
    exact Finset.sum_congr rfl (fun j _ => exp_sub_coe (s j) (hs j) m')
  · show _ * (N : EReal) + ∑ j : Fin K, Ideal.exp (s j - (m' : EReal)) * v j
      = ((ew M m' * N + ∑ j, ew (s j) m' * vr j : ℝ) : EReal)
    rw [EReal.coe_add, EReal.coe_mul, coe_sum]
    congr 1
    refine Finset.sum_congr rfl (fun j _ => ?_)
    rw [exp_sub_coe (s j) (hs j) m', hv j, EReal.coe_mul]

/-- a tile that is entirely -∞ leaves a state with a real maximum unchanged -/
theorem step_masked {K : ℕ} (st : EReal × EReal × EReal) (hm : ∃ r : ℝ, st.1 = (r : EReal)) (v : Fin K → EReal) :
    step st (fun _ : Fin K => (⊥ : EReal)) v = st := by
  obtain ⟨r, hr⟩ := hm
  obtain ⟨a, d, n⟩ := st
  simp only at hr
  subst hr
  have h1 : Ideal.exp ((r : EReal) - (r : EReal)) = 1 := by
    rw [← EReal.coe_sub, sub_self, Ideal.exp_coe, Real.exp_zero, EReal.coe_one]
  have h2 : Ideal.exp ((⊥ : EReal) - (r : EReal)) = 0 := by rw [EReal.bot_sub, Ideal.exp_bot]
  unfold step
  simp only [fmax_bot, max_bot_right, h1, h2, one_mul, zero_mul, Finset.sum_const_zero, add_zero]

/-! ### Sums over the first tiles -/

/-- the sum of f over the columns of the first n tiles -/
def psum (T K : ℕ) (n : ℕ) (f : Fin (T * K) → ℝ) : ℝ :=
  ∑ t : Fin T, ∑ j : Fin K, if t.val < n then f (tileIx T K t j) else 0

theorem psum_zero (T K : ℕ) (f : Fin (T * K) → ℝ) : psum T K 0 f = 0 := by
  simp [psum]

theorem psum_succ (T K : ℕ) (n : ℕ) (h : n < T) (f : Fin (T * K) → ℝ) :
    psum T K (n + 1) f = psum T K n f + ∑ j : Fin K, f (tileIx T K ⟨n, h⟩ j) := by
  unfold psum
  have key : ∀ t : Fin T, (∑ j : Fin K, if t.val < n + 1 then f (tileIx T K t j) else 0)
      = (∑ j : Fin K, if t.val < n then f (tileIx T K t j) else 0)
        + (if t = ⟨n, h⟩ then ∑ j : Fin K, f (tileIx T K ⟨n, h⟩ j) else 0) := by
    intro t
    by_cases h1 : t.val < n
    · have h2 : t ≠ ⟨n, h⟩ := fun e => by rw [e] at h1; exact lt_irrefl _ h1
      simp only [h1, Nat.lt_succ_of_lt h1, if_true, if_neg h2, add_zero]
    · by_cases h2 : t = ⟨n, h⟩
      · subst h2
        simp only [Nat.lt_succ_self, lt_irrefl, if_true, if_false, Finset.sum_const_zero, zero_add]
      · have h3 : ¬ t.val < n + 1 := fun h3 => h2 (Fin.ext (by
          have : t.val = n := by omega
          exact this))
        simp only [h1, h3, if_false, if_neg h2, Finset.sum_const_zero, add_zero]
  rw [Finset.sum_congr rfl (fun t _ => key t), Finset.sum_add_distrib, Finset.sum_ite_eq' (Finset.univ : Finset (Fin T)) (⟨n, h⟩ : Fin T),
    if_pos (Finset.mem_univ _)]

theorem mul_psum (T K : ℕ) (c : ℝ) (n : ℕ) (f : Fin (T * K) → ℝ) :
    c * psum T K n f = psum T K n (fun i => c * f i) := by
  unfold psum
  rw [Finset.mul_sum]
  refine Finset.sum_congr rfl (fun t _ => ?_)
  rw [Finset.mul_sum]
  refine Finset.sum_congr rfl (fun j _ => ?_)
  split
  · rfl
  · exact mul_zero c

/-- the tiles' numbering is the standard one of pairs -/
theorem tileIx_eq (T K : ℕ) (t : Fin T) (j : Fin K) : tileIx T K t j = finProdFinEquiv (t, j) := by
  apply Fin.ext
  show t.val * K + j.val = j.val + K * t.val
  rw [Nat.add_comm, Nat.mul_comm]

/-- every column is a column of some tile -/
theorem exists_tileIx (T K : ℕ) (i : Fin (T * K)) : ∃ (t : Fin T) (j : Fin K), i = tileIx T K t j := by
  obtain ⟨p, rfl⟩ := finProdFinEquiv.surjective i
  exact ⟨p.1, p.2, (tileIx_eq T K p.1 p.2).symm⟩

theorem psum_all (T K : ℕ) (f : Fin (T * K) → ℝ) : psum T K T f = ∑ i : Fin (T * K), f i := by
  unfold psum
  have h1 : ∀ t : Fin T, (∑ j : Fin K, if t.val < T then f (tileIx T K t j) else 0)
      = ∑ j : Fin K, f (tileIx T K t j) := fun t => Finset.sum_congr rfl (fun j _ => if_pos t.isLt)
  rw [Finset.sum_congr rfl (fun t _ => h1 t), ← Fintype.sum_prod_type' (fun t j => f (tileIx T K t j))]
  exact Fintype.sum_equiv finProdFinEquiv _ _ (fun p => by rw [tileIx_eq])

/-! ### The running maximum -/

/-- the running maximum after n tiles is -∞ or real, bounds the scores read so far and is at most the row's -/
theorem run_fst (T K : ℕ) (s v : Fin (T * K) → EReal) (hs : ∀ i, s i = ⊥ ∨ ∃ r : ℝ, s i = (r : EReal)) :
    ∀ n, n ≤ T →
      ((run T K s v n).1 = ⊥ ∨ ∃ r : ℝ, (run T K s v n).1 = (r : EReal))
      ∧ (∀ (t : Fin T) (j : Fin K), t.val < n → s (tileIx T K t j) ≤ (run T K s v n).1)
      ∧ (run T K s v n).1 ≤ fmax s := by
  intro n
  induction n with
  | zero => exact fun _ => ⟨Or.inl rfl, fun t _ h => absurd h (Nat.not_lt_zero _), bot_le⟩
  | succ n ih =>
    intro hn
    have h : n < T := hn
    obtain ⟨ih1, ih2, ih3⟩ := ih (Nat.le_of_lt h)
    rw [run_succ_of_lt T K s v n h]
    show (max (run T K s v n).1 (fmax fun j => s (tileIx T K ⟨n, h⟩ j)) = ⊥
        ∨ ∃ r : ℝ, max (run T K s v n).1 (fmax fun j => s (tileIx T K ⟨n, h⟩ j)) = (r : EReal))
      ∧ (∀ (t : Fin T) (j : Fin K), t.val < n + 1 →
          s (tileIx T K t j) ≤ max (run T K s v n).1 (fmax fun j => s (tileIx T K ⟨n, h⟩ j)))
      ∧ max (run T K s v n).1 (fmax fun j => s (tileIx T K ⟨n, h⟩ j)) ≤ fmax s
    refine ⟨?_, ?_, ?_⟩
    · rcases max_choice (run T K s v n).1 (fmax fun j => s (tileIx T K ⟨n, h⟩ j)) with e | e
      · rw [e]; exact ih1
      · rw [e]; exact fmax_bot_or_coe _ (fun j => hs _)
    · intro t j ht
      by_cases h1 : t.val < n
      · exact (ih2 t j h1).trans (le_max_left _ _)
      · have h2 : t = ⟨n, h⟩ := Fin.ext (by
          have : t.val = n := by omega
          exact this)
        subst h2
        exact (le_fmax (fun j => s (tileIx T K ⟨n, h⟩ j)) j).trans (le_max_right _ _)
    · exact max_le ih3 (fmax_le _ _ (fun j => le_fmax s _))

/-- once a tile has been read the running maximum is real, the first score being real -/
theorem run_fst_coe (T K : ℕ) (hT : 0 < T) (hK : 0 < K) (s v : Fin (T * K) → EReal)
    (hs : ∀ i, s i = ⊥ ∨ ∃ r : ℝ, s i = (r : EReal)) (h0 : ∃ r : ℝ, s ⟨0, Nat.mul_pos hT hK⟩ = (r : EReal))
    (n : ℕ) (hn : 1 ≤ n) : ∃ r : ℝ, (run T K s v n).1 = (r : EReal) := by
  have main : ∀ n, 1 ≤ n → n ≤ T → ∃ r : ℝ, (run T K s v n).1 = (r : EReal) := by
    intro n hn hnT
    obtain ⟨h1, h2, _⟩ := run_fst T K s v hs n hnT
    obtain ⟨r0, hr0⟩ := h0
    have hix : tileIx T K ⟨0, hT⟩ ⟨0, hK⟩ = ⟨0, Nat.mul_pos hT hK⟩ := Fin.ext (by
      show 0 * K + 0 = 0
      rw [Nat.zero_mul])
    have hle := h2 ⟨0, hT⟩ ⟨0, hK⟩ hn
    rw [hix, hr0] at hle
    exact coe_of_coe_le h1 hle
  rcases Nat.lt_or_ge n T with h | h
  · exact main n hn (Nat.le_of_lt h)
  · rw [run_of_ge T K s v n h]; exact main T hT le_rfl

/-! ### The state after n tiles -/

/-- after n ≥ 1 tiles: the real maximum m of the scores read so far, and over them the sums of exp (sᵢ - m)
    and of exp (sᵢ - m) · vᵢ -/
theorem run_eq (T K : ℕ) (hT : 0 < T) (hK : 0 < K) (s v : Fin (T * K) → EReal)
    (hs : ∀ i, s i = ⊥ ∨ ∃ r : ℝ, s i = (r : EReal)) (h0 : ∃ r : ℝ, s ⟨0, Nat.mul_pos hT hK⟩ = (r : EReal))
    (vr : Fin (T * K) → ℝ) (hv : ∀ i, v i = (vr i : EReal)) (n : ℕ) (hn : 1 ≤ n) (hnT : n ≤ T) :
    ∃ m : ℝ, run T K s v n
      = ((m : EReal), ((psum T K n (fun i => ew (s i) m) : ℝ) : EReal),
          ((psum T K n (fun i => ew (s i) m * vr i) : ℝ) : EReal)) := by
  induction n, hn using Nat.le_induction with
  | base =>
    obtain ⟨m, hm⟩ := run_fst_coe T K hT hK s v hs h0 1 le_rfl
    refine ⟨m, ?_⟩
    rw [run_succ_of_lt T K s v 0 hT] at hm ⊢
    rw [run_zero] at hm ⊢
    have hmax : max (⊥ : EReal) (fmax fun j => s (tileIx T K ⟨0, hT⟩ j)) = (m : EReal) := hm
    have e := step_coe ⊥ (Or.inl rfl) 0 0 (fun j => s (tileIx T K ⟨0, hT⟩ j)) (fun j => v (tileIx T K ⟨0, hT⟩ j))
      (fun j => hs _) (fun j => vr (tileIx T K ⟨0, hT⟩ j)) (fun j => hv _) m hmax
    rw [EReal.coe_zero] at e
    rw [e, psum_succ T K 0 hT, psum_succ T K 0 hT, psum_zero, psum_zero, mul_zero]
  | succ n hn ih =>
    have h : n < T := hnT
    obtain ⟨m, hrun⟩ := ih (Nat.le_of_lt h)
    obtain ⟨m', hm'⟩ := run_fst_coe T K hT hK s v hs h0 (n + 1) (Nat.le_succ_of_le hn)
    refine ⟨m', ?_⟩
    rw [run_succ_of_lt T K s v n h] at hm' ⊢
    rw [hrun] at hm' ⊢
    have hmax : max (m : EReal) (fmax fun j => s (tileIx T K ⟨n, h⟩ j)) = (m' : EReal) := hm'
    rw [step_coe (m : EReal) (Or.inr ⟨m, rfl⟩) _ _ (fun j => s (tileIx T K ⟨n, h⟩ j))
      (fun j => v (tileIx T K ⟨n, h⟩ j)) (fun j => hs _) (fun j => vr (tileIx T K ⟨n, h⟩ j)) (fun j => hv _) m' hmax,
      psum_succ T K n h, psum_succ T K n h, mul_psum, mul_psum]
    have e1 : (fun i => ew (m : EReal) m' * ew (s i) m) = fun i => ew (s i) m' :=
      funext fun i => ew_rescale (s i) m m'
    have e2 : (fun i => ew (m : EReal) m' * (ew (s i) m * vr i)) = fun i => ew (s i) m' * vr i :=
      funext fun i => by rw [← mul_assoc, ew_rescale]
    rw [e1, e2]

/-! ### The theorems -/

/-- the online recurrence over all the tiles is the softmax of the row, taken with its maximum subtracted,
    against the values -/
theorem online_softmax (T K : ℕ) (hT : 0 < T) (hK : 0 < K) (s v : Fin (T * K) → EReal)
    (hs : ∀ i, s i = ⊥ ∨ ∃ r : ℝ, s i = (r : EReal)) (h0 : ∃ r : ℝ, s ⟨0, Nat.mul_pos hT hK⟩ = (r : EReal))
    (hv : ∀ i, ∃ r : ℝ, v i = (r : EReal)) :
    Ideal.div (run T K s v T).2.2 (run T K s v T).2.1
      = ∑ i : Fin (T * K), Ideal.div (Ideal.exp (s i - max ⊥ (fmax s)))
          (0 + ∑ i' : Fin (T * K), Ideal.exp (s i' - max ⊥ (fmax s))) * v i := by
  choose vr hvr using hv
  obtain ⟨m, hrun⟩ := run_eq T K hT hK s v hs h0 vr hvr T hT le_rfl
  obtain ⟨_, hb, hle⟩ := run_fst T K s v hs T le_rfl
  rw [hrun] at hb hle
  -- the running maximum at the end is the row's
  have hM : fmax s = (m : EReal) := by
    refine le_antisymm (fmax_le _ _ (fun i => ?_)) hle
    obtain ⟨t, j, rfl⟩ := exists_tileIx T K i
    exact hb t j t.isLt
  rw [hrun, max_bot_left, hM]
  show Ideal.div ((psum T K T (fun i => ew (s i) m * vr i) : ℝ) : EReal) ((psum T K T (fun i => ew (s i) m) : ℝ) : EReal)
    = _
  rw [psum_all, psum_all]
  -- the denominator is a positive real
  have hL : 0 < ∑ i : Fin (T * K), ew (s i) m := by
    refine Finset.sum_pos' (fun i _ => ew_nonneg _ _) ⟨⟨0, Nat.mul_pos hT hK⟩, Finset.mem_univ _, ?_⟩
    obtain ⟨r0, hr0⟩ := h0
    rw [hr0]; exact ew_coe_pos r0 m
  have hden : (0 : EReal) + ∑ i' : Fin (T * K), Ideal.exp (s i' - (m : EReal))
      = ((∑ i : Fin (T * K), ew (s i) m : ℝ) : EReal) := by
    rw [zero_add, coe_sum]
    exact Finset.sum_congr rfl (fun i _ => exp_sub_coe (s i) (hs i) m)
  rw [hden, Ideal.div_coe hL.ne', ← EReal.coe_mul]
  have hterm : ∀ i : Fin (T * K),
      Ideal.div (Ideal.exp (s i - (m : EReal))) ((∑ i : Fin (T * K), ew (s i) m : ℝ) : EReal) * v i
        = ((ew (s i) m * (1 / ∑ i : Fin (T * K), ew (s i) m) * vr i : ℝ) : EReal) := by
    intro i
    rw [Ideal.div_coe hL.ne', exp_sub_coe (s i) (hs i) m, hvr i, ← EReal.coe_mul, ← EReal.coe_mul]
  rw [Finset.sum_congr rfl (fun i _ => hterm i), ← coe_sum, Finset.sum_mul]
  refine congrArg _ (Finset.sum_congr rfl (fun i _ => ?_))
  ring

/-- tiles from n on entirely -∞ change nothing once one tile has been seen -/
theorem run_masked_tail (T K : ℕ) (hT : 0 < T) (hK : 0 < K) (s v : Fin (T * K) → EReal)
    (hs : ∀ i, s i = ⊥ ∨ ∃ r : ℝ, s i = (r : EReal)) (h0 : ∃ r : ℝ, s ⟨0, Nat.mul_pos hT hK⟩ = (r : EReal))
    (n : ℕ) (hn : 1 ≤ n) (hmask : ∀ (t : Fin T) (j : Fin K), n ≤ t.val → s (tileIx T K t j) = ⊥) :
    run T K s v T = run T K s v n := by
  rcases Nat.lt_or_ge n T with hlt | hge
  · have main : ∀ k, n ≤ k → k ≤ T → run T K s v k = run T K s v n := by
      intro k hk
      induction k, hk using Nat.le_induction with
      | base => exact fun _ => rfl
      | succ k hk ih =>
        intro hkT
        have h : k < T := hkT
        have hbot : (fun j => s (tileIx T K ⟨k, h⟩ j)) = fun _ : Fin K => (⊥ : EReal) :=
          funext fun j => hmask ⟨k, h⟩ j hk
        rw [run_succ_of_lt T K s v k h, hbot,
          step_masked _ (run_fst_coe T K hT hK s v hs h0 k (le_trans hn hk)), ih (Nat.le_of_lt h)]
    exact main T (Nat.le_of_lt hlt) le_rfl
  · exact (run_of_ge T K s v n hge).symm

end Cert.Softmax
-- ==== Proof.KI.AttnPay.lean ====
import proofs.«147976_j43456479101605_2_alg».proof.Proof.Gen.KernelIdeal.Skeleton
import proofs.«147976_j43456479101605_2_alg».proof.Proof.LibOnlineSoftmax
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.StackMember

noncomputable section

namespace Cert.KernelIdeal.AttnPay

open Idealize.ShloMosaic Idealize.ShloMosaic.ValueIdx Cert.KernelIdeal Cert.KernelIdeal.Gen
open scoped BigOperators

/-! ## Constants and identity casts -/

/-- The named mask value is -∞ on the extended reals. -/
theorem neg_big_eq :
    Named.named (F := Ideal) Cert.KernelIdeal.κ "neg_big" (φ := .f32) 0xF149F2CA#32 = (⊥ : EReal) :=
  IdealRules.named_const.ideal_named_scalar _ _ _ _ rfl

theorem pay1_apply (r : Fin 1024) : k1_pay1 (F := Ideal) (ix2 r (0 : Fin 1)) = (⊥ : EReal) := by
  unfold k1_pay1
  simp only [shapeCast_self, broadcast_apply]
  exact neg_big_eq

theorem pay2_apply (r : Fin 1024) : k1_pay2 (F := Ideal) (ix2 r (0 : Fin 1)) = (0 : EReal) := by
  unfold k1_pay2
  simp only [shapeCast_self, broadcast_apply]
  exact Ideal.ofBits_zero_f32

theorem pay3_apply (r : Fin 1024) (h : Fin 128) : k1_pay3 (F := Ideal) (ix2 r h) = (0 : EReal) := by
  unfold k1_pay3
  simp only [shapeCast_self, broadcast_apply]
  exact Ideal.ofBits_zero_f32

theorem pay4_eq (v : FVec Ideal S1024x128 .f32) : k1_pay4 v = v := by
  unfold k1_pay4
  exact shapeCast_self _ _

theorem pay5_eq (v : FVec Ideal S1024x1 .f32) : k1_pay5 v = v := by
  unfold k1_pay5
  exact shapeCast_self _ _

theorem pay7_eq (v : FVec Ideal S1024x1 .f32) : k1_pay7 v = v := by
  unfold k1_pay7
  exact shapeCast_self _ _

/-! ## Layout operations on columns: [a] → [a, 1] → [a, b] -/

/-- An `[a]` vector cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, c)`, the column's entry of row `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-! ## The two matrix products -/

/-- A product of an `m × k` by a `k × n` matrix into the zero accumulator, at `(a, b)`: the sum over the
    contracted coordinate of the products of the entries. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

theorem dotQK_eq : dot_S1024x128_S128x1024_S1024x1024_1_0_0_1_n_n = DotDims.plain 1024 128 1024 := rfl
theorem dotPV_eq : dot_S1024x1024_S1024x128_S1024x128_1_0_0_1_n_n = DotDims.plain 1024 1024 128 := rfl

/-! ## Scores -/

/-- The unmasked scaled score of query row `r` against key row `j` of the two blocks. -/
def score (qb kb : Vec Ideal S1x1024x128 .bf16) (r j : Fin 1024) : EReal :=
  (∑ h : Fin 128, qb (ix3 (0 : Fin 1) r h) * kb (ix3 (0 : Fin 1) j h)) * Ideal.ofBits .f32 0x3CB504F3#32

theorem pay9_apply (qb kb : Vec Ideal S1x1024x128 .bf16) (r j : Fin 1024) :
    k1_pay9 qb kb (ix2 r j) = score qb kb r j := by
  unfold k1_pay9 score
  show (FloatOps.matmul dot_S1024x128_S128x1024_S1024x1024_1_0_0_1_n_n none _ _ _ (ix2 r j))
      * Ideal.ofBits .f32 0x3CB504F3#32 = _
  refine congrArg (· * Ideal.ofBits .f32 0x3CB504F3#32) ?_
  rw [dotQK_eq]
  refine (matmul_plain_zero_apply none _ _ r j).trans ?_
  refine Finset.sum_congr rfl fun h _ => ?_
  rw [shapeCast_1ab_ab_apply, transpose_ix2_apply, shapeCast_1ab_ab_apply]

/-! ## The causal mask on the diagonal block -/

/-- Column `q·1024 + j` against row `q·1024 + r` as signed 32-bit words, `q < 4`: no wrap-around, so the
    comparison is the one of `j` and `r`. -/
theorem mask_word (q : ℕ) (hq : q < 4) (r j : Fin 1024) :
    (BitVec.ofNat 32 j.val + BitVec.ofNat 32 q * 1024#32).sle (BitVec.ofNat 32 r.val + BitVec.ofNat 32 q * 1024#32)
      = decide (j.val ≤ r.val) := by
  have hj := j.isLt; have hr := r.isLt
  have e1 : BitVec.ofNat 32 j.val + BitVec.ofNat 32 q * 1024#32 = BitVec.ofNat 32 (j.val + q * 1024) := by
    simp [BitVec.ofNat_add, BitVec.ofNat_mul]
  have e2 : BitVec.ofNat 32 r.val + BitVec.ofNat 32 q * 1024#32 = BitVec.ofNat 32 (r.val + q * 1024) := by
    simp [BitVec.ofNat_add, BitVec.ofNat_mul]
  rw [e1, e2, BitVec.sle_eq_decide]
  have t1 : (BitVec.ofNat 32 (j.val + q * 1024)).toInt = ((j.val + q * 1024 : ℕ) : ℤ) := by
    rw [BitVec.toInt_eq_toNat_cond, BitVec.toNat_ofNat]
    split <;> omega
  have t2 : (BitVec.ofNat 32 (r.val + q * 1024)).toInt = ((r.val + q * 1024 : ℕ) : ℤ) := by
    rw [BitVec.toInt_eq_toNat_cond, BitVec.toNat_ofNat]
    split <;> omega
  rw [t1, t2]
  congr 1
  apply propext
  omega

theorem mask_bit (q : ℕ) (hq : q < 4) (r j : Fin 1024) :
    IntOp.cmpi .sle (IntOp.addi (BitVec.ofNat 32 j.val) (Scalar.muli (BitVec.ofNat 32 q) 1024#32))
        (IntOp.addi (BitVec.ofNat 32 r.val) (Scalar.muli (BitVec.ofNat 32 q) 1024#32))
      = BitVec.ofBool (decide (j.val ≤ r.val)) := by
  show BitVec.ofBool ((BitVec.ofNat 32 j.val + BitVec.ofNat 32 q * 1024#32).sle
    (BitVec.ofNat 32 r.val + BitVec.ofNat 32 q * 1024#32)) = _
  rw [mask_word q hq r j]

/-- On the diagonal block (query block and key block both number `q`) the masked score of row `r` against
    column `j` is the score where `j ≤ r` and -∞ elsewhere. -/
theorem pay15_apply (q : ℕ) (hq : q < 4) (qb kb : Vec Ideal S1x1024x128 .bf16) (r j : Fin 1024) :
    k1_pay15 (BitVec.ofNat 32 q) (BitVec.ofNat 32 q) qb kb (ix2 r j)
      = if j.val ≤ r.val then score qb kb r j else (⊥ : EReal) := by
  unfold k1_pay15
  show Scalar.select (IntOp.cmpi .sle
        (IntOp.addi (iota .tc S1024x1024 32 [1] _ (ix2 r j)) (Scalar.muli (BitVec.ofNat 32 q) 1024#32))
        (IntOp.addi (iota .tc S1024x1024 32 [0] _ (ix2 r j)) (Scalar.muli (BitVec.ofNat 32 q) 1024#32)))
      (k1_pay9 qb kb (ix2 r j))
      (Named.named (F := Ideal) Cert.KernelIdeal.κ "neg_big" (φ := .f32) 0xF149F2CA#32) = _
  rw [iota_single_apply, iota_single_apply, pay9_apply, neg_big_eq]
  show Scalar.select (IntOp.cmpi .sle (IntOp.addi (BitVec.ofNat 32 j.val) _) (IntOp.addi (BitVec.ofNat 32 r.val) _)) _ _ = _
  rw [mask_bit q hq r j]
  by_cases hjr : j.val ≤ r.val
  · rw [if_pos hjr, decide_eq_true hjr]; exact select_one _ _
  · rw [if_neg hjr, decide_eq_false hjr]; exact select_zero _ _

/-! ## Row reductions of a 1024 × 1024 matrix -/

/-- The index of the matrix over row `r` with column `k` inserted. -/
theorem lift_row (h : S1024x1024.Reduces [1] S1024) (r k : Fin 1024) : h.lift (ix1 r) k = ix2 r k := by
  funext c; apply Fin.ext
  match c with
  | ⟨0, _⟩ => rfl
  | ⟨1, _⟩ => rfl

theorem ofBits_neg_inf : Ideal.ofBits .f32 0xFF800000#32 = (⊥ : EReal) := by simp [Ideal.ofBits, Ideal.ieee]

/-- The row maximum from -∞: the fold of max over the row's entries. -/
theorem rowmax_apply (src : FVec Ideal S1024x1024 .f32) (h : S1024x1024.Reduces [1] S1024) (hφ : FKind.Formats .f32)
    (hacc : (0xFF800000#32 : BitVec 32) = 0xFF800000#32) (r : Fin 1024) :
    multiReduction (F := Ideal) .maximumf [1] S1024 src 0xFF800000#32 h hφ hacc (ix1 r)
      = Cert.Attn.fmax (fun k : Fin 1024 => src (ix2 r k)) := by
  refine (Ideal.multiReduction_maximumf_single src 0xFF800000#32 h hφ hacc (ix1 r)).trans ?_
  have e1 : (src ∘ h.lift (ix1 r)) = fun k : Fin 1024 => src (ix2 r k) :=
    funext fun k => congrArg src (lift_row h r k)
  show (Finset.univ : Finset (Fin 1024)).fold max (Ideal.ofBits .f32 0xFF800000#32) (src ∘ h.lift (ix1 r)) = _
  rw [ofBits_neg_inf, e1]
  rfl

/-- The row sum. -/
theorem rowsum_apply (src : FVec Ideal S1024x1024 .f32) (h : S1024x1024.Reduces [1] S1024) (hφ : FKind.Formats .f32)
    (hacc : (0x00000000#32 : BitVec 32) = 0x00000000#32) (r : Fin 1024) :
    multiReduction (F := Ideal) .add [1] S1024 src 0x00000000#32 h hφ hacc (ix1 r)
      = ∑ k : Fin 1024, src (ix2 r k) := by
  refine (Ideal.multiReduction_add_single src 0x00000000#32 h hφ hacc (ix1 r)).trans ?_
  exact Finset.sum_congr rfl fun k _ => congrArg src (lift_row h r k)

/-! ## One online-softmax update of the running state by a block of scores `S` -/

/-- the new running maximum, as a column -/
def newMax (S : FVec Ideal S1024x1024 .f32) (mv : FVec Ideal S1024x1 .f32) : FVec Ideal S1024x1 .f32 :=
  maximumf mv (shapeCast S1024x1
    (multiReduction .maximumf [1] S1024 S 0xFF800000#32 reduces_S1024x1024_S1024 (.inl rfl) rfl) shapeCasts_S1024_S1024x1)

/-- the factor exp (m - m') that rescales the old sums -/
def alpha (S : FVec Ideal S1024x1024 .f32) (mv : FVec Ideal S1024x1 .f32) : FVec Ideal S1024x1 .f32 :=
  exp (subf mv (newMax S mv))

/-- the weights exp (s - m') of the block -/
def pmat (S : FVec Ideal S1024x1024 .f32) (mv : FVec Ideal S1024x1 .f32) : FVec Ideal S1024x1024 .f32 :=
  exp (subf S (broadcastTo S1024x1024 (newMax S mv) broadcasts_S1024x1_S1024x1024))

/-- the new denominator -/
def newDen (S : FVec Ideal S1024x1024 .f32) (mv lv : FVec Ideal S1024x1 .f32) : FVec Ideal S1024x1 .f32 :=
  shapeCast S1024x1 (addf (mulf (alpha S mv) lv) (shapeCast S1024x1
    (multiReduction .add [1] S1024 (pmat S mv) 0x00000000#32 reduces_S1024x1024_S1024 (.inl rfl) rfl)
    shapeCasts_S1024_S1024x1)) shapeCasts_S1024x1_S1024x1

/-- the new numerator -/
def newNum (S : FVec Ideal S1024x1024 .f32) (mv : FVec Ideal S1024x1 .f32) (av : FVec Ideal S1024x128 .f32)
    (vb : FVec Ideal S1x1024x128 .bf16) : FVec Ideal S1024x128 .f32 :=
  addf (mulf (broadcastTo S1024x128 (alpha S mv) broadcasts_S1024x1_S1024x128) av)
    (matmul dot_S1024x1024_S1024x128_S1024x128_1_0_0_1_n_n none (truncf .bf16 (pmat S mv) bitsLt_bf16_f32)
      (shapeCast S1024x128 vb shapeCasts_S1x1024x128_S1024x128) (constant S1024x128 .f32 0x00000000#32))

variable (S : FVec Ideal S1024x1024 .f32) (mv lv : FVec Ideal S1024x1 .f32) (av : FVec Ideal S1024x128 .f32)
  (vb : FVec Ideal S1x1024x128 .bf16)

theorem newMax_apply (r : Fin 1024) :
    newMax S mv (ix2 r (0 : Fin 1)) = max (mv (ix2 r (0 : Fin 1))) (Cert.Attn.fmax fun j : Fin 1024 => S (ix2 r j)) := by
  unfold newMax
  show max (mv (ix2 r (0 : Fin 1))) (shapeCast S1024x1 _ _ (ix2 r (0 : Fin 1))) = _
  refine congrArg (max (mv (ix2 r (0 : Fin 1)))) ?_
  refine (shapeCast_a_a1_apply _ _ r 0).trans ?_
  exact rowmax_apply S _ _ _ r

theorem alpha_apply (r : Fin 1024) :
    alpha S mv (ix2 r (0 : Fin 1)) = Ideal.exp (mv (ix2 r (0 : Fin 1)) - newMax S mv (ix2 r (0 : Fin 1))) := rfl

theorem pmat_apply (r j : Fin 1024) :
    pmat S mv (ix2 r j) = Ideal.exp (S (ix2 r j) - newMax S mv (ix2 r (0 : Fin 1))) := by
  unfold pmat
  show Ideal.exp (S (ix2 r j) - broadcastTo S1024x1024 (newMax S mv) _ (ix2 r j)) = _
  rw [broadcastTo_a1_ab_apply]

theorem newDen_apply (r : Fin 1024) :
    newDen S mv lv (ix2 r (0 : Fin 1))
      = alpha S mv (ix2 r (0 : Fin 1)) * lv (ix2 r (0 : Fin 1)) + ∑ j : Fin 1024, pmat S mv (ix2 r j) := by
  unfold newDen
  rw [shapeCast_self]
  show alpha S mv (ix2 r (0 : Fin 1)) * lv (ix2 r (0 : Fin 1)) + shapeCast S1024x1 _ _ (ix2 r (0 : Fin 1)) = _
  refine congrArg (alpha S mv (ix2 r (0 : Fin 1)) * lv (ix2 r (0 : Fin 1)) + ·) ?_
  refine (shapeCast_a_a1_apply _ _ r 0).trans ?_
  exact rowsum_apply _ _ _ _ r

theorem newNum_apply (r : Fin 1024) (h : Fin 128) :
    newNum S mv av vb (ix2 r h)
      = alpha S mv (ix2 r (0 : Fin 1)) * av (ix2 r h)
        + ∑ j : Fin 1024, pmat S mv (ix2 r j) * vb (ix3 (0 : Fin 1) j h) := by
  unfold newNum
  show broadcastTo S1024x128 (alpha S mv) _ (ix2 r h) * av (ix2 r h)
      + FloatOps.matmul dot_S1024x1024_S1024x128_S1024x128_1_0_0_1_n_n none _ _ _ (ix2 r h) = _
  rw [broadcastTo_a1_ab_apply, dotPV_eq]
  refine congrArg (alpha S mv (ix2 r (0 : Fin 1)) * av (ix2 r h) + ·) ?_
  refine (matmul_plain_zero_apply none _ _ r h).trans ?_
  refine Finset.sum_congr rfl fun j _ => ?_
  rw [shapeCast_1ab_ab_apply]
  rfl

/-- The three new state entries of row `r` (and output column `h`) are the online-softmax step of the old ones by
    the row of scores and the column of values. -/
theorem step_eq (r : Fin 1024) (h : Fin 128) :
    Cert.Softmax.step (mv (ix2 r (0 : Fin 1)), lv (ix2 r (0 : Fin 1)), av (ix2 r h))
        (fun j : Fin 1024 => S (ix2 r j)) (fun j : Fin 1024 => vb (ix3 (0 : Fin 1) j h))
      = (newMax S mv (ix2 r (0 : Fin 1)), newDen S mv lv (ix2 r (0 : Fin 1)), newNum S mv av vb (ix2 r h)) := by
  rw [newDen_apply, newNum_apply, alpha_apply]
  simp only [pmat_apply, newMax_apply]
  rfl

/-! ## The payloads of the two kinds of block are these updates -/

section Payloads
variable (qb kb vb : Vec Ideal S1x1024x128 .bf16) (mv lv : Vec Ideal S1024x1 .f32) (av : Vec Ideal S1024x128 .f32)
  (a1 a2 : BitVec 32)

theorem pay10_eq : k1_pay10 qb kb mv = newMax (k1_pay9 qb kb) mv := rfl
theorem pay13_eq : k1_pay13 qb kb mv lv = newDen (k1_pay9 qb kb) mv lv := rfl
theorem pay14_eq : k1_pay14 qb kb mv av vb = newNum (k1_pay9 qb kb) mv av vb := rfl
theorem pay16_eq : k1_pay16 a1 a2 qb kb mv = newMax (k1_pay15 a1 a2 qb kb) mv := rfl
theorem pay19_eq : k1_pay19 a1 a2 qb kb mv lv = newDen (k1_pay15 a1 a2 qb kb) mv lv := rfl
theorem pay6_diag_eq :
    k1_pay6 (k1_pay18 a1 a2 qb kb mv) av (k1_pay20 a1 a2 qb kb mv) vb = newNum (k1_pay15 a1 a2 qb kb) mv av vb := by
  unfold k1_pay6
  show shapeCast S1024x128 _ _ = _
  rw [shapeCast_self]
  rfl

/-- A block below the diagonal: the stored maximum, denominator and numerator of row `r` (output column `h`) are
    the online-softmax step of the loaded ones by the row of scores against the block's values. -/
theorem offdiag_step (r : Fin 1024) (h : Fin 128) :
    Cert.Softmax.step (mv (ix2 r (0 : Fin 1)), lv (ix2 r (0 : Fin 1)), av (ix2 r h))
        (fun j : Fin 1024 => k1_pay9 qb kb (ix2 r j)) (fun j : Fin 1024 => vb (ix3 (0 : Fin 1) j h))
      = (k1_pay10 qb kb mv (ix2 r (0 : Fin 1)), k1_pay13 qb kb mv lv (ix2 r (0 : Fin 1)),
          k1_pay14 qb kb mv av vb (ix2 r h)) :=
  step_eq (k1_pay9 qb kb) mv lv av vb r h

theorem pay10_step (r : Fin 1024) (h : Fin 128) :
    k1_pay10 qb kb mv (ix2 r (0 : Fin 1))
      = (Cert.Softmax.step (mv (ix2 r (0 : Fin 1)), lv (ix2 r (0 : Fin 1)), av (ix2 r h))
          (fun j : Fin 1024 => k1_pay9 qb kb (ix2 r j)) (fun j : Fin 1024 => vb (ix3 (0 : Fin 1) j h))).1 :=
  (congrArg Prod.fst (offdiag_step qb kb vb mv lv av r h)).symm

theorem pay13_step (r : Fin 1024) (h : Fin 128) :
    k1_pay13 qb kb mv lv (ix2 r (0 : Fin 1))
      = (Cert.Softmax.step (mv (ix2 r (0 : Fin 1)), lv (ix2 r (0 : Fin 1)), av (ix2 r h))
          (fun j : Fin 1024 => k1_pay9 qb kb (ix2 r j)) (fun j : Fin 1024 => vb (ix3 (0 : Fin 1) j h))).2.1 :=
  (congrArg (fun t => t.2.1) (offdiag_step qb kb vb mv lv av r h)).symm

theorem pay14_step (r : Fin 1024) (h : Fin 128) :
    k1_pay14 qb kb mv av vb (ix2 r h)
      = (Cert.Softmax.step (mv (ix2 r (0 : Fin 1)), lv (ix2 r (0 : Fin 1)), av (ix2 r h))
          (fun j : Fin 1024 => k1_pay9 qb kb (ix2 r j)) (fun j : Fin 1024 => vb (ix3 (0 : Fin 1) j h))).2.2 :=
  (congrArg (fun t => t.2.2) (offdiag_step qb kb vb mv lv av r h)).symm

/-- The diagonal block: the same step by the masked scores. -/
theorem diag_step (r : Fin 1024) (h : Fin 128) :
    Cert.Softmax.step (mv (ix2 r (0 : Fin 1)), lv (ix2 r (0 : Fin 1)), av (ix2 r h))
        (fun j : Fin 1024 => k1_pay15 a1 a2 qb kb (ix2 r j)) (fun j : Fin 1024 => vb (ix3 (0 : Fin 1) j h))
      = (k1_pay16 a1 a2 qb kb mv (ix2 r (0 : Fin 1)), k1_pay19 a1 a2 qb kb mv lv (ix2 r (0 : Fin 1)),
          k1_pay6 (k1_pay18 a1 a2 qb kb mv) av (k1_pay20 a1 a2 qb kb mv) vb (ix2 r h)) := by
  rw [pay6_diag_eq]
  exact step_eq (k1_pay15 a1 a2 qb kb) mv lv av vb r h

theorem pay16_step (r : Fin 1024) (h : Fin 128) :
    k1_pay16 a1 a2 qb kb mv (ix2 r (0 : Fin 1))
      = (Cert.Softmax.step (mv (ix2 r (0 : Fin 1)), lv (ix2 r (0 : Fin 1)), av (ix2 r h))
          (fun j : Fin 1024 => k1_pay15 a1 a2 qb kb (ix2 r j)) (fun j : Fin 1024 => vb (ix3 (0 : Fin 1) j h))).1 :=
  (congrArg Prod.fst (diag_step qb kb vb mv lv av a1 a2 r h)).symm

theorem pay19_step (r : Fin 1024) (h : Fin 128) :
    k1_pay19 a1 a2 qb kb mv lv (ix2 r (0 : Fin 1))
      = (Cert.Softmax.step (mv (ix2 r (0 : Fin 1)), lv (ix2 r (0 : Fin 1)), av (ix2 r h))
          (fun j : Fin 1024 => k1_pay15 a1 a2 qb kb (ix2 r j)) (fun j : Fin 1024 => vb (ix3 (0 : Fin 1) j h))).2.1 :=
  (congrArg (fun t => t.2.1) (diag_step qb kb vb mv lv av a1 a2 r h)).symm

theorem pay6_diag_step (r : Fin 1024) (h : Fin 128) :
    k1_pay6 (k1_pay18 a1 a2 qb kb mv) av (k1_pay20 a1 a2 qb kb mv) vb (ix2 r h)
      = (Cert.Softmax.step (mv (ix2 r (0 : Fin 1)), lv (ix2 r (0 : Fin 1)), av (ix2 r h))
          (fun j : Fin 1024 => k1_pay15 a1 a2 qb kb (ix2 r j)) (fun j : Fin 1024 => vb (ix3 (0 : Fin 1) j h))).2.2 :=
  (congrArg (fun t => t.2.2) (diag_step qb kb vb mv lv av a1 a2 r h)).symm

end Payloads

/-! ## The last store: the numerator over the denominator -/

theorem ofBits_one : Ideal.ofBits .f32 0x3F800000#32 = (1 : EReal) := by
  simp [Ideal.ofBits, Ideal.ieee, -EReal.coe_mul]; norm_num

/-- What is written back at the last key block: the numerator times the reciprocal of the denominator where the
    denominator is positive, times zero elsewhere. -/
theorem pay8_apply (lv : Vec Ideal S1024x1 .f32) (av : Vec Ideal S1024x128 .f32) (r : Fin 1024) (h : Fin 128) :
    k1_pay8 lv av (ix3 (0 : Fin 1) r h)
      = av (ix2 r h) * (if 0 < lv (ix2 r (0 : Fin 1)) then Ideal.div 1 (lv (ix2 r (0 : Fin 1))) else 0) := by
  unfold k1_pay8
  refine (shapeCast_ab_1ab_apply _ _ (0 : Fin 1) r h).trans ?_
  show av (ix2 r h) * broadcastTo S1024x128 _ _ (ix2 r h) = _
  rw [broadcastTo_a1_ab_apply]
  show av (ix2 r h) * Scalar.select (Ideal.cmp .ogt (lv (ix2 r (0 : Fin 1))) (Ideal.ofBits .f32 0x00000000#32))
      (Ideal.div (Ideal.ofBits .f32 0x3F800000#32) (lv (ix2 r (0 : Fin 1)))) (Ideal.ofBits .f32 0x00000000#32) = _
  rw [Ideal.ofBits_zero_f32, ofBits_one]
  refine congrArg (av (ix2 r h) * ·) ?_
  by_cases hpos : 0 < lv (ix2 r (0 : Fin 1))
  · rw [if_pos hpos]
    show Scalar.select (BitVec.ofBool (decide (0 < lv (ix2 r (0 : Fin 1))))) _ _ = _
    rw [decide_eq_true hpos]; exact select_one _ _
  · rw [if_neg hpos]
    show Scalar.select (BitVec.ofBool (decide (0 < lv (ix2 r (0 : Fin 1))))) _ _ = _
    rw [decide_eq_false hpos]; exact select_zero _ _

/-- With a positive real denominator and a real numerator the written value is their quotient. -/
theorem pay8_coe (lv : Vec Ideal S1024x1 .f32) (av : Vec Ideal S1024x128 .f32) (r : Fin 1024) (h : Fin 128)
    (d a : ℝ) (hd : 0 < d) (hl : lv (ix2 r (0 : Fin 1)) = (d : EReal)) (ha : av (ix2 r h) = (a : EReal)) :
    k1_pay8 lv av (ix3 (0 : Fin 1) r h) = Ideal.div (a : EReal) (d : EReal) := by
  rw [pay8_apply, hl, ha, if_pos (EReal.coe_pos.mpr hd), Ideal.div_coe hd.ne', Ideal.div_coe hd.ne', one_mul]

end Cert.KernelIdeal.AttnPay
-- ==== Proof.KI.AttnStep.lean ====
/-
  The attention region's state at the ideal values, row by row: at every point where the body runs an update, the
  running maximum, denominator and numerator of query row r (the numerator at output column h) after the point are
  one online-softmax step of those before it — by the row's scores against the point's key block (masked below the
  diagonal entry on the diagonal block) and the value block's column h —, from (-∞, 0, 0) at the first key block;
  and the output block stored on the diagonal is the new numerator times the reciprocal of the new denominator.
-/
import proofs.«147976_j43456479101605_2_alg».proof.Proof.KI.AttnState
import proofs.«147976_j43456479101605_2_alg».proof.Proof.KI.AttnPay
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

open Idealize.ShloMosaic.ValueIdx Cert.KernelIdeal.AttnPay

section AtIdeal
variable (V : (c : Dev nD) → (b : Ref sig .tc) → Buf (Elt Ideal) ((c : Thread nD τ).loc b))

/-- the point's query, key and value blocks -/
abbrev qblk (c : Dev nD) (t : Fin cfg1.N) : Vec Ideal S1x1024x128 .bf16 := iblk1 V c 0 t
abbrev kblk (c : Dev nD) (t : Fin cfg1.N) : Vec Ideal S1x1024x128 .bf16 := iblk1 V c 1 t
abbrev vblk (c : Dev nD) (t : Fin cfg1.N) : Vec Ideal S1x1024x128 .bf16 := iblk1 V c 2 t

/-- the query block number and the key block number of a point, as the body reads them -/
abbrev qi32 (t : Fin cfg1.N) : BitVec 32 := BitVec.ofNat 32 ((grid1.coords t) 1).val
abbrev ki32 (t : Fin cfg1.N) : BitVec 32 := BitVec.ofNat 32 ((grid1.coords t) 2).val

/-- a state's running maximum and denominator of row r and its numerator at (r, h) -/
def row (p : St Ideal) (r : Fin 1024) (h : Fin 128) : EReal × EReal × EReal :=
  (p.2.1 (ix2 r (0 : Fin 1)), p.2.2.1 (ix2 r (0 : Fin 1)), p.2.2.2 (ix2 r h))

/-- the row of unmasked scores of query row r against the point's key block -/
def srow (c : Dev nD) (t : Fin cfg1.N) (r : Fin 1024) : Fin 1024 → EReal :=
  fun j => k1_pay9 (qblk V c t) (kblk V c t) (ix2 r j)
/-- the same with the body's mask applied -/
def mrow (c : Dev nD) (t : Fin cfg1.N) (r : Fin 1024) : Fin 1024 → EReal :=
  fun j => k1_pay15 (qi32 t) (ki32 t) (qblk V c t) (kblk V c t) (ix2 r j)
/-- column h of the point's value block -/
def vcol (c : Dev nD) (t : Fin cfg1.N) (h : Fin 128) : Fin 1024 → EReal :=
  fun j => vblk V c t (ix3 (0 : Fin 1) j h)

theorem srow_apply (c : Dev nD) (t : Fin cfg1.N) (r j : Fin 1024) :
    srow V c t r j = score (qblk V c t) (kblk V c t) r j := pay9_apply _ _ r j

/-- on the diagonal the two block numbers are one number below 4 -/
theorem diag_coords : ∀ t : Fin cfg1.N, t.val % 4 = t.val / 4 % 4 →
    ((grid1.coords t) 1).val = ((grid1.coords t) 2).val ∧ ((grid1.coords t) 2).val < 4 :=
  (by decide +kernel : ∀ t : Fin grid1.N, t.val % 4 = t.val / 4 % 4 →
    ((grid1.coords t) 1).val = ((grid1.coords t) 2).val ∧ ((grid1.coords t) 2).val < 4)

/-- so the diagonal block's masked score of row r against column j is the score where j ≤ r and -∞ elsewhere -/
theorem mrow_apply (c : Dev nD) (t : Fin cfg1.N) (heq : t.val % 4 = t.val / 4 % 4) (r j : Fin 1024) :
    mrow V c t r j = if j.val ≤ r.val then score (qblk V c t) (kblk V c t) r j else (⊥ : EReal) := by
  obtain ⟨e, hlt⟩ := diag_coords t heq
  unfold mrow qi32 ki32
  rw [e]
  exact pay15_apply _ hlt _ _ r j

/-- the reset state's row -/
theorem reset_row (r : Fin 1024) (h : Fin 128) :
    ((k1_pay1 (F := Ideal)) (ix2 r (0 : Fin 1)), (k1_pay2 (F := Ideal)) (ix2 r (0 : Fin 1)), (k1_pay3 (F := Ideal)) (ix2 r h))
      = ((⊥ : EReal), (0 : EReal), (0 : EReal)) := by
  rw [pay1_apply, pay2_apply, pay3_apply]

/-- 0 < ki < qi: one step by the unmasked scores. -/
theorem stC_row (c : Dev nD) (t : Fin cfg1.N) (h0 : ¬ t.val % 4 = 0) (hlt : t.val % 4 < t.val / 4 % 4) (p : St Ideal)
    (r : Fin 1024) (h : Fin 128) :
    row (stC V c t h0 hlt p) r h = Cert.Softmax.step (row p r h) (srow V c t r) (vcol V c t h) := by
  rw [stC_eq]
  unfold row
  dsimp only
  rw [pay5_eq, pay4_eq]
  exact (offdiag_step (qblk V c t) (kblk V c t) (vblk V c t) p.2.1 p.2.2.1 p.2.2.2 r h).symm

/-- ki = 0 < qi: one step from (-∞, 0, 0) by the unmasked scores. -/
theorem stB_row (c : Dev nD) (t : Fin cfg1.N) (h0 : t.val % 4 = 0) (hlt : t.val % 4 < t.val / 4 % 4) (o : Vec Ideal S1x1024x128 .f32)
    (r : Fin 1024) (h : Fin 128) :
    row (stB V c t h0 hlt o) r h = Cert.Softmax.step ((⊥ : EReal), (0 : EReal), (0 : EReal)) (srow V c t r) (vcol V c t h) := by
  rw [stB_eq]
  unfold row
  dsimp only
  rw [pay5_eq, pay4_eq]
  refine (offdiag_step (qblk V c t) (kblk V c t) (vblk V c t) (k1_pay1 (F := Ideal)) (k1_pay2 (F := Ideal))
    (k1_pay3 (F := Ideal)) r h).symm.trans ?_
  rw [pay1_apply, pay2_apply, pay3_apply]
  rfl

/-- 0 < ki = qi: one step by the masked scores. -/
theorem stD_row (c : Dev nD) (t : Fin cfg1.N) (h0 : ¬ t.val % 4 = 0) (heq : t.val % 4 = t.val / 4 % 4) (p : St Ideal)
    (r : Fin 1024) (h : Fin 128) :
    row (stD V c t h0 heq p) r h = Cert.Softmax.step (row p r h) (mrow V c t r) (vcol V c t h) := by
  rw [stD_eq]
  unfold row
  dsimp only
  rw [pay7_eq]
  exact (diag_step (qblk V c t) (kblk V c t) (vblk V c t) p.2.1 p.2.2.1 p.2.2.2 (qi32 t) (ki32 t) r h).symm

/-- ki = 0 = qi: one step from (-∞, 0, 0) by the masked scores. -/
theorem stA_row (c : Dev nD) (t : Fin cfg1.N) (h0 : t.val % 4 = 0) (heq : t.val % 4 = t.val / 4 % 4)
    (r : Fin 1024) (h : Fin 128) :
    row (stA V c t h0 heq) r h = Cert.Softmax.step ((⊥ : EReal), (0 : EReal), (0 : EReal)) (mrow V c t r) (vcol V c t h) := by
  rw [stA_eq]
  unfold row
  dsimp only
  rw [pay7_eq]
  refine (diag_step (qblk V c t) (kblk V c t) (vblk V c t) (k1_pay1 (F := Ideal)) (k1_pay2 (F := Ideal))
    (k1_pay3 (F := Ideal)) (qi32 t) (ki32 t) r h).symm.trans ?_
  rw [pay1_apply, pay2_apply, pay3_apply]
  rfl

/-- The output block stored on the diagonal after the first key block: the new numerator times the reciprocal of the
    new denominator (zero where the denominator is not positive). -/
theorem stD_out (c : Dev nD) (t : Fin cfg1.N) (h0 : ¬ t.val % 4 = 0) (heq : t.val % 4 = t.val / 4 % 4) (p : St Ideal)
    (r : Fin 1024) (h : Fin 128) :
    (stD V c t h0 heq p).1 (ix3 (0 : Fin 1) r h)
      = (row (stD V c t h0 heq p) r h).2.2
        * (if 0 < (row (stD V c t h0 heq p) r h).2.1 then Ideal.div 1 (row (stD V c t h0 heq p) r h).2.1 else 0) := by
  rw [stD_eq]
  exact pay8_apply _ _ r h

/-- The same at the first key block. -/
theorem stA_out (c : Dev nD) (t : Fin cfg1.N) (h0 : t.val % 4 = 0) (heq : t.val % 4 = t.val / 4 % 4)
    (r : Fin 1024) (h : Fin 128) :
    (stA V c t h0 heq).1 (ix3 (0 : Fin 1) r h)
      = (row (stA V c t h0 heq) r h).2.2
        * (if 0 < (row (stA V c t h0 heq) r h).2.1 then Ideal.div 1 (row (stA V c t h0 heq) r h).2.1 else 0) := by
  rw [stA_eq]
  exact pay8_apply _ _ r h

end AtIdeal

end Cert.KernelIdeal.Hand

end
-- ==== Proof.KI.AttnBlocks.lean ====
/- REGION 1 of @main (the attention kernel) read through its windows. The grid has 64 points, point t = 16 b + 4 qi + ki
   for batch b, query block qi and key block ki. A window's block is [1, 1024, 128] of a [4, 4096, 128] array: the query
   and the output windows sit at block (b, qi, 0), the key and value windows at (b, min ki qi, 0). So an element
   (0, r, h) of a block is the array's element (b, 1024 * blockrow + r, h). The output block is written back at the
   last key block of each (b, qi) only, so the array the region leaves is, at (b, tt, h), what the body left in the
   output's staging buffer at point 16 b + 4 (tt / 1024) + 3, read at row tt mod 1024; those sixteen write-backs cover
   the array. -/
import proofs.«147976_j43456479101605_2_alg».proof.Proof.KI.AttnBody
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F] [Named F]

-- the buffer contents when the region is entered
variable (V : (c : Dev nD) → (b : Ref sig .tc) → Buf (Elt F) ((c : Thread nD τ).loc b))

/-! ## The grid decoded -/

/-- A point's number is below 64. -/
theorem attn_lt64 (t : Fin cfg1.N) : t.val < 64 := lt_of_lt_of_eq t.isLt N_1

/-- A rank-3 index's coordinates are below the literal extents. -/
theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- The block index maps over the 64 grid points, with t = 16 b + 4 qi + ki: the query and the output at (b, qi, 0), the
    key and the value at (b, min ki qi, 0). -/
theorem attn_idx_facts : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = min (t.val % 4) (t.val / 4 % 4) ∧ win1_1.index t (2 : Fin 3) = 0
    ∧ win1_2.index t (0 : Fin 3) = t.val / 16 ∧ win1_2.index t (1 : Fin 3) = min (t.val % 4) (t.val / 4 % 4) ∧ win1_2.index t (2 : Fin 3) = 0
    ∧ win1_3.index t (0 : Fin 3) = t.val / 16 ∧ win1_3.index t (1 : Fin 3) = t.val / 4 % 4 ∧ win1_3.index t (2 : Fin 3) = 0 :=
  (by decide +kernel : ∀ t : Fin grid1.N, _)

/-! ## The input blocks at an index -/

/-- The query block at point t is rows 1024 qi .. 1024 qi + 1023 of batch b of the query array. -/
theorem iblk1_0_read (c : Dev nD) (t : Fin cfg1.N) (x : S1x1024x128.Idx) (i : S4x4096x128.Idx)
    (h0 : (i 0).val = t.val / 16 + (x 0).val) (h1 : (i 1).val = (t.val / 4 % 4) * 1024 + (x 1).val) (h2 : (i 2).val = (x 2).val) :
    (iblk1 V c 0 t : Vec F S1x1024x128 .bf16) x = (V c main_v4 : S4x4096x128.Idx → Elt F .bf16) i := by
  obtain ⟨e0, e1, e2, -⟩ := attn_idx_facts t
  unfold iblk1
  rw [View.read_apply]
  show (V c main_v4 : S4x4096x128.Idx → Elt F .bf16) _ = V c main_v4 _
  refine congrArg _ ?_
  funext a
  apply Fin.ext
  match a with
  | ⟨0, _⟩ => show win1_0.index t (0 : Fin 3) * 1 + 1 * (x 0).val = (i 0).val; rw [e0, h0]; omega
  | ⟨1, _⟩ => show win1_0.index t (1 : Fin 3) * 1024 + 1 * (x 1).val = (i 1).val; rw [e1, h1]; omega
  | ⟨2, _⟩ => show win1_0.index t (2 : Fin 3) * 128 + 1 * (x 2).val = (i 2).val; rw [e2, h2]; omega

/-- The same at coordinates: element (0, r, h) of the block. -/
theorem iblk1_0_apply (c : Dev nD) (t : Fin cfg1.N) (r : Fin 1024) (h : Fin 128) :
    (iblk1 V c 0 t : Vec F S1x1024x128 .bf16) (ix3 (0 : Fin 1) r h)
      = (V c main_v4 : S4x4096x128.Idx → Elt F .bf16)
          (ix3 (⟨t.val / 16, by have := attn_lt64 t; omega⟩ : Fin 4) (⟨(t.val / 4 % 4) * 1024 + r.val, by have := attn_lt64 t; have := r.isLt; omega⟩ : Fin 4096) h) :=
  iblk1_0_read V c t _ _ (Nat.add_zero _).symm rfl rfl

/-- The key block at point t is rows 1024 min(ki, qi) .. of batch b of the key array. -/
theorem iblk1_1_read (c : Dev nD) (t : Fin cfg1.N) (x : S1x1024x128.Idx) (i : S4x4096x128.Idx)
    (h0 : (i 0).val = t.val / 16 + (x 0).val) (h1 : (i 1).val = (min (t.val % 4) (t.val / 4 % 4)) * 1024 + (x 1).val) (h2 : (i 2).val = (x 2).val) :
    (iblk1 V c 1 t : Vec F S1x1024x128 .bf16) x = (V c main_v5 : S4x4096x128.Idx → Elt F .bf16) i := by
  obtain ⟨-, -, -, e0, e1, e2, -⟩ := attn_idx_facts t
  unfold iblk1
  rw [View.read_apply]
  show (V c main_v5 : S4x4096x128.Idx → Elt F .bf16) _ = V c main_v5 _
  refine congrArg _ ?_
  funext a
  apply Fin.ext
  match a with
  | ⟨0, _⟩ => show win1_1.index t (0 : Fin 3) * 1 + 1 * (x 0).val = (i 0).val; rw [e0, h0]; omega
  | ⟨1, _⟩ => show win1_1.index t (1 : Fin 3) * 1024 + 1 * (x 1).val = (i 1).val; rw [e1, h1]; omega
  | ⟨2, _⟩ => show win1_1.index t (2 : Fin 3) * 128 + 1 * (x 2).val = (i 2).val; rw [e2, h2]; omega

/-- The same at coordinates: element (0, r, h) of the block. -/
theorem iblk1_1_apply (c : Dev nD) (t : Fin cfg1.N) (r : Fin 1024) (h : Fin 128) :
    (iblk1 V c 1 t : Vec F S1x1024x128 .bf16) (ix3 (0 : Fin 1) r h)
      = (V c main_v5 : S4x4096x128.Idx → Elt F .bf16)
          (ix3 (⟨t.val / 16, by have := attn_lt64 t; omega⟩ : Fin 4) (⟨(min (t.val % 4) (t.val / 4 % 4)) * 1024 + r.val, by have := attn_lt64 t; have := r.isLt; omega⟩ : Fin 4096) h) :=
  iblk1_1_read V c t _ _ (Nat.add_zero _).symm rfl rfl

/-- The value block at point t is rows 1024 min(ki, qi) .. of batch b of the value array. -/
theorem iblk1_2_read (c : Dev nD) (t : Fin cfg1.N) (x : S1x1024x128.Idx) (i : S4x4096x128.Idx)
    (h0 : (i 0).val = t.val / 16 + (x 0).val) (h1 : (i 1).val = (min (t.val % 4) (t.val / 4 % 4)) * 1024 + (x 1).val) (h2 : (i 2).val = (x 2).val) :
    (iblk1 V c 2 t : Vec F S1x1024x128 .bf16) x = (V c main_v6 : S4x4096x128.Idx → Elt F .bf16) i := by
  obtain ⟨-, -, -, -, -, -, e0, e1, e2, -⟩ := attn_idx_facts t
  unfold iblk1
  rw [View.read_apply]
  show (V c main_v6 : S4x4096x128.Idx → Elt F .bf16) _ = V c main_v6 _
  refine congrArg _ ?_
  funext a
  apply Fin.ext
  match a with
  | ⟨0, _⟩ => show win1_2.index t (0 : Fin 3) * 1 + 1 * (x 0).val = (i 0).val; rw [e0, h0]; omega
  | ⟨1, _⟩ => show win1_2.index t (1 : Fin 3) * 1024 + 1 * (x 1).val = (i 1).val; rw [e1, h1]; omega
  | ⟨2, _⟩ => show win1_2.index t (2 : Fin 3) * 128 + 1 * (x 2).val = (i 2).val; rw [e2, h2]; omega

/-- The same at coordinates: element (0, r, h) of the block. -/
theorem iblk1_2_apply (c : Dev nD) (t : Fin cfg1.N) (r : Fin 1024) (h : Fin 128) :
    (iblk1 V c 2 t : Vec F S1x1024x128 .bf16) (ix3 (0 : Fin 1) r h)
      = (V c main_v6 : S4x4096x128.Idx → Elt F .bf16)
          (ix3 (⟨t.val / 16, by have := attn_lt64 t; omega⟩ : Fin 4) (⟨(min (t.val % 4) (t.val / 4 % 4)) * 1024 + r.val, by have := attn_lt64 t; have := r.isLt; omega⟩ : Fin 4096) h) :=
  iblk1_2_read V c t _ _ (Nat.add_zero _).symm rfl rfl

/-! ## The output array from its write-backs -/

/-- The state after a point depends on the point's number only, and is read at equal indices. -/
theorem outsAt1_out_congr (c : Dev nD) {n n' : ℕ} (hn : n < cfg1.N) (hn' : n' < cfg1.N) (e : n = n')
    {x x' : S1x1024x128.Idx} (ex : x = x') :
    (outsAt1 V c n hn).1 x = (outsAt1 V c n' hn').1 x' := by
  subst e; subst ex; rfl

/-- The output array as ONE function of the states the points leave: at (b, tt, h), the output block's staging buffer
    after point 16 b + 4 (tt / 1024) + 3 -- the last key block of query block tt / 1024 --, at row tt mod 1024. -/
def attnOutG (c : Dev nD) : S4x4096x128.Idx → Elt F .f32 := fun i =>
  (outsAt1 V c (16 * (i 0).val + 4 * ((i 1).val / 1024) + 3)
      (by rw [show cfg1.N = 64 from N_1]; have := idx3_lt0 i; have := idx3_lt1 i; omega)).1
    (ix3 (0 : Fin 1) (⟨(i 1).val % 1024, Nat.mod_lt _ (by decide)⟩ : Fin 1024) (⟨(i 2).val, idx3_lt2 i⟩ : Fin 128))

/-- What a write-back point t (ki = 3) writes back is block t of `attnOutG`: the window is uncut, so the write-back is
    the staging buffer as the body left it, and the point that `attnOutG` names for an element of block t is t itself. -/
theorem flushed1_3_eq (c : Dev nD) (t : Fin cfg1.N) (hf : (cfg1.win 3).flush t = true) :
    (dat1 V c).flushed 3 t = ((cfg1.win 3).blk t).view.read (Elt F) (attnOutG V c) := by
  have h3 : t.val % 4 = 3 := (flushAt1_3 t).mp hf
  have hlt := attn_lt64 t
  obtain ⟨-, -, -, -, -, -, -, -, -, g0, g1, g2⟩ := attn_idx_facts t
  show (cfg1.win 3).cut (grid1.coords t) ((dat1 V c).after 3 t) = _
  rw [after1_3]
  funext j
  obtain ⟨z, p, q, rfl⟩ : ∃ (z : Fin 1) (p : Fin 1024) (q : Fin 128), j = ix3 z p q := ⟨j 0, j 1, j 2, eq_ix3 j⟩
  have hz : z.val = 0 := by have := z.isLt; omega
  have c0 : ((((cfg1.win 3).blk t).view.emb (ix3 z p q)) 0).val = t.val / 16 := by
    show win1_3.index t (0 : Fin 3) * 1 + 1 * z.val = _; rw [g0]; omega
  have c1 : ((((cfg1.win 3).blk t).view.emb (ix3 z p q)) 1).val = (t.val / 4 % 4) * 1024 + p.val := by
    show win1_3.index t (1 : Fin 3) * 1024 + 1 * p.val = _; rw [g1]; omega
  have c2 : ((((cfg1.win 3).blk t).view.emb (ix3 z p q)) 2).val = q.val := by
    show win1_3.index t (2 : Fin 3) * 128 + 1 * q.val = _; rw [g2]; omega
  show (outsAt1 V c t.val t.isLt).1 (ix3 z p q) = attnOutG V c (((cfg1.win 3).blk t).view.emb (ix3 z p q))
  unfold attnOutG
  refine outsAt1_out_congr V c _ _ ?_ ?_
  · rw [c0, c1]; have := p.isLt; omega
  · funext a
    match a with
    | ⟨0, _⟩ => exact Fin.ext hz
    | ⟨1, _⟩ => exact Fin.ext (by show p.val = _ % 1024; rw [c1]; have := p.isLt; omega)
    | ⟨2, _⟩ => exact Fin.ext c2.symm

/-- An index of the output array is in point t's block iff each coordinate is in the block's range on its axis. -/
theorem mem_blk1_3 (t : Fin cfg1.N) (i : S4x4096x128.Idx) :
    i ∈ ((cfg1.win 3).blk t).view.set ↔ ∀ a : Fin 3, win1_3.index t a * S1x1024x128.size a ≤ (i a).val ∧ (i a).val < win1_3.index t a * S1x1024x128.size a + S1x1024x128.size a := by
  show i ∈ ((View.whole main_v7).slice (win1_3.rect t)).set ↔ _
  rw [View.set_slice_whole, Rect.mem_set_unit]
  exact Iff.rfl

/-- Every index (b, tt, h) of the output array is in the block of the write-back point 16 b + 4 (tt / 1024) + 3. -/
theorem cover1_3 (i : S4x4096x128.Idx) : ∃ t : Fin cfg1.N, (cfg1.win 3).flush t = true ∧ i ∈ ((cfg1.win 3).blk t).view.set := by
  have hN : cfg1.N = 64 := N_1
  have hi0 : (i 0).val < 4 := idx3_lt0 i
  have hi1 : (i 1).val < 4096 := idx3_lt1 i
  have hi2 : (i 2).val < 128 := idx3_lt2 i
  obtain ⟨n, hn⟩ : ∃ n, n = 16 * (i 0).val + 4 * ((i 1).val / 1024) + 3 := ⟨_, rfl⟩
  have hnN : n < cfg1.N := by rw [hN]; omega
  refine ⟨⟨n, hnN⟩, (flushAt1_3 _).mpr (by show n % 4 = 3; omega), ?_⟩
  rw [mem_blk1_3]
  obtain ⟨-, -, -, -, -, -, -, -, -, g0, g1, g2⟩ := attn_idx_facts ⟨n, hnN⟩
  intro a
  match a with
  | ⟨0, _⟩ =>
    show win1_3.index _ (0 : Fin 3) * 1 ≤ (i 0).val ∧ (i 0).val < win1_3.index _ (0 : Fin 3) * 1 + 1
    rw [g0]; show n / 16 * 1 ≤ (i 0).val ∧ (i 0).val < n / 16 * 1 + 1; omega
  | ⟨1, _⟩ =>
    show win1_3.index _ (1 : Fin 3) * 1024 ≤ (i 1).val ∧ (i 1).val < win1_3.index _ (1 : Fin 3) * 1024 + 1024
    rw [g1]; show n / 4 % 4 * 1024 ≤ (i 1).val ∧ (i 1).val < n / 4 % 4 * 1024 + 1024; omega
  | ⟨2, _⟩ =>
    show win1_3.index _ (2 : Fin 3) * 128 ≤ (i 2).val ∧ (i 2).val < win1_3.index _ (2 : Fin 3) * 128 + 128
    rw [g2]; omega

/-- The output array after the region is `attnOutG`. -/
theorem final1_3 (c : Dev nD) : (dat1 V c).arrAt 3 cfg1.N = attnOutG V c :=
  (dat1 V c).arrAt_eq_of_cover 3 (attnOutG V c) (fun t hf => flushed1_3_eq V c t hf) cover1_3

/-- The output array at (b, tt, h): what the body left in the output's staging buffer at the last key block of query
    block tt / 1024 of batch b, at row tt mod 1024. -/
theorem arr1_3 (c : Dev nD) (b : Fin 4) (tt : Fin 4096) (h : Fin 128) :
    ((dat1 V c).arrAt 3 cfg1.N : S4x4096x128.Idx → Elt F .f32) (ix3 b tt h)
      = (outsAt1 V c (16 * b.val + 4 * (tt.val / 1024) + 3)
            (by rw [show cfg1.N = 64 from N_1]; have := b.isLt; have := tt.isLt; omega)).1
          (ix3 (0 : Fin 1) (⟨tt.val % 1024, Nat.mod_lt _ (by decide)⟩ : Fin 1024) h) := by
  rw [final1_3]; rfl

end Cert.KernelIdeal.Hand

end
-- ==== Proof.KI.AttnTiles.lean ====
/- The attention region's blocks against the specification. With the query, key and value arrays the region finds
   equal to the three projections of the token rows, the query block at point t = 16 b + 4 qi + ki holds rows
   1024 qi .. of sequence b's queries, and the key and value blocks hold tile min(ki, qi) of its keys and values. So
   wherever the body runs an update (ki ≤ qi) the row of scores it forms against the key block is tile ki of the
   specification's score row of query row 1024 qi + r: strictly below the diagonal every key of the tile is before
   the query row, so the causal test holds and nothing is masked; on the diagonal block the test is j ≤ r, which is
   the body's own mask. The value block's column h is tile ki of the value projection's column h. -/
import proofs.«147976_j43456479101605_2_alg».proof.Proof.KI.AttnStep
import proofs.«147976_j43456479101605_2_alg».proof.Proof.KI.AttnBlocks
import proofs.«147976_j43456479101605_2_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.KernelIdeal.AttnPay
open scoped BigOperators

/-! ## A point's sequence, query row and key tile -/

/-- the sequence a point works on: b of t = 16 b + 4 qi + ki -/
def attnB (t : Fin cfg1.N) : Fin 4 := ⟨t.val / 16, by have := attn_lt64 t; omega⟩
/-- the query row that row r of the point's query block is: 1024 qi + r -/
def attnRow (t : Fin cfg1.N) (r : Fin 1024) : Fin 4096 :=
  ⟨(t.val / 4 % 4) * 1024 + r.val, by have := attn_lt64 t; have := r.isLt; omega⟩
/-- the key tile a point reads: ki -/
abbrev attnKi (t : Fin cfg1.N) : Fin 4 := ⟨t.val % 4, Nat.mod_lt _ (by decide)⟩

theorem attnB_pred (t : Fin cfg1.N) (h : t.val % 4 ≠ 0) : attnB ⟨t.val - 1, prevLt t⟩ = attnB t := by
  apply Fin.ext; show (t.val - 1) / 16 = t.val / 16; omega
theorem attnRow_pred (t : Fin cfg1.N) (h : t.val % 4 ≠ 0) (r : Fin 1024) : attnRow ⟨t.val - 1, prevLt t⟩ r = attnRow t r := by
  apply Fin.ext; show (t.val - 1) / 4 % 4 * 1024 + r.val = t.val / 4 % 4 * 1024 + r.val; omega

section AtIdeal
variable (V : (c : Dev nD) → (b : Ref sig .tc) → Buf (Elt Ideal) ((c : Thread nD τ).loc b)) (c : Dev nD)
variable {x : Cert.Spec.XIdx → EReal} {wk wq wv : Cert.Spec.WIdx → EReal}

/-! ## The blocks' entries as projections -/

/-- An entry of the query block is the query projection of the point's query row. -/
theorem qblk_proj
    (h4 : ∀ (b : Fin 4) (t : Fin 4096) (h : Fin 128), (V c main_v4 : S4x4096x128.Idx → EReal) (ix3 b t h) = Cert.Spec.proj x wq b t h)
    (t : Fin cfg1.N) (r : Fin 1024) (h : Fin 128) :
    qblk V c t (ix3 (0 : Fin 1) r h) = Cert.Spec.proj x wq (attnB t) (attnRow t r) h :=
  (iblk1_0_apply V c t r h).trans (h4 (attnB t) (attnRow t r) h)

/-- Where the body runs an update, an entry of the key block is the key projection of row j of tile ki. -/
theorem kblk_proj
    (h5 : ∀ (b : Fin 4) (t : Fin 4096) (h : Fin 128), (V c main_v5 : S4x4096x128.Idx → EReal) (ix3 b t h) = Cert.Spec.proj x wk b t h)
    (t : Fin cfg1.N) (hle : t.val % 4 ≤ t.val / 4 % 4) (j : Fin 1024) (h : Fin 128) :
    kblk V c t (ix3 (0 : Fin 1) j h) = Cert.Spec.proj x wk (attnB t) (Cert.Softmax.tileIx 4 1024 (attnKi t) j) h := by
  refine (iblk1_1_apply V c t j h).trans ?_
  refine (h5 (attnB t) _ h).trans ?_
  refine congrArg (fun s : Fin 4096 => Cert.Spec.proj x wk (attnB t) s h) (Fin.ext ?_)
  show min (t.val % 4) (t.val / 4 % 4) * 1024 + j.val = t.val % 4 * 1024 + j.val
  rw [Nat.min_eq_left hle]

/-- The same of the value block. -/
theorem vblk_proj
    (h6 : ∀ (b : Fin 4) (t : Fin 4096) (h : Fin 128), (V c main_v6 : S4x4096x128.Idx → EReal) (ix3 b t h) = Cert.Spec.proj x wv b t h)
    (t : Fin cfg1.N) (hle : t.val % 4 ≤ t.val / 4 % 4) (j : Fin 1024) (h : Fin 128) :
    vblk V c t (ix3 (0 : Fin 1) j h) = Cert.Spec.proj x wv (attnB t) (Cert.Softmax.tileIx 4 1024 (attnKi t) j) h := by
  refine (iblk1_2_apply V c t j h).trans ?_
  refine (h6 (attnB t) _ h).trans ?_
  refine congrArg (fun s : Fin 4096 => Cert.Spec.proj x wv (attnB t) s h) (Fin.ext ?_)
  show min (t.val % 4) (t.val / 4 % 4) * 1024 + j.val = t.val % 4 * 1024 + j.val
  rw [Nat.min_eq_left hle]

/-- The blocks' unmasked score of row r against key j is the scaled inner product of the query row with key j of tile ki. -/
theorem score_blocks
    (h4 : ∀ (b : Fin 4) (t : Fin 4096) (h : Fin 128), (V c main_v4 : S4x4096x128.Idx → EReal) (ix3 b t h) = Cert.Spec.proj x wq b t h)
    (h5 : ∀ (b : Fin 4) (t : Fin 4096) (h : Fin 128), (V c main_v5 : S4x4096x128.Idx → EReal) (ix3 b t h) = Cert.Spec.proj x wk b t h)
    (t : Fin cfg1.N) (hle : t.val % 4 ≤ t.val / 4 % 4) (r j : Fin 1024) :
    Cert.KernelIdeal.AttnPay.score (qblk V c t) (kblk V c t) r j
      = (∑ h : Fin 128, Cert.Spec.proj x wq (attnB t) (attnRow t r) h
            * Cert.Spec.proj x wk (attnB t) (Cert.Softmax.tileIx 4 1024 (attnKi t) j) h) * Ideal.ofBits .f32 0x3CB504F3#32 := by
  unfold Cert.KernelIdeal.AttnPay.score
  refine congrArg (· * Ideal.ofBits .f32 0x3CB504F3#32) (Finset.sum_congr rfl fun h _ => ?_)
  rw [qblk_proj V c h4 t r h, kblk_proj V c h5 t hle j h]

/-! ## The body's score rows and value column as tiles of the specification's -/

/-- Strictly below the diagonal (ki < qi) the unmasked score row is tile ki of the specification's score row: every key
    of the tile comes before the query row. -/
theorem srow_tile
    (h4 : ∀ (b : Fin 4) (t : Fin 4096) (h : Fin 128), (V c main_v4 : S4x4096x128.Idx → EReal) (ix3 b t h) = Cert.Spec.proj x wq b t h)
    (h5 : ∀ (b : Fin 4) (t : Fin 4096) (h : Fin 128), (V c main_v5 : S4x4096x128.Idx → EReal) (ix3 b t h) = Cert.Spec.proj x wk b t h)
    (t : Fin cfg1.N) (hlt : t.val % 4 < t.val / 4 % 4) (r j : Fin 1024) :
    srow V c t r j = Cert.Spec.score x wq wk (attnB t) (attnRow t r) (Cert.Softmax.tileIx 4 1024 (attnKi t) j) := by
  have hle : (Cert.Softmax.tileIx 4 1024 (attnKi t) j).val ≤ (attnRow t r).val := by
    show t.val % 4 * 1024 + j.val ≤ t.val / 4 % 4 * 1024 + r.val
    have := j.isLt; omega
  rw [srow_apply, score_blocks V c h4 h5 t (Nat.le_of_lt hlt) r j]
  unfold Cert.Spec.score
  exact (if_pos hle).symm

/-- On the diagonal (ki = qi) the masked score row is tile ki of the specification's: key j of the tile comes no later
    than query row r exactly when j ≤ r. -/
theorem mrow_tile
    (h4 : ∀ (b : Fin 4) (t : Fin 4096) (h : Fin 128), (V c main_v4 : S4x4096x128.Idx → EReal) (ix3 b t h) = Cert.Spec.proj x wq b t h)
    (h5 : ∀ (b : Fin 4) (t : Fin 4096) (h : Fin 128), (V c main_v5 : S4x4096x128.Idx → EReal) (ix3 b t h) = Cert.Spec.proj x wk b t h)
    (t : Fin cfg1.N) (heq : t.val % 4 = t.val / 4 % 4) (r j : Fin 1024) :
    mrow V c t r j = Cert.Spec.score x wq wk (attnB t) (attnRow t r) (Cert.Softmax.tileIx 4 1024 (attnKi t) j) := by
  rw [mrow_apply V c t heq r j]
  by_cases hjr : j.val ≤ r.val
  · have hle : (Cert.Softmax.tileIx 4 1024 (attnKi t) j).val ≤ (attnRow t r).val := by
      show t.val % 4 * 1024 + j.val ≤ t.val / 4 % 4 * 1024 + r.val
      omega
    rw [if_pos hjr, score_blocks V c h4 h5 t (Nat.le_of_eq heq) r j]
    unfold Cert.Spec.score
    exact (if_pos hle).symm
  · have hgt : ¬ (Cert.Softmax.tileIx 4 1024 (attnKi t) j).val ≤ (attnRow t r).val := by
      show ¬ t.val % 4 * 1024 + j.val ≤ t.val / 4 % 4 * 1024 + r.val
      omega
    rw [if_neg hjr]
    unfold Cert.Spec.score
    exact (if_neg hgt).symm

/-- Where the body runs an update, column h of the value block is tile ki of column h of the value projection. -/
theorem vcol_tile
    (h6 : ∀ (b : Fin 4) (t : Fin 4096) (h : Fin 128), (V c main_v6 : S4x4096x128.Idx → EReal) (ix3 b t h) = Cert.Spec.proj x wv b t h)
    (t : Fin cfg1.N) (hle : t.val % 4 ≤ t.val / 4 % 4) (h : Fin 128) (j : Fin 1024) :
    vcol V c t h j = Cert.Spec.proj x wv (attnB t) (Cert.Softmax.tileIx 4 1024 (attnKi t) j) h :=
  vblk_proj V c h6 t hle j h

end AtIdeal

end Cert.KernelIdeal.Hand

end
-- ==== Proof.SpecOnline.lean ====
/-
  The specification meets the online softmax.

  When every entry of the four arguments is a real number, every projected entry is a real, every score is
  -∞ (above the diagonal) or a real, and the score against key 0 is a real: the hypotheses under which the
  online recurrence over 4 tiles of 1024 keys is the softmax-weighted sum. So the recurrence run on row t's
  scores and column h of the values ends at the specification's attn. Keys of tiles past the query row's own
  tile are above the diagonal, so their scores are -∞.
-/
import proofs.«147976_j43456479101605_2_alg».proof.Proof.Spec
import proofs.«147976_j43456479101605_2_alg».proof.Proof.LibOnlineSoftmax

noncomputable section

namespace Cert.Spec

open Idealize.ShloMosaic Idealize.ShloMosaic.ValueIdx Cert.Attn Cert.Softmax
open scoped BigOperators

/-- the scale's float word is a real number -/
theorem scale_real : ∃ r : ℝ, Ideal.ofBits .f32 0x3CB504F3#32 = (r : EReal) := by
  unfold Ideal.ofBits Ideal.ieee
  dsimp only
  rw [if_neg (by decide), if_neg (by decide)]
  exact ⟨_, rfl⟩

/-- a projection of real tokens by a real matrix is real -/
theorem proj_real (x : XIdx → EReal) (w : WIdx → EReal) (hx : ∀ i, ∃ r : ℝ, x i = (r : EReal))
    (hw : ∀ i, ∃ r : ℝ, w i = (r : EReal)) (b : Fin 4) (t : Fin 4096) (h : Fin 128) :
    ∃ r : ℝ, proj x w b t h = (r : EReal) := by
  choose xr hxr using hx
  choose wr hwr using hw
  refine ⟨∑ c : Fin 2048, xr (ix3 b t c) * wr (ix2 c h), ?_⟩
  unfold proj
  rw [coe_sum]
  refine Finset.sum_congr rfl fun c _ => ?_
  rw [hxr, hwr, EReal.coe_mul]

/-- a score at or below the diagonal is real -/
theorem score_real (x : XIdx → EReal) (wq wk : WIdx → EReal) (hx : ∀ i, ∃ r : ℝ, x i = (r : EReal))
    (hq : ∀ i, ∃ r : ℝ, wq i = (r : EReal)) (hk : ∀ i, ∃ r : ℝ, wk i = (r : EReal)) (b : Fin 4) (t s : Fin 4096)
    (hst : s.val ≤ t.val) : ∃ r : ℝ, score x wq wk b t s = (r : EReal) := by
  choose qr hqr using fun h => proj_real x wq hx hq b t h
  choose kr hkr using fun h => proj_real x wk hx hk b s h
  obtain ⟨c, hc⟩ := scale_real
  refine ⟨(∑ h : Fin 128, qr h * kr h) * c, ?_⟩
  unfold score
  rw [if_pos hst, hc, EReal.coe_mul, coe_sum]
  refine congrArg (· * (c : EReal)) (Finset.sum_congr rfl fun h _ => ?_)
  rw [hqr, hkr, EReal.coe_mul]

/-- every score is -∞ or real -/
theorem score_bot_or_real (x : XIdx → EReal) (wq wk : WIdx → EReal) (hx : ∀ i, ∃ r : ℝ, x i = (r : EReal))
    (hq : ∀ i, ∃ r : ℝ, wq i = (r : EReal)) (hk : ∀ i, ∃ r : ℝ, wk i = (r : EReal)) (b : Fin 4) (t s : Fin 4096) :
    score x wq wk b t s = ⊥ ∨ ∃ r : ℝ, score x wq wk b t s = (r : EReal) := by
  by_cases hst : s.val ≤ t.val
  · exact Or.inr (score_real x wq wk hx hq hk b t s hst)
  · left; unfold score; rw [if_neg hst]

/-- the score against a key of a tile past the query row's own tile is -∞ -/
theorem score_tile_masked (x : XIdx → EReal) (wq wk : WIdx → EReal) (b : Fin 4) (t : Fin 4096) (n : ℕ)
    (hn : t.val < n * 1024) (t' : Fin 4) (j : Fin 1024) (ht' : n ≤ t'.val) :
    (score x wq wk b t : Fin (4 * 1024) → EReal) (tileIx 4 1024 t' j) = ⊥ := by
  have hlt : ¬ (t'.val * 1024 + j.val ≤ t.val) := by
    have : n * 1024 ≤ t'.val * 1024 := Nat.mul_le_mul_right _ ht'
    omega
  show (if t'.val * 1024 + j.val ≤ t.val then _ else ⊥) = ⊥
  rw [if_neg hlt]

/-- the online recurrence over the 4 key tiles, run on row t's scores and column h of the values, ends at the
    specification -/
theorem attn_eq_online (x : XIdx → EReal) (wk wq wv : WIdx → EReal) (hx : ∀ i, ∃ r : ℝ, x i = (r : EReal))
    (hk : ∀ i, ∃ r : ℝ, wk i = (r : EReal)) (hq : ∀ i, ∃ r : ℝ, wq i = (r : EReal))
    (hv : ∀ i, ∃ r : ℝ, wv i = (r : EReal)) (b : Fin 4) (t : Fin 4096) (h : Fin 128) :
    Ideal.div (run 4 1024 (score x wq wk b t) (fun s => proj x wv b s h) 4).2.2
        (run 4 1024 (score x wq wk b t) (fun s => proj x wv b s h) 4).2.1
      = attn x wk wq wv b t h :=
  (online_softmax 4 1024 (by decide) (by decide) (score x wq wk b t) (fun s => proj x wv b s h)
      (fun s => score_bot_or_real x wq wk hx hq hk b t s)
      (score_real x wq wk hx hq hk b t _ (Nat.zero_le _))
      (fun s => proj_real x wv hx hv b s h)).trans (attn_tiles x wk wq wv b t h).symm

end Cert.Spec
-- ==== Proof.SpecOut.lean ====
/-
  The online recurrence's last step.

  A kernel that keeps the running (maximum, denominator, numerator) does not divide at the end: it multiplies the
  numerator by the reciprocal of the denominator, guarded by "the denominator is positive". After n ≥ 1 tiles, the
  tiles from n on being entirely -∞, the state is already the final one, its denominator a positive real and its
  numerator a real; so the guard holds and the guarded product is the quotient of the recurrence over all the tiles.
-/
import proofs.«147976_j43456479101605_2_alg».proof.Proof.LibOnlineSoftmax

noncomputable section

namespace Cert.Softmax

open Cert.Attn Idealize.ShloMosaic
open scoped BigOperators

/-- once one tile has been read and the tiles from n on are entirely -∞, the state after n tiles has a positive
    real denominator and a real numerator -/
theorem final_real (T K : ℕ) (hT : 0 < T) (hK : 0 < K) (s v : Fin (T * K) → EReal)
    (hs : ∀ i, s i = ⊥ ∨ ∃ r : ℝ, s i = (r : EReal)) (h0 : ∃ r : ℝ, s ⟨0, Nat.mul_pos hT hK⟩ = (r : EReal))
    (hv : ∀ i, ∃ r : ℝ, v i = (r : EReal)) (n : ℕ) (hn : 1 ≤ n)
    (hmask : ∀ (t : Fin T) (j : Fin K), n ≤ t.val → s (tileIx T K t j) = ⊥) :
    ∃ a d : ℝ, 0 < d ∧ (run T K s v n).2.1 = (d : EReal) ∧ (run T K s v n).2.2 = (a : EReal) := by
  choose vr hvr using hv
  obtain ⟨m, hrun⟩ := run_eq T K hT hK s v hs h0 vr hvr T hT le_rfl
  rw [← run_masked_tail T K hT hK s v hs h0 n hn hmask, hrun]
  refine ⟨psum T K T (fun i => ew (s i) m * vr i), psum T K T (fun i => ew (s i) m), ?_, rfl, rfl⟩
  rw [psum_all]
  refine Finset.sum_pos' (fun i _ => ew_nonneg _ _) ⟨⟨0, Nat.mul_pos hT hK⟩, Finset.mem_univ _, ?_⟩
  obtain ⟨r0, hr0⟩ := h0
  rw [hr0]; exact ew_coe_pos r0 m

/-- the numerator after n tiles times the guarded reciprocal of the denominator is the quotient of the recurrence
    over all the tiles -/
theorem out_eq_div (T K : ℕ) (hT : 0 < T) (hK : 0 < K) (s v : Fin (T * K) → EReal)
    (hs : ∀ i, s i = ⊥ ∨ ∃ r : ℝ, s i = (r : EReal)) (h0 : ∃ r : ℝ, s ⟨0, Nat.mul_pos hT hK⟩ = (r : EReal))
    (hv : ∀ i, ∃ r : ℝ, v i = (r : EReal)) (n : ℕ) (hn : 1 ≤ n)
    (hmask : ∀ (t : Fin T) (j : Fin K), n ≤ t.val → s (tileIx T K t j) = ⊥) :
    (run T K s v n).2.2 * (if 0 < (run T K s v n).2.1 then Ideal.div 1 (run T K s v n).2.1 else 0)
      = Ideal.div (run T K s v T).2.2 (run T K s v T).2.1 := by
  obtain ⟨a, d, hd, e1, e2⟩ := final_real T K hT hK s v hs h0 hv n hn hmask
  rw [run_masked_tail T K hT hK s v hs h0 n hn hmask, e1, e2, if_pos (EReal.coe_pos.mpr hd),
    Ideal.div_coe hd.ne', Ideal.div_coe hd.ne', one_mul]

end Cert.Softmax
-- ==== Proof.KI.AttnValue.lean ====
/-
  The attention region's output array is the specification's attention.

  Fix a batch b, a query row tq = 1024 qi + r and an output column h. At the points (b, qi, ki) with ki ≤ qi the
  state's row r is the online-softmax recurrence over the key tiles 0 .. ki of row tq's scores and column h of the
  values: the first key block starts from (-∞, 0, 0), every later one continues from the point before, whose batch
  and query block are the same. On the diagonal ki = qi the body stores the output block: the numerator times the
  guarded reciprocal of the denominator. The points above the diagonal leave the state alone, so that block is what
  is written back at ki = 3. The key tiles past qi are entirely above the diagonal of row tq, hence -∞, and the
  first score of the row is real: the guarded product after qi + 1 tiles is the quotient of the recurrence over
  all four tiles, which is the softmax of the row against the values.
-/
import proofs.«147976_j43456479101605_2_alg».proof.Proof.KI.AttnTiles
import proofs.«147976_j43456479101605_2_alg».proof.Proof.KI.AttnStep
import proofs.«147976_j43456479101605_2_alg».proof.Proof.KI.AttnBlocks
import proofs.«147976_j43456479101605_2_alg».proof.Proof.Spec
import proofs.«147976_j43456479101605_2_alg».proof.Proof.SpecOnline
import proofs.«147976_j43456479101605_2_alg».proof.Proof.SpecOut
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

open Idealize.ShloMosaic.ValueIdx Cert.KernelIdeal.AttnPay Cert.Softmax

section Value
variable (V : (c : Dev nD) → (b : Ref sig .tc) → Buf (Elt Ideal) ((c : Thread nD τ).loc b)) (c : Dev nD)
  (x : Cert.Spec.XIdx → EReal) (wk wq wv : Cert.Spec.WIdx → EReal)
  (h4 : ∀ (b : Fin 4) (t : Fin 4096) (h : Fin 128), (V c main_v4 : S4x4096x128.Idx → EReal) (ix3 b t h) = Cert.Spec.proj x wq b t h)
  (h5 : ∀ (b : Fin 4) (t : Fin 4096) (h : Fin 128), (V c main_v5 : S4x4096x128.Idx → EReal) (ix3 b t h) = Cert.Spec.proj x wk b t h)
  (h6 : ∀ (b : Fin 4) (t : Fin 4096) (h : Fin 128), (V c main_v6 : S4x4096x128.Idx → EReal) (ix3 b t h) = Cert.Spec.proj x wv b t h)

/-- row tq's scores, the 4096 keys numbered as 4 tiles of 1024 -/
abbrev sc (b : Fin 4) (tq : Fin 4096) : Fin (4 * 1024) → EReal := Cert.Spec.score x wq wk b tq
/-- column h of the values, likewise -/
abbrev vc (b : Fin 4) (h : Fin 128) : Fin (4 * 1024) → EReal := fun s => Cert.Spec.proj x wv b s h

/-- the state depends on the point's number only -/
theorem outsAt1_congr {n n' : ℕ} (hn : n < cfg1.N) (hn' : n' < cfg1.N) (e : n = n') :
    outsAt1 V c n hn = outsAt1 V c n' hn' := by
  subst e; rfl

include h4 h5 h6 in
/-- One point at or below the diagonal: its row is one more tile of the recurrence, given that the point before
    (when the key block is not the first) had read the tiles before. -/
theorem row_point (t : Fin cfg1.N) (hle : t.val % 4 ≤ t.val / 4 % 4) (r : Fin 1024) (h : Fin 128)
    (hprev : ¬ t.val % 4 = 0 → row (outsAt1 V c (t.val - 1) (prevLt t)) r h
      = run 4 1024 (sc x wk wq (attnB t) (attnRow t r)) (vc x wv (attnB t) h) (t.val % 4)) :
    row (outsAt1 V c t.val t.isLt) r h
      = run 4 1024 (sc x wk wq (attnB t) (attnRow t r)) (vc x wv (attnB t) h) (t.val % 4 + 1) := by
  have hk : t.val % 4 < 4 := Nat.mod_lt _ (by decide)
  rw [run_succ_of_lt 4 1024 _ _ (t.val % 4) hk]
  have hv : vcol V c t h = fun j => vc x wv (attnB t) h (tileIx 4 1024 ⟨t.val % 4, hk⟩ j) :=
    funext fun j => vcol_tile V c h6 t hle h j
  by_cases h0 : t.val % 4 = 0
  · have hz : run 4 1024 (sc x wk wq (attnB t) (attnRow t r)) (vc x wv (attnB t) h) (t.val % 4) = ((⊥ : EReal), (0 : EReal), (0 : EReal)) := by
      rw [h0]; rfl
    rw [hz]
    by_cases heq : t.val % 4 = t.val / 4 % 4
    · have hs : mrow V c t r = fun j => sc x wk wq (attnB t) (attnRow t r) (tileIx 4 1024 ⟨t.val % 4, hk⟩ j) :=
        funext fun j => mrow_tile V c h4 h5 t heq r j
      rw [outsAt1_A V c t h0 heq, stA_row, hs, hv]
    · have hlt : t.val % 4 < t.val / 4 % 4 := by omega
      have hs : srow V c t r = fun j => sc x wk wq (attnB t) (attnRow t r) (tileIx 4 1024 ⟨t.val % 4, hk⟩ j) :=
        funext fun j => srow_tile V c h4 h5 t hlt r j
      rw [outsAt1_B V c t h0 hlt, stB_row, hs, hv]
  · rw [← hprev h0]
    by_cases heq : t.val % 4 = t.val / 4 % 4
    · have hs : mrow V c t r = fun j => sc x wk wq (attnB t) (attnRow t r) (tileIx 4 1024 ⟨t.val % 4, hk⟩ j) :=
        funext fun j => mrow_tile V c h4 h5 t heq r j
      rw [outsAt1_D V c t h0 heq, stD_row, hs, hv]
    · have hlt : t.val % 4 < t.val / 4 % 4 := by omega
      have hs : srow V c t r = fun j => sc x wk wq (attnB t) (attnRow t r) (tileIx 4 1024 ⟨t.val % 4, hk⟩ j) :=
        funext fun j => srow_tile V c h4 h5 t hlt r j
      rw [outsAt1_C V c t h0 hlt, stC_row, hs, hv]

include h4 h5 h6 in
/-- By induction on the point's number: at a point (b, qi, ki) with ki ≤ qi the state's row is the recurrence over
    the key tiles 0 .. ki. -/
theorem row_run_nat : ∀ (n : ℕ) (hn : n < cfg1.N), n % 4 ≤ n / 4 % 4 → ∀ (r : Fin 1024) (h : Fin 128),
    row (outsAt1 V c n hn) r h
      = run 4 1024 (sc x wk wq (attnB ⟨n, hn⟩) (attnRow ⟨n, hn⟩ r)) (vc x wv (attnB ⟨n, hn⟩) h) (n % 4 + 1) := by
  intro n
  induction n with
  | zero =>
    intro hn hle r h
    exact row_point V c x wk wq wv h4 h5 h6 ⟨0, hn⟩ hle r h (fun h0 => absurd rfl h0)
  | succ n ih =>
    intro hn hle r h
    refine row_point V c x wk wq wv h4 h5 h6 ⟨n + 1, hn⟩ hle r h (fun h0 => ?_)
    have h0' : ¬ (n + 1) % 4 = 0 := h0
    have hle' : (n + 1) % 4 ≤ (n + 1) / 4 % 4 := hle
    have hn' : n < cfg1.N := Nat.lt_of_succ_lt hn
    have eB : attnB ⟨n, hn'⟩ = attnB ⟨n + 1, hn⟩ := Fin.ext (by show n / 16 = (n + 1) / 16; omega)
    have eR : attnRow ⟨n, hn'⟩ r = attnRow ⟨n + 1, hn⟩ r :=
      Fin.ext (by show n / 4 % 4 * 1024 + r.val = (n + 1) / 4 % 4 * 1024 + r.val; omega)
    have e4 : n % 4 + 1 = (n + 1) % 4 := by omega
    have IH := ih hn' (by omega) r h
    rw [eB, eR, e4] at IH
    exact IH

include h4 h5 h6 in
theorem row_run (t : Fin cfg1.N) (hle : t.val % 4 ≤ t.val / 4 % 4) (r : Fin 1024) (h : Fin 128) :
    row (outsAt1 V c t.val t.isLt) r h
      = Cert.Softmax.run 4 1024 (Cert.Spec.score x wq wk (attnB t) (attnRow t r))
          (fun s => Cert.Spec.proj x wv (attnB t) s h) (t.val % 4 + 1) :=
  row_run_nat V c x wk wq wv h4 h5 h6 t.val t.isLt hle r h

/-- Above the diagonal nothing moves: k points past a diagonal point the state is still the diagonal point's. -/
theorem outs_above (n : ℕ) (hd : n % 4 = n / 4 % 4) : ∀ (k : ℕ) (hk : n % 4 + k ≤ 3) (hn : n < cfg1.N) (hnk : n + k < cfg1.N),
    outsAt1 V c (n + k) hnk = outsAt1 V c n hn := by
  intro k
  induction k with
  | zero => intro _ hn hnk; rfl
  | succ k ih =>
    intro hk hn hnk
    have hnk' : n + k < cfg1.N := Nat.lt_of_succ_lt hnk
    have h1 : (n + (k + 1)) / 4 = n / 4 := by omega
    have h2 : (n + (k + 1)) % 4 = n % 4 + (k + 1) := by omega
    have e := outsAt1_E V c ⟨n + (k + 1), hnk⟩
      (by show ¬ (n + (k + 1)) % 4 = (n + (k + 1)) / 4 % 4; rw [h1, h2]; omega)
      (by show ¬ (n + (k + 1)) % 4 < (n + (k + 1)) / 4 % 4; rw [h1, h2]; omega)
    exact e.trans ((outsAt1_congr V c _ hnk' (by show n + (k + 1) - 1 = n + k; omega)).trans (ih (by omega) hn hnk'))

/-- On the diagonal the stored output block is the numerator times the guarded reciprocal of the denominator. -/
theorem out_diag (t : Fin cfg1.N) (heq : t.val % 4 = t.val / 4 % 4) (r : Fin 1024) (h : Fin 128) :
    (outsAt1 V c t.val t.isLt).1 (ix3 (0 : Fin 1) r h)
      = (row (outsAt1 V c t.val t.isLt) r h).2.2
        * (if 0 < (row (outsAt1 V c t.val t.isLt) r h).2.1 then Ideal.div 1 (row (outsAt1 V c t.val t.isLt) r h).2.1 else 0) := by
  by_cases h0 : t.val % 4 = 0
  · rw [outsAt1_A V c t h0 heq]; exact stA_out V c t h0 heq r h
  · rw [outsAt1_D V c t h0 heq]; exact stD_out V c t h0 heq _ r h

include h4 h5 h6 in
/-- The region's output array is the specification's attention, for real arguments. -/
theorem attn_value (hx : ∀ i, ∃ r : ℝ, x i = (r : EReal)) (hk : ∀ i, ∃ r : ℝ, wk i = (r : EReal))
    (hq : ∀ i, ∃ r : ℝ, wq i = (r : EReal)) (hv : ∀ i, ∃ r : ℝ, wv i = (r : EReal))
    (b : Fin 4) (tq : Fin 4096) (h : Fin 128) :
    ((dat1 (F := Ideal) V c).arrAt 3 cfg1.N : S4x4096x128.Idx → EReal) (ix3 b tq h) = Cert.Spec.attn x wk wq wv b tq h := by
  have hN : cfg1.N = 64 := N_1
  have hb := b.isLt
  have htq := tq.isLt
  -- the diagonal point of tq's query block, and tq's row inside the block
  obtain ⟨qi, hqi⟩ : ∃ qi, qi = tq.val / 1024 := ⟨_, rfl⟩
  have hqi4 : qi < 4 := by omega
  have hdN : 16 * b.val + 4 * qi + qi < cfg1.N := by rw [hN]; omega
  obtain ⟨r, hr⟩ : ∃ r : Fin 1024, r = ⟨tq.val % 1024, Nat.mod_lt _ (by decide)⟩ := ⟨_, rfl⟩
  have hd4 : (16 * b.val + 4 * qi + qi) / 4 = 4 * b.val + qi := by omega
  have hdiag : (16 * b.val + 4 * qi + qi) % 4 = (16 * b.val + 4 * qi + qi) / 4 % 4 := by rw [hd4]; omega
  have eB : attnB ⟨16 * b.val + 4 * qi + qi, hdN⟩ = b := Fin.ext (by show (16 * b.val + 4 * qi + qi) / 16 = b.val; omega)
  have hrv : r.val = tq.val % 1024 := congrArg Fin.val hr
  have eR : attnRow ⟨16 * b.val + 4 * qi + qi, hdN⟩ r = tq :=
    Fin.ext (by
      show (16 * b.val + 4 * qi + qi) / 4 % 4 * 1024 + r.val = tq.val
      have hq1 : (16 * b.val + 4 * qi + qi) / 4 % 4 = qi := by rw [hd4]; omega
      rw [hq1, hrv]; omega)
  have e4 : (16 * b.val + 4 * qi + qi) % 4 + 1 = qi + 1 := by omega
  -- the array is the staging buffer at the last key block, which is still the diagonal point's
  rw [arr1_3 V c b tq h]
  have hlast : 16 * b.val + 4 * (tq.val / 1024) + 3 = (16 * b.val + 4 * qi + qi) + (3 - qi) := by omega
  rw [outsAt1_congr V c _ (by rw [hN]; omega) hlast,
    outs_above V c (16 * b.val + 4 * qi + qi) hdiag (3 - qi) (by omega) hdN (by rw [hN]; omega), ← hr]
  -- there the output is the guarded product of the row after qi + 1 tiles
  have hrow := row_run_nat V c x wk wq wv h4 h5 h6 (16 * b.val + 4 * qi + qi) hdN (le_of_eq hdiag) r h
  rw [eB, eR, e4] at hrow
  rw [out_diag V c ⟨16 * b.val + 4 * qi + qi, hdN⟩ hdiag r h, hrow]
  -- which is the quotient over all the tiles, the later tiles being masked, hence the specification
  rw [out_eq_div 4 1024 (by decide) (by decide) (sc x wk wq b tq) (vc x wv b h)
    (fun s => Cert.Spec.score_bot_or_real x wq wk hx hq hk b tq s)
    (Cert.Spec.score_real x wq wk hx hq hk b tq _ (Nat.zero_le _))
    (fun s => Cert.Spec.proj_real x wv hx hv b s h) (qi + 1) (Nat.succ_le_succ (Nat.zero_le _))
    (fun t' j ht' => Cert.Spec.score_tile_masked x wq wk b tq (qi + 1) (by omega) t' j ht')]
  exact Cert.Spec.attn_eq_online x wk wq wv hx hk hq hv b tq h

end Value

end Cert.KernelIdeal.Hand

end
-- ==== Proof.RefValue.lean ====
/-
  The reference program's result is the attention specification, index by index.

  The reference computes keys, queries and values by three contractions over the 2048 input columns, the
  scores by a contraction over the 128 head entries times the scale, masks them with the lower triangle
  (row number ≥ column number) by -∞, subtracts each row's maximum (taken from -∞, then once more against
  -∞), exponentiates, divides by the row's sum (from 0) and contracts with the values over the 4096 keys.
  Read at an index, stage by stage, that is Cert.Spec.attn.
-/
import proofs.«147976_j43456479101605_2_alg».proof.Proof.Gen.ReferenceIdeal.Read
import proofs.«147976_j43456479101605_2_alg».proof.Proof.Spec
import proofs.«147976_j43456479101605_2_alg».proof.Proof.Gen.Pre_finite_inputs
import proofs.«147976_j43456479101605_2_alg».proof.Defs
import Idealize.ShloMosaic.Lib.Affine

noncomputable section

namespace Cert.ReferenceIdeal.RefValue

open Cert.ReferenceIdeal Cert.ReferenceIdeal.Gen Cert.ReferenceIdeal.Read Cert.Spec Cert.Attn
open Idealize.ShloMosaic Idealize.ShloMosaic.ValueIdx Idealize.SL.Sem
open scoped BigOperators

/-! ### The three projections -/

/-- a key entry: row (b, t) of the tokens against column h of the key matrix -/
theorem v0_apply (x : XIdx → EReal) (w : WIdx → EReal) (i : S4x4096x128.Idx) :
    val_main_v0 (F := Ideal) x w i = proj x w (i 0) (i 1) (i 2) := by
  rw [val_main_v0_apply]
  refine Finset.sum_congr rfl fun k _ => ?_
  have e1 : lidx_main_v0 i k = ix3 (i 0) (i 1) k :=
    funext fun a => by match a with | ⟨0, _⟩ => rfl | ⟨1, _⟩ => rfl | ⟨2, _⟩ => rfl
  have e2 : ridx_main_v0 i k = ix2 k (i 2) :=
    funext fun a => by match a with | ⟨0, _⟩ => rfl | ⟨1, _⟩ => rfl
  rw [e1, e2]
  rfl

/-- a query entry -/
theorem v1_apply (x : XIdx → EReal) (w : WIdx → EReal) (i : S4x4096x128.Idx) :
    val_main_v1 (F := Ideal) x w i = proj x w (i 0) (i 1) (i 2) := by
  rw [val_main_v1_apply]
  refine Finset.sum_congr rfl fun k _ => ?_
  have e1 : lidx_main_v1 i k = ix3 (i 0) (i 1) k :=
    funext fun a => by match a with | ⟨0, _⟩ => rfl | ⟨1, _⟩ => rfl | ⟨2, _⟩ => rfl
  have e2 : ridx_main_v1 i k = ix2 k (i 2) :=
    funext fun a => by match a with | ⟨0, _⟩ => rfl | ⟨1, _⟩ => rfl
  rw [e1, e2]
  rfl

/-- a value entry -/
theorem v2_apply (x : XIdx → EReal) (w : WIdx → EReal) (i : S4x4096x128.Idx) :
    val_main_v2 (F := Ideal) x w i = proj x w (i 0) (i 1) (i 2) := by
  rw [val_main_v2_apply]
  refine Finset.sum_congr rfl fun k _ => ?_
  have e1 : lidx_main_v2 i k = ix3 (i 0) (i 1) k :=
    funext fun a => by match a with | ⟨0, _⟩ => rfl | ⟨1, _⟩ => rfl | ⟨2, _⟩ => rfl
  have e2 : ridx_main_v2 i k = ix2 k (i 2) :=
    funext fun a => by match a with | ⟨0, _⟩ => rfl | ⟨1, _⟩ => rfl
  rw [e1, e2]
  rfl

/-! ### The scaled scores -/

/-- the scaled inner product of query row (b, t) and key row (b, s) -/
theorem v5_apply (x : XIdx → EReal) (wk wq : WIdx → EReal) (i : S4x4096x4096.Idx) :
    val_main_v5 (F := Ideal) x wk wq i
      = (∑ h : Fin 128, proj x wq (i 0) (i 1) h * proj x wk (i 0) (i 2) h) * Ideal.ofBits .f32 0x3CB504F3#32 := by
  rw [val_main_v5_apply, val_main_v3_apply, val_main_v4_apply, val_main_cst_apply]
  show (∑ k : Fin 128, _) * Ideal.ofBits .f32 0x3CB504F3#32 = _
  refine congrArg (· * Ideal.ofBits .f32 0x3CB504F3#32) (Finset.sum_congr rfl fun k _ => ?_)
  rw [v1_apply, v0_apply]
  rfl

/-! ### The causal mask -/

/-- the lower-triangle mask at (t, s): row number ≥ column number -/
theorem v7_apply (j : S4096x4096.Idx) :
    val_main_v7 (F := Ideal) j = if (j 1).val ≤ (j 0).val then 1#1 else 0#1 := by
  rw [val_main_v7_apply, val_main_call0_v4_apply, val_main_call0_v2_apply, val_main_call0_v0_apply,
    val_main_call0_v1_apply, val_main_call0_c_apply, val_main_call0_v3_apply, val_main_v6_apply, val_main_c_apply,
    val_main_call0_v5_apply, val_main_call0_c_0_apply]
  have h0 : (j 0).val < 4096 := (j 0).isLt
  have h1 : (j 1).val < 4096 := (j 1).isLt
  have ha : IntOp.addi (BitVec.ofNat 32 (j 0).val) 0#32 = BitVec.ofNat 32 (j 0).val := by
    show BitVec.ofNat 32 (j 0).val + 0#32 = _
    rw [BitVec.add_zero]
  rw [ha]
  have n0 : (BitVec.ofNat 32 (j 0).val).toNat = (j 0).val := by rw [BitVec.toNat_ofNat]; omega
  have n1 : (BitVec.ofNat 32 (j 1).val).toNat = (j 1).val := by rw [BitVec.toNat_ofNat]; omega
  have t0 : (BitVec.ofNat 32 (j 0).val).toInt = ((j 0).val : Int) := by
    rw [BitVec.toInt_eq_toNat_of_lt (by rw [n0]; omega), n0]
  have t1 : (BitVec.ofNat 32 (j 1).val).toInt = ((j 1).val : Int) := by
    rw [BitVec.toInt_eq_toNat_of_lt (by rw [n1]; omega), n1]
  by_cases hle : (j 1).val ≤ (j 0).val
  · rw [if_pos hle, (IntOp.cmpi_sge).mpr (by rw [t0, t1]; exact_mod_cast hle)]
    exact select_one _ _
  · rw [if_neg hle]
    have hc : IntOp.cmpi .sge (BitVec.ofNat 32 (j 0).val) (BitVec.ofNat 32 (j 1).val) = 0#1 :=
      eq_zero_of_ne_one (fun h => hle (by have := (IntOp.cmpi_sge).mp h; rw [t0, t1] at this; exact_mod_cast this))
    rw [hc]
    exact select_zero _ _

/-- the float word 0xFF800000 is -∞ -/
theorem neg_inf : Ideal.ofBits .f32 0xFF800000#32 = ⊥ := by simp [Ideal.ofBits, Ideal.ieee]

/-- the masked scores are the specification's -/
theorem v8_apply (x : XIdx → EReal) (wk wq : WIdx → EReal) (i : S4x4096x4096.Idx) :
    val_main_v8 (F := Ideal) x wk wq i = score x wq wk (i 0) (i 1) (i 2) := by
  rw [val_main_v8_apply, val_main_call1_v1_apply, v7_apply, val_main_call1_v2_apply, val_main_call1_v0_apply,
    val_main_cst_0_apply, v5_apply]
  show Scalar.select (if (i 2).val ≤ (i 1).val then 1#1 else 0#1) _ (Ideal.ofBits .f32 0xFF800000#32) = _
  unfold score
  by_cases hle : (i 2).val ≤ (i 1).val
  · rw [if_pos hle, if_pos hle]; exact select_one _ _
  · rw [if_neg hle, if_neg hle, neg_inf]; exact select_zero _ _

/-! ### The row maximum -/

/-- the masked score at the reduced index (b, t) with key s put back on the last axis -/
theorem v8_lift (x : XIdx → EReal) (wk wq : WIdx → EReal) (h : S4x4096x4096.Reduces [2] S4x4096) (j : S4x4096.Idx)
    (k : Fin 4096) : val_main_v8 (F := Ideal) x wk wq (h.lift j k) = score x wq wk (j 0) (j 1) k := by
  rw [v8_apply]
  have e0 : (h.lift j k) 0 = j 0 := Fin.ext rfl
  have e1 : (h.lift j k) 1 = j 1 := Fin.ext rfl
  have e2 : (h.lift j k) 2 = k := Fin.ext rfl
  rw [e0, e1, e2]

/-- the maximum over the keys of row (b, t), from -∞ -/
theorem v9_apply (x : XIdx → EReal) (wk wq : WIdx → EReal) (j : S4x4096.Idx) :
    val_main_v9 (F := Ideal) x wk wq j = fmax (score x wq wk (j 0) (j 1)) := by
  have h : S4x4096x4096.Reduces [2] S4x4096 := by decide
  unfold val_main_v9
  rw [Host.reduce_eq_fold_single FloatOps.maximumf _ _ reducesTo_S4x4096x4096_S4x4096_d2 h h_S_ j, val_main_cst_1_apply]
  have hf : (val_main_v8 (F := Ideal) x wk wq ∘ h.lift j) = (score x wq wk (j 0) (j 1) : Fin 4096 → EReal) :=
    funext fun k => v8_lift x wk wq h j k
  show Finset.fold max (Ideal.ofBits .f32 0xFF800000#32) (val_main_v8 (F := Ideal) x wk wq ∘ h.lift j)
      (Finset.univ : Finset (Fin 4096)) = _
  rw [hf, neg_inf]
  rfl

/-- the row maximum, once more against -∞ -/
theorem v11_apply (x : XIdx → EReal) (wk wq : WIdx → EReal) (j : S4x4096.Idx) :
    val_main_v11 (F := Ideal) x wk wq j = max ⊥ (fmax (score x wq wk (j 0) (j 1))) := by
  rw [val_main_v11_apply, val_main_v10_apply, val_main_cst_2_apply, v9_apply]
  show max (Ideal.ofBits .f32 0xFF800000#32) _ = _
  rw [neg_inf]

/-! ### The softmax -/

/-- the exponential of a score less its row's maximum -/
theorem v15_apply (x : XIdx → EReal) (wk wq : WIdx → EReal) (i : S4x4096x4096.Idx) :
    val_main_v15 (F := Ideal) x wk wq i
      = Ideal.exp (score x wq wk (i 0) (i 1) (i 2) - max ⊥ (fmax (score x wq wk (i 0) (i 1)))) := by
  rw [val_main_v15_apply, val_main_v14_apply, v8_apply, val_main_v13_apply, val_main_v12_apply, v11_apply]
  rfl

/-- the row's sum of exponentials, from 0 -/
theorem v16_apply (x : XIdx → EReal) (wk wq : WIdx → EReal) (j : S4x4096.Idx) :
    val_main_v16 (F := Ideal) x wk wq j
      = 0 + ∑ k : Fin 4096, Ideal.exp (score x wq wk (j 0) (j 1) k - max ⊥ (fmax (score x wq wk (j 0) (j 1)))) := by
  rw [val_main_v16_apply, val_main_cst_3_apply]
  show Ideal.ofBits .f32 0x00000000#32 + _ = _
  rw [Ideal.ofBits_zero_f32]
  refine congrArg (0 + ·) (Finset.sum_congr rfl fun k _ => ?_)
  rw [v15_apply]
  rfl

/-- a softmax weight -/
theorem v19_apply (x : XIdx → EReal) (wk wq : WIdx → EReal) (i : S4x4096x4096.Idx) :
    val_main_v19 (F := Ideal) x wk wq i
      = Ideal.div (Ideal.exp (score x wq wk (i 0) (i 1) (i 2) - max ⊥ (fmax (score x wq wk (i 0) (i 1)))))
          (0 + ∑ k : Fin 4096, Ideal.exp (score x wq wk (i 0) (i 1) k - max ⊥ (fmax (score x wq wk (i 0) (i 1))))) := by
  rw [val_main_v19_apply, v15_apply, val_main_v18_apply, val_main_v17_apply, v16_apply]
  rfl

/-! ### The result -/

/-- the reference's result is the specification, index by index -/
theorem ref_eq (x : XIdx → EReal) (wk wq wv : WIdx → EReal) :
    val_main_v20 (F := Ideal) x wk wq wv = fun i => attn x wk wq wv (i 0) (i 1) (i 2) := by
  funext i
  rw [val_main_v20_apply]
  unfold attn
  refine Finset.sum_congr rfl fun k _ => ?_
  rw [v19_apply, v2_apply]
  rfl

/-- the reference runs to the end, faults nowhere and leaves its arguments unchanged: its run with the result
    dropped -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.Value.run (F := Ideal) m ρ)

end Cert.ReferenceIdeal.RefValue
-- ==== Proof.Finite.lean ====
/-
  From the precondition to real entries.

  The precondition says, of each of the four argument arrays, that every entry's absolute value is below +∞
  (the conjunction of the four "all entries" reductions is the bit 1). An extended real whose absolute value is
  below +∞ is neither -∞ nor +∞, so every entry of every argument is a real number.
-/
import proofs.«147976_j43456479101605_2_alg».proof.Defs
import proofs.«147976_j43456479101605_2_alg».proof.Proof.Gen.Pre_finite_inputs
import Idealize.ShloMosaic.Lib.ReduceAll
import Idealize.ShloMosaic.Lib.ValueIdx
import Idealize.ShloMosaic.Lib.Pipeline.Value

noncomputable section

namespace Cert.Finite

open Idealize.ShloMosaic Idealize.ShloMosaic.ValueIdx Idealize.ShloMosaic.TcCoe Idealize.SL.Sem Cert.Pre_finite_inputs

/-- the scalar shape has one index -/
instance : Subsingleton S_.Idx := ⟨fun _ _ => funext fun d => d.elim0⟩

/-- the float word 0x7F800000 is +∞ -/
theorem pos_inf : Ideal.ofBits .f32 0x7F800000#32 = ⊤ := by simp [Ideal.ofBits, Ideal.ieee]

/-- an extended real whose absolute value is below +∞ is a real -/
theorem real_of_abs_lt (x : EReal) (h : Ideal.cmp .olt (max x (-x)) (Ideal.ofBits .f32 0x7F800000#32) = 1#1) :
    ∃ r : ℝ, x = (r : EReal) := by
  rw [pos_inf] at h
  induction x using EReal.rec with
  | bot =>
    exfalso
    have e : max (⊥ : EReal) (-⊥) = ⊤ := by rw [EReal.neg_bot]; exact max_eq_right bot_le
    rw [e] at h
    revert h
    simp [Ideal.cmp]
  | coe r => exact ⟨r, rfl⟩
  | top =>
    exfalso
    have e : max (⊤ : EReal) (-⊤) = ⊤ := max_eq_left le_top
    rw [e] at h
    revert h
    simp [Ideal.cmp]

/-- an array all of whose entries test "absolute value below +∞" has only real entries -/
theorem all_real {s : Shape} {axes : List (Fin s.rank)} (x : FVec Ideal s .f32)
    (bc : S_.BroadcastsInDim s (![] : Fin 0 → Fin s.rank)) (h' : s.ReducesTo axes S_) (hu : 0 < S_.numel)
    (e : Host.reduce IntOp.andi (cmpf .olt (Host.absf x)
        (broadcastInDim s ![] bc (constant (F := Ideal) S_ .f32 0x7F800000#32))) (constantI S_ 1 1#1) h' hu ix0 = 1#1)
    (i : s.Idx) : ∃ r : ℝ, x i = (r : EReal) := by
  have hi := Host.reduce_andi_all _ _ h' hu ix0 e i
  rw [cmpf_apply, broadcastInDim_apply _ bc _ i ix0 (fun a => a.elim0)] at hi
  exact real_of_abs_lt (x i) hi

/-- the precondition's function is 1 only at arrays of reals -/
theorem fn_real [Cert.Pre_finite_inputs.Facts] (x0 : FVec Ideal S4x4096x2048 .f32) (x1 x2 x3 : FVec Ideal S2048x128 .f32)
    (h : Cert.Pre_finite_inputs.fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h ix0
  unfold Cert.Pre_finite_inputs.fn Cert.Pre_finite_inputs.fn_part1 at h0
  dsimp only at h0
  obtain ⟨h012, h3⟩ := IntOp.andi_eq_one.1 h0
  obtain ⟨h01, h2⟩ := IntOp.andi_eq_one.1 h012
  obtain ⟨h0', h1⟩ := IntOp.andi_eq_one.1 h01
  exact ⟨all_real x0 _ _ _ h0', all_real x1 _ _ _ h1, all_real x2 _ _ _ h2, all_real x3 _ _ _ h3⟩

/-- under the precondition every entry of every argument of the kernel program is a real -/
theorem real_of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal)) :=
  @fn_real Cert.Pre_finite_inputs.Gen.facts _ _ _ _ (hpre c)

end Cert.Finite
-- ==== Proof.lean ====
/-
  Causal single-head attention: a tiled kernel (a fused projection x·[Wq | Wk | Wv] over row blocks, then attention
  with an online softmax over key blocks, skipping the blocks above the diagonal) against the plain formula
  softmax(mask(q kᵀ · c)) v.
  Frames: both kernel programs run @main as four items — host operations, the projection region, host reshapes, the
  attention region — each entered from what the one before left; no item writes an argument array. The reference is a
  line of host operations.
  Values, on the extended reals with every input a real number: the projection's three output arrays are the three
  products x·Wq, x·Wk, x·Wv index by index; in the attention region a row's running (maximum, denominator, numerator)
  after key block ki is the online-softmax recurrence over the first ki + 1 tiles of that row's masked scores, the
  tiles above the diagonal are entirely -∞ and change nothing, the stored block is numerator / denominator with a
  positive real denominator, and the recurrence over all tiles is the softmax of the row against v — which is the
  reference's formula, spelt with the same maximum, the same exponentials and the same division.
  The finite stand-in -1e30 the kernel fills with reads as -∞ at the ideal values (the two recorded rewrites).
-/
import proofs.«147976_j43456479101605_2_alg».proof.Defs
import proofs.«147976_j43456479101605_2_alg».proof.Proof.Gen.Kernel
import proofs.«147976_j43456479101605_2_alg».proof.Proof.Gen.KernelIdeal
import proofs.«147976_j43456479101605_2_alg».proof.Proof.Gen.ReferenceIdeal
import proofs.«147976_j43456479101605_2_alg».proof.Proof.Gen.Pre_finite_inputs
import proofs.«147976_j43456479101605_2_alg».proof.Proof.K.Frame
import proofs.«147976_j43456479101605_2_alg».proof.Proof.KI.Frame
import proofs.«147976_j43456479101605_2_alg».proof.Proof.KI.GlueFrame
import proofs.«147976_j43456479101605_2_alg».proof.Proof.KI.AttnValue
import proofs.«147976_j43456479101605_2_alg».proof.Proof.RefValue
import proofs.«147976_j43456479101605_2_alg».proof.Proof.Finite
import Idealize.ShloMosaic.Adequacy
import Idealize.ShloMosaic.Init

noncomputable section

namespace Cert.Proof

open Idealize.ShloMosaic Idealize.SL.Sem

/-- The word-level program runs and leaves its arguments alone. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The two recorded rewrites: the fill value -1e30 is named, and the name denotes -∞ at the ideal values. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl⟩

open Cert.KernelIdeal Cert.KernelIdeal.Gen Cert.KernelIdeal.Hand in
/-- With real inputs, the attention region's output array is the attention formula of the four argument arrays. -/
theorem kernel_value (m : (ℓ : Loc nD τ sig) → Buf (Elt Ideal) ℓ) (ρ : Dev nD → PrngReg)
    (hpre : Cert.Pre_KernelIdeal (hPre_finite_inputs := Cert.Pre_finite_inputs.Gen.facts) m) (c : Dev nD) :
    (dat1 (F := Ideal) (U3 m ρ) c).arrAt 3 cfg1.N
      = fun i => Cert.Spec.attn (m ((c.tc : Thread nD τ).loc main_arg0)) (m ((c.tc : Thread nD τ).loc main_arg1))
          (m ((c.tc : Thread nD τ).loc main_arg2)) (m ((c.tc : Thread nD τ).loc main_arg3)) (i 0) (i 1) (i 2) := by
  obtain ⟨hx, hk, hq, hv⟩ := Cert.Finite.real_of_pre m hpre c
  funext i
  obtain ⟨b, t, h, rfl⟩ : ∃ (b : Fin 4) (t : Fin 4096) (h : Fin 128), i = ValueIdx.ix3 b t h := ⟨i 0, i 1, i 2, ValueIdx.eq_ix3 i⟩
  exact attn_value (U3 m ρ) c _ _ _ _ (fun b t h => (U3_qkv m ρ c b t h).1) (fun b t h => (U3_qkv m ρ c b t h).2.1)
    (fun b t h => (U3_qkv m ρ c b t h).2.2) hx hk hq hv b t h

/-- Both idealized programs end, from memories agreeing on the arguments, with the same result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun i => Cert.Spec.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (i 0) (i 1) (i 2), ?_, ?_⟩
  · refine (θ_run Cert.KernelIdeal.defs _ _).mono (fun r h c => ⟨?_, ?_⟩) (Cert.KernelIdeal.Hand.run_main m ρ)
    · exact (Cert.KernelIdeal.Hand.result_main_v7 m ρ r h c).trans (kernel_value m ρ hpre c)
    · exact ⟨(h c _ (Cert.KernelIdeal.Hand.mem_uc' Cert.KernelIdeal.main_arg0 (by decide))).trans (Cert.KernelIdeal.Hand.W4_main_arg0 m ρ c),
        (h c _ (Cert.KernelIdeal.Hand.mem_uc' Cert.KernelIdeal.main_arg1 (by decide))).trans (Cert.KernelIdeal.Hand.W4_main_arg1 m ρ c),
        (h c _ (Cert.KernelIdeal.Hand.mem_uc' Cert.KernelIdeal.main_arg2 (by decide))).trans (Cert.KernelIdeal.Hand.W4_main_arg2 m ρ c),
        (h c _ (Cert.KernelIdeal.Hand.mem_uc' Cert.KernelIdeal.main_arg3 (by decide))).trans (Cert.KernelIdeal.Hand.W4_main_arg3 m ρ c)⟩
  · refine (θ_run Cert.ReferenceIdeal.defs _ _).mono (fun _ h c => ⟨?_, (h c).2⟩)
      (Cert.ReferenceIdeal.Value.run (F := Ideal) m' ρ')
    rw [(h c).1, Cert.ReferenceIdeal.Read.val_main_v20_eq, Cert.ReferenceIdeal.RefValue.ref_eq,
      (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, preserves, algebraic⟩

end Cert.Proof

end
